-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S1600000x3 : Shape := ⟨2, ![1600000, 3]⟩
abbrev S256x1 : Shape := ⟨2, ![256, 1]⟩
abbrev S100000 : Shape := ⟨1, ![100000]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S16x50 : Shape := ⟨2, ![16, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S256x1 : S_.BroadcastsInDim S256x1 (![] : Fin 0 → Fin S256x1.rank)
  reducesTo_S256x1_S_d0_1 : S256x1.ReducesTo [0, 1] S_
  bcast_S_S9x50 : S_.BroadcastsInDim S9x50 (![] : Fin 0 → Fin S9x50.rank)
  reducesTo_S9x50_S_d0_1 : S9x50.ReducesTo [0, 1] S_
  bcast_S_S50 : S_.BroadcastsInDim S50 (![] : Fin 0 → Fin S50.rank)
  reducesTo_S50_S_d0 : S50.ReducesTo [0] S_
  bcast_S_S50x15 : S_.BroadcastsInDim S50x15 (![] : Fin 0 → Fin S50x15.rank)
  reducesTo_S50x15_S_d0_1 : S50x15.ReducesTo [0, 1] S_
  bcast_S_S15 : S_.BroadcastsInDim S15 (![] : Fin 0 → Fin S15.rank)
  reducesTo_S15_S_d0 : S15.ReducesTo [0] S_
  bcast_S_S18x50 : S_.BroadcastsInDim S18x50 (![] : Fin 0 → Fin S18x50.rank)
  reducesTo_S18x50_S_d0_1 : S18x50.ReducesTo [0, 1] S_
  bcast_S_S16x50 : S_.BroadcastsInDim S16x50 (![] : Fin 0 → Fin S16x50.rank)
  reducesTo_S16x50_S_d0_1 : S16x50.ReducesTo [0, 1] S_
  bcast_S_S15x10 : S_.BroadcastsInDim S15x10 (![] : Fin 0 → Fin S15x10.rank)
  reducesTo_S15x10_S_d0_1 : S15x10.ReducesTo [0, 1] S_
  bcast_S_S10 : S_.BroadcastsInDim S10 (![] : Fin 0 → Fin S10.rank)
  reducesTo_S10_S_d0 : S10.ReducesTo [0] S_
  bcast_S_S10x6 : S_.BroadcastsInDim S10x6 (![] : Fin 0 → Fin S10x6.rank)
  reducesTo_S10x6_S_d0_1 : S10x6.ReducesTo [0, 1] S_
  bcast_S_S6 : S_.BroadcastsInDim S6 (![] : Fin 0 → Fin S6.rank)
  reducesTo_S6_S_d0 : S6.ReducesTo [0] S_

variable [Facts]

def fn_part6 {F : FTy → Type} [FloatOps F] (main_v98 : IVec S_ 1) (main_v101 : IVec S6 1) (main_c_39 : IVec S_ 1) : IVec S_ 1 :=
  let main_v102 : IVec S_ 1 := (fun x v => Host.reduce IntOp.andi x v reducesTo_S6_S_d0 h_S_) main_v101 main_c_39
  let main_v103 : IVec S_ 1 := andi main_v98 main_v102
  main_v103

def fn_part5 {F : FTy → Type} [FloatOps F] (main_arg20 : FVec F S10 .f32) (main_arg21 : FVec F S10x6 .f32) (main_arg22 : FVec F S6 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S10x6 .f32 := Host.absf main_arg21
  let main_cst_36 : FVec F S_ .f32 := constant S_ .f32 0x7F800000#32
  let main_v95 : FVec F S10x6 .f32 := broadcastInDim S10x6 ![] bcast_S_S10x6 main_cst_36
  let main_v96 : IVec S10x6 1 := cmpf .olt main_v94 main_v95
  let main_c_37 : IVec S_ 1 := constantI S_ 1 1#1
  let main_v97 : IVec S_ 1 := (fun x v => Host.reduce IntOp.andi x v reducesTo_S10x6_S_d0_1 h_S_) main_v96 main_c_37
  let main_v98 : IVec S_ 1 := andi main_v93 main_v97
  let main_v99 : FVec F S6 .f32 := Host.absf main_arg22
  let main_cst_38 : FVec F S_ .f32 := constant S_ .f32 0x7F800000#32
  let main_v100 : FVec F S6 .f32 := broadcastInDim S6 ![] bcast_S_S6 main_cst_38
  let main_v101 : IVec S6 1 := cmpf .olt main_v99 main_v100
  let main_c_39 : IVec S_ 1 := constantI S_ 1 1#1
  fn_part6 (F := F) main_v98 main_v101 main_c_39

def fn_part4 {F : FTy → Type} [FloatOps F] (main_arg16 : FVec F S15 .f32) (main_arg17 : FVec F S15x10 .f32) (main_arg18 : FVec F S10 .f32) (main_arg19 : FVec F S10 .f32) (main_arg20 : FVec F S10 .f32) (main_arg21 : FVec F S10x6 .f32) (main_arg22 : FVec F S6 .f32) (main_v63 : IVec S_ 1) (main_v67 : IVec S_ 1) : IVec S_ 1 :=
  let main_v68 : IVec S_ 1 := andi main_v63 main_v67
  let main_v69 : FVec F S15 .f32 := Host.absf main_arg16
  let main_cst_26 : FVec F S_ .f32 := constant S_ .f32 0x7F800000#32
  let main_v70 : FVec F S15 .f32 := broadcastInDim S15 ![] bcast_S_S15 main_cst_26
  let main_v71 : IVec S15 1 := cmpf .olt main_v69 main_v70
  let main_c_27 : IVec S_ 1 := constantI S_ 1 1#1
  let main_v72 : IVec S_ 1 := (fun x v => Host.reduce IntOp.andi x v reducesTo_S15_S_d0 h_S_) main_v71 main_c_27
  let main_v73 : IVec S_ 1 := andi main_v68 main_v72
  let main_v74 : FVec F S15x10 .f32 := Host.absf main_arg17
  let main_cst_28 : FVec F S_ .f32 := constant S_ .f32 0x7F800000#32
  let main_v75 : FVec F S15x10 .f32 := broadcastInDim S15x10 ![] bcast_S_S15x10 main_cst_28
  let main_v76 : IVec S15x10 1 := cmpf .olt main_v74 main_v75
  let main_c_29 : IVec S_ 1 := constantI S_ 1 1#1
  let main_v77 : IVec S_ 1 := (fun x v => Host.reduce IntOp.andi x v reducesTo_S15x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S10 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S16x50 .f32) (main_arg14 : FVec F S50 .f32) (main_arg15 : FVec F S50x15 .f32) (main_arg16 : FVec F S15 .f32) (main_arg17 : FVec F S15x10 .f32) (main_arg18 : FVec F S10 .f32) (main_arg19 : FVec F S10 .f32) (main_arg20 : FVec F S10 .f32) (main_arg21 : FVec F S10x6 .f32) (main_arg22 : FVec F S6 .f32) (main_v48 : IVec S_ 1) (main_v49 : FVec F S15 .f32) (main_v50 : FVec F S15 .f32) : IVec S_ 1 :=
  let main_v51 : IVec S15 1 := cmpf .olt main_v49 main_v50
  let main_c_19 : IVec S_ 1 := constantI S_ 1 1#1
  let main_v52 : IVec S_ 1 := (fun x v => Host.reduce IntOp.andi x v reducesTo_S15_S_d0 h_S_) main_v51 main_c_19
  let main_v53 : IVec S_ 1 := andi main_v48 main_v52
  let main_v54 : FVec F S16x50 .f32 := Host.absf main_arg13
  let main_cst_20 : FVec F S_ .f32 := constant S_ .f32 0x7F800000#32
  let main_v55 : FVec F S16x50 .f32 := broadcastInDim S16x50 ![] bcast_S_S16x50 main_cst_20
  let main_v56 : IVec S16x50 1 := cmpf .olt main_v54 main_v55
  let main_c_21 : IVec S_ 1 := constantI S_ 1 1#1
  let main_v57 : IVec S_ 1 := (fun x v => Host.reduce IntOp.andi x v reducesTo_S16x50_S_d0_1 h_S_) main_v56 main_c_21
  let main_v58 : IVec S_ 1 := andi main_v53 main_v57
  let main_v59 : FVec F S50 .f32 := Host.absf main_arg14
  let main_cst_22 : FVec F S_ .f32 := constant S_ .f32 0x7F800000#32
  let main_v60 : FVec F S50 .f32 := broadcastInDim S50 ![] bcast_S_S50 main_cst_22
  let main_v61 : IVec S50 1 := cmpf .olt main_v59 main_v60
  let main_c_23 : IVec S_ 1 := constantI S_ 1 1#1
  let main_v62 : IVec S_ 1 := (fun x v => Host.reduce IntOp.andi x v reducesTo_S50_S_d0 h_S_) main_v61 main_c_23
  let main_v63 : IVec S_ 1 := andi main_v58 main_v62
  let main_v64 : FVec F S50x15 .f32 := Host.absf main_arg15
  let main_cst_24 : FVec F S_ .f32 := constant S_ .f32 0x7F800000#32
  let main_v65 : FVec F S50x15 .f32 := broadcastInDim S50x15 ![] bcast_S_S50x15 main_cst_24
  let main_v66 : IVec S50x15 1 := cmpf .olt main_v64 main_v65
  let main_c_25 : IVec S_ 1 := constantI S_ 1 1#1
  let main_v67 : IVec S_ 1 := (fun x v => Host.reduce IntOp.andi x v reducesTo_S50x15_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S18x50 .f32) (main_arg10 : FVec F S50 .f32) (main_arg11 : FVec F S50x15 .f32) (main_arg12 : FVec F S15 .f32) (main_arg13 : FVec F S16x50 .f32) (main_arg14 : FVec F S50 .f32) (main_arg15 : FVec F S50x15 .f32) (main_arg16 : FVec F S15 .f32) (main_arg17 : FVec F S15x10 .f32) (main_arg18 : FVec F S10 .f32) (main_arg19 : FVec F S10 .f32) (main_arg20 : FVec F S10 .f32) (main_arg21 : FVec F S10x6 .f32) (main_arg22 : FVec F S6 .f32) (main_v33 : IVec S_ 1) : IVec S_ 1 :=
  let main_v34 : FVec F S18x50 .f32 := Host.absf main_arg9
  let main_cst_12 : FVec F S_ .f32 := constant S_ .f32 0x7F800000#32
  let main_v35 : FVec F S18x50 .f32 := broadcastInDim S18x50 ![] bcast_S_S18x50 main_cst_12
  let main_v36 : IVec S18x50 1 := cmpf .olt main_v34 main_v35
  let main_c_13 : IVec S_ 1 := constantI S_ 1 1#1
  let main_v37 : IVec S_ 1 := (fun x v => Host.reduce IntOp.andi x v reducesTo_S18x50_S_d0_1 h_S_) main_v36 main_c_13
  let main_v38 : IVec S_ 1 := andi main_v33 main_v37
  let main_v39 : FVec F S50 .f32 := Host.absf main_arg10
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50x15 .f32 := Host.absf main_arg11
  let main_cst_16 : FVec F S_ .f32 := constant S_ .f32 0x7F800000#32
  let main_v45 : FVec F S50x15 .f32 := broadcastInDim S50x15 ![] bcast_S_S50x15 main_cst_16
  let main_v46 : IVec S50x15 1 := cmpf .olt main_v44 main_v45
  let main_c_17 : IVec S_ 1 := constantI S_ 1 1#1
  let main_v47 : IVec S_ 1 := (fun x v => Host.reduce IntOp.andi x v reducesTo_S50x15_S_d0_1 h_S_) main_v46 main_c_17
  let main_v48 : IVec S_ 1 := andi main_v43 main_v47
  let main_v49 : FVec F S15 .f32 := Host.absf main_arg12
  let main_cst_18 : FVec F S_ .f32 := constant S_ .f32 0x7F800000#32
  let main_v50 : FVec F S15 .f32 := broadcastInDim S15 ![] bcast_S_S15 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S50 .f32) (main_arg7 : FVec F S50x15 .f32) (main_arg8 : FVec F S15 .f32) (main_arg9 : FVec F S18x50 .f32) (main_arg10 : FVec F S50 .f32) (main_arg11 : FVec F S50x15 .f32) (main_arg12 : FVec F S15 .f32) (main_arg13 : FVec F S16x50 .f32) (main_arg14 : FVec F S50 .f32) (main_arg15 : FVec F S50x15 .f32) (main_arg16 : FVec F S15 .f32) (main_arg17 : FVec F S15x10 .f32) (main_arg18 : FVec F S10 .f32) (main_arg19 : FVec F S10 .f32) (main_arg20 : FVec F S10 .f32) (main_arg21 : FVec F S10x6 .f32) (main_arg22 : FVec F S6 .f32) (main_v13 : IVec S_ 1) (main_v16 : IVec S9x50 1) : IVec S_ 1 :=
  let main_c_5 : IVec S_ 1 := constantI S_ 1 1#1
  let main_v17 : IVec S_ 1 := (fun x v => Host.reduce IntOp.andi x v reducesTo_S9x50_S_d0_1 h_S_) main_v16 main_c_5
  let main_v18 : IVec S_ 1 := andi main_v13 main_v17
  let main_v19 : FVec F S50 .f32 := Host.absf main_arg6
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x15 .f32 := Host.absf main_arg7
  let main_cst_8 : FVec F S_ .f32 := constant S_ .f32 0x7F800000#32
  let main_v25 : FVec F S50x15 .f32 := broadcastInDim S50x15 ![] bcast_S_S50x15 main_cst_8
  let main_v26 : IVec S50x15 1 := cmpf .olt main_v24 main_v25
  let main_c_9 : IVec S_ 1 := constantI S_ 1 1#1
  let main_v27 : IVec S_ 1 := (fun x v => Host.reduce IntOp.andi x v reducesTo_S50x15_S_d0_1 h_S_) main_v26 main_c_9
  let main_v28 : IVec S_ 1 := andi main_v23 main_v27
  let main_v29 : FVec F S15 .f32 := Host.absf main_arg8
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x3 .f32) (main_arg1 : IVec S2x1600000 32) (main_arg2 : FVec F S1600000x3 .f32) (main_arg3 : FVec F S256x1 .f32) (main_arg4 : IVec S100000 32) (main_arg5 : FVec F S9x50 .f32) (main_arg6 : FVec F S50 .f32) (main_arg7 : FVec F S50x15 .f32) (main_arg8 : FVec F S15 .f32) (main_arg9 : FVec F S18x50 .f32) (main_arg10 : FVec F S50 .f32) (main_arg11 : FVec F S50x15 .f32) (main_arg12 : FVec F S15 .f32) (main_arg13 : FVec F S16x50 .f32) (main_arg14 : FVec F S50 .f32) (main_arg15 : FVec F S50x15 .f32) (main_arg16 : FVec F S15 .f32) (main_arg17 : FVec F S15x10 .f32) (main_arg18 : FVec F S10 .f32) (main_arg19 : FVec F S10 .f32) (main_arg20 : FVec F S10 .f32) (main_arg21 : FVec F S10x6 .f32) (main_arg22 : FVec F S6 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S9x50 .f32 := Host.absf main_arg5
  let main_cst_4 : FVec F S_ .f32 := constant S_ .f32 0x7F800000#32
  let main_v15 : FVec F S9x50 .f32 := broadcastInDim S9x50 ![] bcast_S_S9x50 main_cst_4
  let main_v16 : IVec S9x50 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x3 : Shape := ⟨2, ![100000, 3]⟩
abbrev S2x1600000 : Shape := ⟨2, ![2, 1600000]⟩
abbrev S1600000x3 : Shape := ⟨2, ![1600000, 3]⟩
abbrev S256x1 : Shape := ⟨2, ![256, 1]⟩
abbrev S100000 : Shape := ⟨1, ![100000]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S16x50 : Shape := ⟨2, ![16, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x50 : Shape := ⟨2, ![1, 50]⟩
abbrev S1x15 : Shape := ⟨2, ![1, 15]⟩
abbrev S1600000x15 : Shape := ⟨2, ![1600000, 15]⟩
abbrev S2000x3 : Shape := ⟨2, ![2000, 3]⟩
abbrev S2000x15 : Shape := ⟨2, ![2000, 15]⟩
abbrev S2000x9 : Shape := ⟨2, ![2000, 9]⟩
abbrev S2000x50 : Shape := ⟨2, ![2000, 50]⟩
abbrev S2000x18 : Shape := ⟨2, ![2000, 18]⟩
abbrev S100000x15 : Shape := ⟨2, ![100000, 15]⟩
abbrev S100000x1 : Shape := ⟨2, ![100000, 1]⟩
abbrev S256x15 : Shape := ⟨2, ![256, 15]⟩
abbrev S256 : Shape := ⟨1, ![256]⟩
abbrev S256x16 : Shape := ⟨2, ![256, 16]⟩
abbrev S256x50 : Shape := ⟨2, ![256, 50]⟩
abbrev S100256x15 : Shape := ⟨2, ![100256, 15]⟩
abbrev S100256 : Shape := ⟨1, ![100256]⟩
abbrev S100256x1 : Shape := ⟨2, ![100256, 1]⟩
abbrev S256x10 : Shape := ⟨2, ![256, 10]⟩
abbrev S1x10 : Shape := ⟨2, ![1, 10]⟩
abbrev S256x6 : Shape := ⟨2, ![256, 6]⟩
abbrev S1x6 : Shape := ⟨2, ![1, 6]⟩

abbrev nBuf : Space → Nat
  | .hbm => 153
  | .vmem => 16
  | .smem => 0
  | _ => 0

abbrev hbmTy0_0 (i : Nat) : BufTy := match i % 128 with
  | 0 => ⟨S100000x3, .f32⟩
  | 1 => ⟨S2x1600000, .i32⟩
  | 2 => ⟨S1600000x3, .f32⟩
  | 3 => ⟨S256x1, .f32⟩
  | 4 => ⟨S100000, .i32⟩
  | 5 => ⟨S9x50, .f32⟩
  | 6 => ⟨S50, .f32⟩
  | 7 => ⟨S50x15, .f32⟩
  | 8 => ⟨S15, .f32⟩
  | 9 => ⟨S18x50, .f32⟩
  | 10 => ⟨S50, .f32⟩
  | 11 => ⟨S50x15, .f32⟩
  | 12 => ⟨S15, .f32⟩
  | 13 => ⟨S16x50, .f32⟩
  | 14 => ⟨S50, .f32⟩
  | 15 => ⟨S50x15, .f32⟩
  | 16 => ⟨S15, .f32⟩
  | 17 => ⟨S15x10, .f32⟩
  | 18 => ⟨S10, .f32⟩
  | 19 => ⟨S10, .f32⟩
  | 20 => ⟨S10, .f32⟩
  | 21 => ⟨S10x6, .f32⟩
  | 22 => ⟨S6, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x3, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x3, .f32⟩
  | 45 => ⟨S1x50, .f32⟩
  | 46 => ⟨S1x15, .f32⟩
  | 47 => ⟨S1x50, .f32⟩
  | 48 => ⟨S1x15, .f32⟩
  | 49 => ⟨S1600000x15, .f32⟩
  | 50 => ⟨S_, .f32⟩
  | 51 => ⟨S100000x15, .f32⟩
  | 52 => ⟨S1600000x1, .i32⟩
  | 53 => ⟨S100000x15, .f32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x15, .f32⟩
  | 65 => ⟨S100000x15, .f32⟩
  | 66 => ⟨S_, .f32⟩
  | 67 => ⟨S256x15, .f32⟩
  | 68 => ⟨S100000x1, .i32⟩
  | 69 => ⟨S256x15, .f32⟩
  | 70 => ⟨S_, .f32⟩
  | 71 => ⟨S100000, .f32⟩
  | 72 => ⟨S_, .f32⟩
  | 73 => ⟨S256, .f32⟩
  | 74 => ⟨S100000x1, .i32⟩
  | 75 => ⟨S256, .f32⟩
  | 76 => ⟨S_, .f32⟩
  | 77 => ⟨S256, .f32⟩
  | 78 => ⟨S256, .f32⟩
  | 79 => ⟨S256x1, .f32⟩
  | 80 => ⟨S256x15, .f32⟩
  | 81 => ⟨S256x15, .f32⟩
  | 82 => ⟨S256x16, .f32⟩
  | 83 => ⟨S256x50, .f32⟩
  | 84 => ⟨S1x50, .f32⟩
  | 85 => ⟨S256x50, .f32⟩
  | 86 => ⟨S256x50, .f32⟩
  | 87 => ⟨S_, .f32⟩
  | 88 => ⟨S256x50, .f32⟩
  | 89 => ⟨S256x50, .f32⟩
  | 90 => ⟨S256x15, .f32⟩
  | 91 => ⟨S1x15, .f32⟩
  | 92 => ⟨S256x15, .f32⟩
  | 93 => ⟨S256x15, .f32⟩
  | 94 => ⟨S100256x15, .f32⟩
  | 95 => ⟨S_, .f32⟩
  | 96 => ⟨S100256x15, .f32⟩
  | 97 => ⟨S100256x15, .f32⟩
  | 98 => ⟨S256, .i32⟩
  | 99 => ⟨S100256, .i32⟩
  | 100 => ⟨S_, .f32⟩
  | 101 => ⟨S256x15, .f32⟩
  | 102 => ⟨S100256x1, .i32⟩
  | 103 => ⟨S256x15, .f32⟩
  | 104 => ⟨S_, .f32⟩
  | 105 => ⟨S100256, .f32⟩
  | 106 => ⟨S_, .f32⟩
  | 107 => ⟨S256, .f32⟩
  | 108 => ⟨S100256x1, .i32⟩
  | 109 => ⟨S256, .f32⟩
  | 110 => ⟨S_, .f32⟩
  | 111 => ⟨S256, .f32⟩
  | 112 => ⟨S256, .f32⟩
  | 113 => ⟨S256x1, .f32⟩
  | 114 => ⟨S256x15, .f32⟩
  | 115 => ⟨S256x15, .f32⟩
  | 116 => ⟨S256x10, .f32⟩
  | 117 => ⟨S1x10, .f32⟩
  | 118 => ⟨S256x10, .f32⟩
  | 119 => ⟨S256x10, .f32⟩
  | 120 => ⟨S_, .f32⟩
  | 121 => ⟨S_, .f32⟩
  | 122 => ⟨S_, .f32⟩
  | 123 => ⟨S10, .f32⟩
  | 124 => ⟨S10, .f32⟩
  | 125 => ⟨S1x10, .f32⟩
  | 126 => ⟨S256x10, .f32⟩
  | 127 => ⟨S256x10, .f32⟩
  | _ => ⟨S100000x3, .f32⟩

abbrev hbmTy0_1 (i : Nat) : BufTy := match i % 128 with
  | 0 => ⟨S1x10, .f32⟩
  | 1 => ⟨S256x10, .f32⟩
  | 2 => ⟨S256x10, .f32⟩
  | 3 => ⟨S_, .f32⟩
  | 4 => ⟨S256x10, .f32⟩
  | 5 => ⟨S256x10, .f32⟩
  | 6 => ⟨S256x6, .f32⟩
  | 7 => ⟨S1x6, .f32⟩
  | 8 => ⟨S256x6, .f32⟩
  | 9 => ⟨S256x6, .f32⟩
  | 10 => ⟨S_, .f32⟩
  | 11 => ⟨S256, .f32⟩
  | 12 => ⟨S_, .f32⟩
  | 13 => ⟨S256, .f32⟩
  | 14 => ⟨S256, .f32⟩
  | 15 => ⟨S256x1, .f32⟩
  | 16 => ⟨S256x6, .f32⟩
  | 17 => ⟨S256x6, .f32⟩
  | 18 => ⟨S256x6, .f32⟩
  | 19 => ⟨S_, .f32⟩
  | 20 => ⟨S256, .f32⟩
  | 21 => ⟨S256x1, .f32⟩
  | 22 => ⟨S256x1, .f32⟩
  | 23 => ⟨S256x6, .f32⟩
  | 24 => ⟨S256x6, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S9x50, .f32⟩
  | .local _ .vmem, ⟨7, _⟩ => ⟨S1x50, .f32⟩
  | .local _ .vmem, ⟨8, _⟩ => ⟨S50x15, .f32⟩
  | .local _ .vmem, ⟨9, _⟩ => ⟨S1x15, .f32⟩
  | .local _ .vmem, ⟨10, _⟩ => ⟨S18x50, .f32⟩
  | .local _ .vmem, ⟨11, _⟩ => ⟨S1x50, .f32⟩
  | .local _ .vmem, ⟨12, _⟩ => ⟨S50x15, .f32⟩
  | .local _ .vmem, ⟨13, _⟩ => ⟨S1x15, .f32⟩
  | .local _ .vmem, ⟨14, _⟩ => ⟨S2000x15, .f32⟩
  | .local _ .vmem, ⟨15, _⟩ => ⟨S2000x15, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call0_cst : Ref sig .tc := ⟨.hbm, 87, rfl⟩
abbrev main_call0_v0 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call1_cst : Ref sig .tc := ⟨.hbm, 95, rfl⟩
abbrev main_call1_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_cst_12 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_call2_cst : Ref sig .tc := ⟨.hbm, 131, rfl⟩
abbrev main_call2_v0 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_call3_cst : Ref sig .tc := ⟨.hbm, 138, rfl⟩
abbrev main_call3_v0 : Ref sig .tc := ⟨.hbm, 139, rfl⟩
abbrev main_call3_cst_0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_cst_1 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_v92 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x15 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x15 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x15 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S50_S1x50 : S50.ShapeCasts S1x50
  shapeCasts_S15_S1x15 : S15.ShapeCasts S1x15
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  concatenates_S2000x3_S2000x3_S2000x3_S2000x9_d1 : Shape.Concatenates [S2000x3, S2000x3, S2000x3] S2000x9 1
  inb_S9x50_S9x50_0_0 : ∀ a, (![0, 0] : Fin 2 → Nat) a + S9x50.size a ≤ S9x50.size a
  h_S9x50 : 0 < S9x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2000x50 : S1x50.Broadcasts S2000x50
  inb_S50x15_S50x15_0_0 : ∀ a, (![0, 0] : Fin 2 → Nat) a + S50x15.size a ≤ S50x15.size a
  h_S50x15 : 0 < S50x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S2000x15 : S1x15.Broadcasts S2000x15
  concatenates_S2000x3_S2000x15_S2000x18_d1 : Shape.Concatenates [S2000x3, S2000x15] S2000x18 1
  inb_S18x50_S18x50_0_0 : ∀ a, (![0, 0] : Fin 2 → Nat) a + S18x50.size a ≤ S18x50.size a
  h_S18x50 : 0 < S18x50.numel
  inb_S2000x15_S2000x15_0_0 : ∀ a, (![0, 0] : Fin 2 → Nat) a + S2000x15.size a ≤ S2000x15.size a
  h_S2000x15 : 0 < S2000x15.numel
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  bcast_S_S256x15 : S_.BroadcastsInDim S256x15 (![] : Fin 0 → Fin S256x15.rank)
  bcast_S_S256 : S_.BroadcastsInDim S256 (![] : Fin 0 → Fin S256.rank)
  bcast_S256_S256x1_0 : S256.BroadcastsInDim S256x1 (![0] : Fin 1 → Fin S256x1.rank)
  bcast_S256x1_S256x15_0_1 : S256x1.BroadcastsInDim S256x15 (![0, 1] : Fin 2 → Fin S256x15.rank)
  concatenates_S256x1_S256x15_S256x16_d1 : Shape.Concatenates [S256x1, S256x15] S256x16 1
  bcast_S50_S1x50_1 : S50.BroadcastsInDim S1x50 (![1] : Fin 1 → Fin S1x50.rank)
  bcast_S1x50_S256x50_0_1 : S1x50.BroadcastsInDim S256x50 (![0, 1] : Fin 2 → Fin S256x50.rank)
  bcast_S_S256x50 : S_.BroadcastsInDim S256x50 (![] : Fin 0 → Fin S256x50.rank)
  bcast_S15_S1x15_1 : S15.BroadcastsInDim S1x15 (![1] : Fin 1 → Fin S1x15.rank)
  bcast_S1x15_S256x15_0_1 : S1x15.BroadcastsInDim S256x15 (![0, 1] : Fin 2 → Fin S256x15.rank)
  concatenates_S100000x15_S256x15_S100256x15_d0 : Shape.Concatenates [S100000x15, S256x15] S100256x15 0
  bcast_S_S100256x15 : S_.BroadcastsInDim S100256x15 (![] : Fin 0 → Fin S100256x15.rank)
  concatenates_S100000_S256_S100256_d0 : Shape.Concatenates [S100000, S256] S100256 0
  bcast_S100256_S100256x1_0 : S100256.BroadcastsInDim S100256x1 (![0] : Fin 1 → Fin S100256x1.rank)
  bcast_S_S100256 : S_.BroadcastsInDim S100256 (![] : Fin 0 → Fin S100256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S_S10 : S_.BroadcastsInDim S10 (![] : Fin 0 → Fin S10.rank)
  bcast_S_S256x10 : S_.BroadcastsInDim S256x10 (![] : Fin 0 → Fin S256x10.rank)
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  reducesTo_S256x6_S256_d1 : S256x6.ReducesTo [1] S256
  h_S_ : 0 < S_.numel
  bcast_S256x1_S256x6_0_1 : S256x1.BroadcastsInDim S256x6 (![0, 1] : Fin 2 → Fin S256x6.rank)
  gather_S100000x3_S1600000x1_S1600000x3_1_0_n_n_0_1_13_wf : GatherDims.WF S100000x3 S1600000x1 S1600000x3 [1] [0] [] [0] [] 1 ![1, 3]
  dot_S2000x9_S9x50_S2000x50_1_0_0_1_n_n_wf : DotDims.WF S2000x9 S9x50 S2000x50 [1] [0] [0] [1] [] []
  dot_S2000x50_S50x15_S2000x15_1_0_0_1_n_n_wf : DotDims.WF S2000x50 S50x15 S2000x15 [1] [0] [0] [1] [] []
  dot_S2000x18_S18x50_S2000x50_1_0_0_1_n_n_wf : DotDims.WF S2000x18 S18x50 S2000x50 [1] [0] [0] [1] [] []
  scatter_S100000x15_S1600000x1_S1600000x15_1_0_0_1_wf : ScatterDims.WF S100000x15 S1600000x1 S1600000x15 [1] [0] [0] 1
  scatter_S100000_S1600000x1_S1600000_n_0_0_1_wf : ScatterDims.WF S100000 S1600000x1 S1600000 [] [0] [0] 1
  scatter_S256x15_S100000x1_S100000x15_1_0_0_1_wf : ScatterDims.WF S256x15 S100000x1 S100000x15 [1] [0] [0] 1
  scatter_S256_S100000x1_S100000_n_0_0_1_wf : ScatterDims.WF S256 S100000x1 S100000 [] [0] [0] 1
  dot_S256x16_S16x50_S256x50_1_0_0_1_n_n_wf : DotDims.WF S256x16 S16x50 S256x50 [1] [0] [0] [1] [] []
  dot_S256x50_S50x15_S256x15_1_0_0_1_n_n_wf : DotDims.WF S256x50 S50x15 S256x15 [1] [0] [0] [1] [] []
  scatter_S256x15_S100256x1_S100256x15_1_0_0_1_wf : ScatterDims.WF S256x15 S100256x1 S100256x15 [1] [0] [0] 1
  scatter_S256_S100256x1_S100256_n_0_0_1_wf : ScatterDims.WF S256 S100256x1 S100256 [] [0] [0] 1
  dot_S256x15_S15x10_S256x10_1_0_0_1_n_n_wf : DotDims.WF S256x15 S15x10 S256x10 [1] [0] [0] [1] [] []
  dot_S256x10_S10x6_S256x6_1_0_0_1_n_n_wf : DotDims.WF S256x10 S10x6 S256x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S1600000x3.size a
  hwx0_0 : ∀ i : grid0.Coords, EltTy.bits .f32 = 32 ∨ (Rect.block (s := S1600000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S1600000x3.size a
  hwx0_1 : ∀ i : grid0.Coords, EltTy.bits .f32 = 32 ∨ (Rect.block (s := S1600000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S1600000x3.size a
  hwx0_2 : ∀ i : grid0.Coords, EltTy.bits .f32 = 32 ∨ (Rect.block (s := S1600000x3) S2000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x50.size a ≤ S9x50.size a
  hwx0_3 : ∀ i : grid0.Coords, EltTy.bits .f32 = 32 ∨ (Rect.block (s := S9x50) S9x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x15.size a ≤ S50x15.size a
  hwx0_5 : ∀ i : grid0.Coords, EltTy.bits .f32 = 32 ∨ (Rect.block (s := S50x15) S50x15.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x15.size a ≤ S1x15.size a
  hwx0_6 : ∀ i : grid0.Coords, EltTy.bits .f32 = 32 ∨ (Rect.block (s := S1x15) S1x15.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S18x50.size a ≤ S18x50.size a
  hwx0_7 : ∀ i : grid0.Coords, EltTy.bits .f32 = 32 ∨ (Rect.block (s := S18x50) S18x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x15.size a ≤ S50x15.size a
  hwx0_9 : ∀ i : grid0.Coords, EltTy.bits .f32 = 32 ∨ (Rect.block (s := S50x15) S50x15.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x15.size a ≤ S1x15.size a
  hwx0_10 : ∀ i : grid0.Coords, EltTy.bits .f32 = 32 ∨ (Rect.block (s := S1x15) S1x15.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x15.size a ≤ S1600000x15.size a
  hwx0_11 : ∀ i : grid0.Coords, EltTy.bits .f32 = 32 ∨ (Rect.block (s := S1600000x15) S2000x15.size (cc0_transform_11 i) (hinb0_11 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S2000x9_S9x50_S2000x50_1_0_0_1_n_n : DotDims S2000x9 S9x50 S2000x50 where
  lhsContracting := [1]
  rhsContracting := [0]
  lhsNonContracting := [0]
  rhsNonContracting := [1]
  lhsBatch := []
  rhsBatch := []
  wf := dot_S2000x9_S9x50_S2000x50_1_0_0_1_n_n_wf
def dot_S2000x50_S50x15_S2000x15_1_0_0_1_n_n : DotDims S2000x50 S50x15 S2000x15 where
  lhsContracting := [1]
  rhsContracting := [0]
  lhsNonContracting := [0]
  rhsNonContracting := [1]
  lhsBatch := []
  rhsBatch := []
  wf := dot_S2000x50_S50x15_S2000x15_1_0_0_1_n_n_wf
def dot_S2000x18_S18x50_S2000x50_1_0_0_1_n_n : DotDims S2000x18 S18x50 S2000x50 where
  lhsContracting := [1]
  rhsContracting := [0]
  lhsNonContracting := [0]
  rhsNonContracting := [1]
  lhsBatch := []
  rhsBatch := []
  wf := dot_S2000x18_S18x50_S2000x50_1_0_0_1_n_n_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S256x15_S100000x1_S100000x15_1_0_0_1 : ScatterDims S256x15 S100000x1 S100000x15 where
  updateWindowDims := [1]
  insertedWindowDims := [0]
  scatterDimsToOperandDims := [0]
  indexVectorDim := 1
  wf := scatter_S256x15_S100000x1_S100000x15_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x16_S16x50_S256x50_1_0_0_1_n_n : DotDims S256x16 S16x50 S256x50 where
  lhsContracting := [1]
  rhsContracting := [0]
  lhsNonContracting := [0]
  rhsNonContracting := [1]
  lhsBatch := []
  rhsBatch := []
  wf := dot_S256x16_S16x50_S256x50_1_0_0_1_n_n_wf
def dot_S256x50_S50x15_S256x15_1_0_0_1_n_n : DotDims S256x50 S50x15 S256x15 where
  lhsContracting := [1]
  rhsContracting := [0]
  lhsNonContracting := [0]
  rhsNonContracting := [1]
  lhsBatch := []
  rhsBatch := []
  wf := dot_S256x50_S50x15_S256x15_1_0_0_1_n_n_wf
def scatter_S256x15_S100256x1_S100256x15_1_0_0_1 : ScatterDims S256x15 S100256x1 S100256x15 where
  updateWindowDims := [1]
  insertedWindowDims := [0]
  scatterDimsToOperandDims := [0]
  indexVectorDim := 1
  wf := scatter_S256x15_S100256x1_S100256x15_1_0_0_1_wf
def scatter_S256_S100256x1_S100256_n_0_0_1 : ScatterDims S256 S100256x1 S100256 where
  updateWindowDims := []
  insertedWindowDims := [0]
  scatterDimsToOperandDims := [0]
  indexVectorDim := 1
  wf := scatter_S256_S100256x1_S100256_n_0_0_1_wf
def dot_S256x15_S15x10_S256x10_1_0_0_1_n_n : DotDims S256x15 S15x10 S256x10 where
  lhsContracting := [1]
  rhsContracting := [0]
  lhsNonContracting := [0]
  rhsNonContracting := [1]
  lhsBatch := []
  rhsBatch := []
  wf := dot_S256x15_S15x10_S256x10_1_0_0_1_n_n_wf
def dot_S256x10_S10x6_S256x6_1_0_0_1_n_n : DotDims S256x10 S10x6 S256x6 where
  lhsContracting := [1]
  rhsContracting := [0]
  lhsNonContracting := [0]
  rhsNonContracting := [1]
  lhsBatch := []
  rhsBatch := []
  wf := dot_S256x10_S10x6_S256x6_1_0_0_1_n_n_wf

abbrev win0_0 : Pipeline.Window sig grid0 :=
  Pipeline.Window.ofSpec (Memref.whole main_v10) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S9x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S50x15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x15.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S18x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S50x15.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x15.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S2000x15.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S1600000x3 : Shape := ⟨2, ![1600000, 3]⟩
abbrev S256x1 : Shape := ⟨2, ![256, 1]⟩
abbrev S100000 : Shape := ⟨1, ![100000]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S16x50 : Shape := ⟨2, ![16, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S1600000x50 : Shape := ⟨2, ![1600000, 50]⟩
abbrev S1x50 : Shape := ⟨2, ![1, 50]⟩
abbrev S1600000x15 : Shape := ⟨2, ![1600000, 15]⟩
abbrev S1x15 : Shape := ⟨2, ![1, 15]⟩
abbrev S1600000x18 : Shape := ⟨2, ![1600000, 18]⟩
abbrev S100000x15 : Shape := ⟨2, ![100000, 15]⟩
abbrev S100000x1 : Shape := ⟨2, ![100000, 1]⟩
abbrev S256x15 : Shape := ⟨2, ![256, 15]⟩
abbrev S256 : Shape := ⟨1, ![256]⟩
abbrev S256x16 : Shape := ⟨2, ![256, 16]⟩
abbrev S256x50 : Shape := ⟨2, ![256, 50]⟩
abbrev S100256x15 : Shape := ⟨2, ![100256, 15]⟩
abbrev S100256 : Shape := ⟨1, ![100256]⟩
abbrev S100256x1 : Shape := ⟨2, ![100256, 1]⟩
abbrev S256x10 : Shape := ⟨2, ![256, 10]⟩
abbrev S1x10 : Shape := ⟨2, ![1, 10]⟩
abbrev S256x6 : Shape := ⟨2, ![256, 6]⟩
abbrev S1x6 : Shape := ⟨2, ![1, 6]⟩

abbrev nBuf : Space → Nat
  | .hbm => 181
  | .vmem => 0
  | .smem => 0
  | _ => 0

abbrev hbmTy0_0 (i : Nat) : BufTy := match i % 128 with
  | 0 => ⟨S100000x3, .f32⟩
  | 1 => ⟨S2x1600000, .i32⟩
  | 2 => ⟨S1600000x3, .f32⟩
  | 3 => ⟨S256x1, .f32⟩
  | 4 => ⟨S100000, .i32⟩
  | 5 => ⟨S9x50, .f32⟩
  | 6 => ⟨S50, .f32⟩
  | 7 => ⟨S50x15, .f32⟩
  | 8 => ⟨S15, .f32⟩
  | 9 => ⟨S18x50, .f32⟩
  | 10 => ⟨S50, .f32⟩
  | 11 => ⟨S50x15, .f32⟩
  | 12 => ⟨S15, .f32⟩
  | 13 => ⟨S16x50, .f32⟩
  | 14 => ⟨S50, .f32⟩
  | 15 => ⟨S50x15, .f32⟩
  | 16 => ⟨S15, .f32⟩
  | 17 => ⟨S15x10, .f32⟩
  | 18 => ⟨S10, .f32⟩
  | 19 => ⟨S10, .f32⟩
  | 20 => ⟨S10, .f32⟩
  | 21 => ⟨S10x6, .f32⟩
  | 22 => ⟨S6, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x3, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x3, .f32⟩
  | 45 => ⟨S1600000x9, .f32⟩
  | 46 => ⟨S1600000x50, .f32⟩
  | 47 => ⟨S1x50, .f32⟩
  | 48 => ⟨S1600000x50, .f32⟩
  | 49 => ⟨S1600000x50, .f32⟩
  | 50 => ⟨S_, .f32⟩
  | 51 => ⟨S1600000x50, .f32⟩
  | 52 => ⟨S1600000x50, .f32⟩
  | 53 => ⟨S1600000x15, .f32⟩
  | 54 => ⟨S1x15, .f32⟩
  | 55 => ⟨S1600000x15, .f32⟩
  | 56 => ⟨S1600000x15, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x3, .f32⟩
  | 66 => ⟨S1600000x18, .f32⟩
  | 67 => ⟨S1600000x50, .f32⟩
  | 68 => ⟨S1x50, .f32⟩
  | 69 => ⟨S1600000x50, .f32⟩
  | 70 => ⟨S1600000x50, .f32⟩
  | 71 => ⟨S_, .f32⟩
  | 72 => ⟨S1600000x50, .f32⟩
  | 73 => ⟨S1600000x50, .f32⟩
  | 74 => ⟨S1600000x15, .f32⟩
  | 75 => ⟨S1x15, .f32⟩
  | 76 => ⟨S1600000x15, .f32⟩
  | 77 => ⟨S1600000x15, .f32⟩
  | 78 => ⟨S_, .f32⟩
  | 79 => ⟨S100000x15, .f32⟩
  | 80 => ⟨S1600000x1, .i32⟩
  | 81 => ⟨S100000x15, .f32⟩
  | 82 => ⟨S_, .f32⟩
  | 83 => ⟨S1600000, .f32⟩
  | 84 => ⟨S_, .f32⟩
  | 85 => ⟨S100000, .f32⟩
  | 86 => ⟨S1600000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x15, .f32⟩
  | 93 => ⟨S100000x15, .f32⟩
  | 94 => ⟨S_, .f32⟩
  | 95 => ⟨S256x15, .f32⟩
  | 96 => ⟨S100000x1, .i32⟩
  | 97 => ⟨S256x15, .f32⟩
  | 98 => ⟨S_, .f32⟩
  | 99 => ⟨S100000, .f32⟩
  | 100 => ⟨S_, .f32⟩
  | 101 => ⟨S256, .f32⟩
  | 102 => ⟨S100000x1, .i32⟩
  | 103 => ⟨S256, .f32⟩
  | 104 => ⟨S_, .f32⟩
  | 105 => ⟨S256, .f32⟩
  | 106 => ⟨S256, .f32⟩
  | 107 => ⟨S256x1, .f32⟩
  | 108 => ⟨S256x15, .f32⟩
  | 109 => ⟨S256x15, .f32⟩
  | 110 => ⟨S256x16, .f32⟩
  | 111 => ⟨S256x50, .f32⟩
  | 112 => ⟨S1x50, .f32⟩
  | 113 => ⟨S256x50, .f32⟩
  | 114 => ⟨S256x50, .f32⟩
  | 115 => ⟨S_, .f32⟩
  | 116 => ⟨S256x50, .f32⟩
  | 117 => ⟨S256x50, .f32⟩
  | 118 => ⟨S256x15, .f32⟩
  | 119 => ⟨S1x15, .f32⟩
  | 120 => ⟨S256x15, .f32⟩
  | 121 => ⟨S256x15, .f32⟩
  | 122 => ⟨S100256x15, .f32⟩
  | 123 => ⟨S_, .f32⟩
  | 124 => ⟨S100256x15, .f32⟩
  | 125 => ⟨S100256x15, .f32⟩
  | 126 => ⟨S256, .i32⟩
  | 127 => ⟨S100256, .i32⟩
  | _ => ⟨S100000x3, .f32⟩

abbrev hbmTy0_1 (i : Nat) : BufTy := match i % 128 with
  | 0 => ⟨S_, .f32⟩
  | 1 => ⟨S256x15, .f32⟩
  | 2 => ⟨S100256x1, .i32⟩
  | 3 => ⟨S256x15, .f32⟩
  | 4 => ⟨S_, .f32⟩
  | 5 => ⟨S100256, .f32⟩
  | 6 => ⟨S_, .f32⟩
  | 7 => ⟨S256, .f32⟩
  | 8 => ⟨S100256x1, .i32⟩
  | 9 => ⟨S256, .f32⟩
  | 10 => ⟨S_, .f32⟩
  | 11 => ⟨S256, .f32⟩
  | 12 => ⟨S256, .f32⟩
  | 13 => ⟨S256x1, .f32⟩
  | 14 => ⟨S256x15, .f32⟩
  | 15 => ⟨S256x15, .f32⟩
  | 16 => ⟨S256x10, .f32⟩
  | 17 => ⟨S1x10, .f32⟩
  | 18 => ⟨S256x10, .f32⟩
  | 19 => ⟨S256x10, .f32⟩
  | 20 => ⟨S_, .f32⟩
  | 21 => ⟨S_, .f32⟩
  | 22 => ⟨S_, .f32⟩
  | 23 => ⟨S10, .f32⟩
  | 24 => ⟨S10, .f32⟩
  | 25 => ⟨S1x10, .f32⟩
  | 26 => ⟨S256x10, .f32⟩
  | 27 => ⟨S256x10, .f32⟩
  | 28 => ⟨S1x10, .f32⟩
  | 29 => ⟨S256x10, .f32⟩
  | 30 => ⟨S256x10, .f32⟩
  | 31 => ⟨S_, .f32⟩
  | 32 => ⟨S256x10, .f32⟩
  | 33 => ⟨S256x10, .f32⟩
  | 34 => ⟨S256x6, .f32⟩
  | 35 => ⟨S1x6, .f32⟩
  | 36 => ⟨S256x6, .f32⟩
  | 37 => ⟨S256x6, .f32⟩
  | 38 => ⟨S_, .f32⟩
  | 39 => ⟨S256, .f32⟩
  | 40 => ⟨S_, .f32⟩
  | 41 => ⟨S256, .f32⟩
  | 42 => ⟨S256, .f32⟩
  | 43 => ⟨S256x1, .f32⟩
  | 44 => ⟨S256x6, .f32⟩
  | 45 => ⟨S256x6, .f32⟩
  | 46 => ⟨S256x6, .f32⟩
  | 47 => ⟨S_, .f32⟩
  | 48 => ⟨S256, .f32⟩
  | 49 => ⟨S256x1, .f32⟩
  | 50 => ⟨S256x1, .f32⟩
  | 51 => ⟨S256x6, .f32⟩
  | 52 => ⟨S256x6, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call0_cst : Ref sig .tc := ⟨.hbm, 50, rfl⟩
abbrev main_call0_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call1_cst : Ref sig .tc := ⟨.hbm, 71, rfl⟩
abbrev main_call1_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_9 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call2_cst : Ref sig .tc := ⟨.hbm, 115, rfl⟩
abbrev main_call2_v0 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_call3_cst : Ref sig .tc := ⟨.hbm, 123, rfl⟩
abbrev main_call3_v0 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_12 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_13 : Ref sig .tc := ⟨.hbm, 132, rfl⟩
abbrev main_v86 : Ref sig .tc := ⟨.hbm, 133, rfl⟩
abbrev main_cst_14 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_15 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_16 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call4_cst : Ref sig .tc := ⟨.hbm, 159, rfl⟩
abbrev main_call4_v0 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_call5_cst : Ref sig .tc := ⟨.hbm, 166, rfl⟩
abbrev main_call5_v0 : Ref sig .tc := ⟨.hbm, 167, rfl⟩
abbrev main_call5_cst_0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_v6 : Ref sig .tc := ⟨.hbm, 174, rfl⟩
abbrev main_call5_cst_1 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_v114 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x3_S1600000x3_S1600000x9_d1 : Shape.Concatenates [S1600000x3, S1600000x3, S1600000x3] S1600000x9 1
  bcast_S50_S1x50_1 : S50.BroadcastsInDim S1x50 (![1] : Fin 1 → Fin S1x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  bcast_S15_S1x15_1 : S15.BroadcastsInDim S1x15 (![1] : Fin 1 → Fin S1x15.rank)
  bcast_S1x15_S1600000x15_0_1 : S1x15.BroadcastsInDim S1600000x15 (![0, 1] : Fin 2 → Fin S1600000x15.rank)
  concatenates_S1600000x3_S1600000x15_S1600000x18_d1 : Shape.Concatenates [S1600000x3, S1600000x15] S1600000x18 1
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  bcast_S_S256x15 : S_.BroadcastsInDim S256x15 (![] : Fin 0 → Fin S256x15.rank)
  bcast_S_S256 : S_.BroadcastsInDim S256 (![] : Fin 0 → Fin S256.rank)
  bcast_S256_S256x1_0 : S256.BroadcastsInDim S256x1 (![0] : Fin 1 → Fin S256x1.rank)
  bcast_S256x1_S256x15_0_1 : S256x1.BroadcastsInDim S256x15 (![0, 1] : Fin 2 → Fin S256x15.rank)
  concatenates_S256x1_S256x15_S256x16_d1 : Shape.Concatenates [S256x1, S256x15] S256x16 1
  bcast_S1x50_S256x50_0_1 : S1x50.BroadcastsInDim S256x50 (![0, 1] : Fin 2 → Fin S256x50.rank)
  bcast_S_S256x50 : S_.BroadcastsInDim S256x50 (![] : Fin 0 → Fin S256x50.rank)
  bcast_S1x15_S256x15_0_1 : S1x15.BroadcastsInDim S256x15 (![0, 1] : Fin 2 → Fin S256x15.rank)
  concatenates_S100000x15_S256x15_S100256x15_d0 : Shape.Concatenates [S100000x15, S256x15] S100256x15 0
  bcast_S_S100256x15 : S_.BroadcastsInDim S100256x15 (![] : Fin 0 → Fin S100256x15.rank)
  concatenates_S100000_S256_S100256_d0 : Shape.Concatenates [S100000, S256] S100256 0
  bcast_S100256_S100256x1_0 : S100256.BroadcastsInDim S100256x1 (![0] : Fin 1 → Fin S100256x1.rank)
  bcast_S_S100256 : S_.BroadcastsInDim S100256 (![] : Fin 0 → Fin S100256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S_S10 : S_.BroadcastsInDim S10 (![] : Fin 0 → Fin S10.rank)
  bcast_S_S256x10 : S_.BroadcastsInDim S256x10 (![] : Fin 0 → Fin S256x10.rank)
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  reducesTo_S256x6_S256_d1 : S256x6.ReducesTo [1] S256
  h_S_ : 0 < S_.numel
  bcast_S256x1_S256x6_0_1 : S256x1.BroadcastsInDim S256x6 (![0, 1] : Fin 2 → Fin S256x6.rank)
  gather_S100000x3_S1600000x1_S1600000x3_1_0_n_n_0_1_13_wf : GatherDims.WF S100000x3 S1600000x1 S1600000x3 [1] [0] [] [0] [] 1 ![1, 3]
  dot_S1600000x9_S9x50_S1600000x50_1_0_0_1_n_n_wf : DotDims.WF S1600000x9 S9x50 S1600000x50 [1] [0] [0] [1] [] []
  dot_S1600000x50_S50x15_S1600000x15_1_0_0_1_n_n_wf : DotDims.WF S1600000x50 S50x15 S1600000x15 [1] [0] [0] [1] [] []
  dot_S1600000x18_S18x50_S1600000x50_1_0_0_1_n_n_wf : DotDims.WF S1600000x18 S18x50 S1600000x50 [1] [0] [0] [1] [] []
  scatter_S100000x15_S1600000x1_S1600000x15_1_0_0_1_wf : ScatterDims.WF S100000x15 S1600000x1 S1600000x15 [1] [0] [0] 1
  scatter_S100000_S1600000x1_S1600000_n_0_0_1_wf : ScatterDims.WF S100000 S1600000x1 S1600000 [] [0] [0] 1
  scatter_S256x15_S100000x1_S100000x15_1_0_0_1_wf : ScatterDims.WF S256x15 S100000x1 S100000x15 [1] [0] [0] 1
  scatter_S256_S100000x1_S100000_n_0_0_1_wf : ScatterDims.WF S256 S100000x1 S100000 [] [0] [0] 1
  dot_S256x16_S16x50_S256x50_1_0_0_1_n_n_wf : DotDims.WF S256x16 S16x50 S256x50 [1] [0] [0] [1] [] []
  dot_S256x50_S50x15_S256x15_1_0_0_1_n_n_wf : DotDims.WF S256x50 S50x15 S256x15 [1] [0] [0] [1] [] []
  scatter_S256x15_S100256x1_S100256x15_1_0_0_1_wf : ScatterDims.WF S256x15 S100256x1 S100256x15 [1] [0] [0] 1
  scatter_S256_S100256x1_S100256_n_0_0_1_wf : ScatterDims.WF S256 S100256x1 S100256 [] [0] [0] 1
  dot_S256x15_S15x10_S256x10_1_0_0_1_n_n_wf : DotDims.WF S256x15 S15x10 S256x10 [1] [0] [0] [1] [] []
  dot_S256x10_S10x6_S256x6_1_0_0_1_n_n_wf : DotDims.WF S256x10 S10x6 S256x6 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x9_S9x50_S1600000x50_1_0_0_1_n_n : DotDims S1600000x9 S9x50 S1600000x50 where
  lhsContracting := [1]
  rhsContracting := [0]
  lhsNonContracting := [0]
  rhsNonContracting := [1]
  lhsBatch := []
  rhsBatch := []
  wf := dot_S1600000x9_S9x50_S1600000x50_1_0_0_1_n_n_wf
def dot_S1600000x50_S50x15_S1600000x15_1_0_0_1_n_n : DotDims S1600000x50 S50x15 S1600000x15 where
  lhsContracting := [1]
  rhsContracting := [0]
  lhsNonContracting := [0]
  rhsNonContracting := [1]
  lhsBatch := []
  rhsBatch := []
  wf := dot_S1600000x50_S50x15_S1600000x15_1_0_0_1_n_n_wf
def dot_S1600000x18_S18x50_S1600000x50_1_0_0_1_n_n : DotDims S1600000x18 S18x50 S1600000x50 where
  lhsContracting := [1]
  rhsContracting := [0]
  lhsNonContracting := [0]
  rhsNonContracting := [1]
  lhsBatch := []
  rhsBatch := []
  wf := dot_S1600000x18_S18x50_S1600000x50_1_0_0_1_n_n_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S256x15_S100000x1_S100000x15_1_0_0_1 : ScatterDims S256x15 S100000x1 S100000x15 where
  updateWindowDims := [1]
  insertedWindowDims := [0]
  scatterDimsToOperandDims := [0]
  indexVectorDim := 1
  wf := scatter_S256x15_S100000x1_S100000x15_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x16_S16x50_S256x50_1_0_0_1_n_n : DotDims S256x16 S16x50 S256x50 where
  lhsContracting := [1]
  rhsContracting := [0]
  lhsNonContracting := [0]
  rhsNonContracting := [1]
  lhsBatch := []
  rhsBatch := []
  wf := dot_S256x16_S16x50_S256x50_1_0_0_1_n_n_wf
def dot_S256x50_S50x15_S256x15_1_0_0_1_n_n : DotDims S256x50 S50x15 S256x15 where
  lhsContracting := [1]
  rhsContracting := [0]
  lhsNonContracting := [0]
  rhsNonContracting := [1]
  lhsBatch := []
  rhsBatch := []
  wf := dot_S256x50_S50x15_S256x15_1_0_0_1_n_n_wf
def scatter_S256x15_S100256x1_S100256x15_1_0_0_1 : ScatterDims S256x15 S100256x1 S100256x15 where
  updateWindowDims := [1]
  insertedWindowDims := [0]
  scatterDimsToOperandDims := [0]
  indexVectorDim := 1
  wf := scatter_S256x15_S100256x1_S100256x15_1_0_0_1_wf
def scatter_S256_S100256x1_S100256_n_0_0_1 : ScatterDims S256 S100256x1 S100256 where
  updateWindowDims := []
  insertedWindowDims := [0]
  scatterDimsToOperandDims := [0]
  indexVectorDim := 1
  wf := scatter_S256_S100256x1_S100256_n_0_0_1_wf
def dot_S256x15_S15x10_S256x10_1_0_0_1_n_n : DotDims S256x15 S15x10 S256x10 where
  lhsContracting := [1]
  rhsContracting := [0]
  lhsNonContracting := [0]
  rhsNonContracting := [1]
  lhsBatch := []
  rhsBatch := []
  wf := dot_S256x15_S15x10_S256x10_1_0_0_1_n_n_wf
def dot_S256x10_S10x6_S256x6_1_0_0_1_n_n : DotDims S256x10 S10x6 S256x6 where
  lhsContracting := [1]
  rhsContracting := [0]
  lhsNonContracting := [0]
  rhsNonContracting := [1]
  lhsBatch := []
  rhsBatch := []
  wf := dot_S256x10_S10x6_S256x6_1_0_0_1_n_n_wf

class Facts : Prop extends Facts₀ where

variable [Facts]
-- ==== Proof.KHost.lean ====
/-
  The host side of the program's frame. @main is twenty-six host operations (two slices of the edge list, the
  negative-index wrap of each, two row gathers, four bias vectors viewed as one-row matrices), ONE region over the
  800 blocks of 2000 edges, and 103 host operations after it in eight stretches (segment sums and their means, a
  small dense layer pair, the scaling by a constant, a log-softmax). Here: what the core's buffers hold when the
  region is entered (`V`: the fold of the operations before it over the launch memory), that @main is those
  operations, the region, and the later stretches; that the later stretches touch only unscoped buffers, allocate
  nothing and write none of the twelve arrays the region stages; that no operation before or after the region writes
  an argument; each window's block at a grid point as a read of its array; and the frame claim's post from a run
  that ends in the library's post for a region followed by host lines.
-/
import proofs.«147689_j74569222193915_2_alg».proof.Proof.Gen.Kernel.Launch
import proofs.«147689_j74569222193915_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) := [hostOps1, hostOps1_1, hostOps1_2, hostOps1_3, hostOps1_4, hostOps1_5, hostOps1_6, hostOps1_7]

/-- Core `c`'s buffer contents when the region is entered: the operations before the region folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the operations before the region, the region, and the later stretches: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass it only: every buffer of every
    operation is an unscoped TensorCore reference. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

set_option maxHeartbeats 1000000 in
/-- No operation of this stretch writes an array the region stages: each writes its own result buffer only. -/
theorem hostOps1_keeps : (hostOps1 : List (HloOp τ sig (Elt F))).Forall fun op => ∀ w : Fin 12, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_1_keeps : (hostOps1_1 : List (HloOp τ sig (Elt F))).Forall fun op => ∀ w : Fin 12, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_2_keeps : (hostOps1_2 : List (HloOp τ sig (Elt F))).Forall fun op => ∀ w : Fin 12, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_3_keeps : (hostOps1_3 : List (HloOp τ sig (Elt F))).Forall fun op => ∀ w : Fin 12, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_4_keeps : (hostOps1_4 : List (HloOp τ sig (Elt F))).Forall fun op => ∀ w : Fin 12, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_5_keeps : (hostOps1_5 : List (HloOp τ sig (Elt F))).Forall fun op => ∀ w : Fin 12, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_6_keeps : (hostOps1_6 : List (HloOp τ sig (Elt F))).Forall fun op => ∀ w : Fin 12, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_7_keeps : (hostOps1_7 : List (HloOp τ sig (Elt F))).Forall fun op => ∀ w : Fin 12, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)

/-- No later operation writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl | rfl | rfl | rfl
  · exact (List.forall_iff_forall_mem.mp hostOps1_keeps) op hop w
  · exact (List.forall_iff_forall_mem.mp hostOps1_1_keeps) op hop w
  · exact (List.forall_iff_forall_mem.mp hostOps1_2_keeps) op hop w
  · exact (List.forall_iff_forall_mem.mp hostOps1_3_keeps) op hop w
  · exact (List.forall_iff_forall_mem.mp hostOps1_4_keeps) op hop w
  · exact (List.forall_iff_forall_mem.mp hostOps1_5_keeps) op hop w
  · exact (List.forall_iff_forall_mem.mp hostOps1_6_keeps) op hop w
  · exact (List.forall_iff_forall_mem.mp hostOps1_7_keeps) op hop w

/-! ## The arguments as the region finds them -/

/-- No operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg19`. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg20`. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg21`. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg22`. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block
    index has not moved), for any proof data over `V`'s arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block
    index has not moved), for any proof data over `V`'s arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block
    index has not moved), for any proof data over `V`'s arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block
    index has not moved), for any proof data over `V`'s arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block
    index has not moved), for any proof data over `V`'s arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block
    index has not moved), for any proof data over `V`'s arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block
    index has not moved), for any proof data over `V`'s arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block
    index has not moved), for any proof data over `V`'s arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block
    index has not moved), for any proof data over `V`'s arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, the block
    index has not moved), for any proof data over `V`'s arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, the block
    index has not moved), for any proof data over `V`'s arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frame

end
-- ==== Proof.KBody.lean ====
/-
  The kernel body's triple. The body loads its eleven input blocks whole (three [2000,3] edge blocks, four weight
  matrices, four one-row biases), computes the two small dense-layer pairs of every edge row, loads the output
  block (the value is not used) and stores the [2000,15] result over the whole output block. So after the body the
  output's staging buffer holds ONE piece, the whole block, at the skeleton's payload of the loaded inputs, and the
  inputs' buffers are as they were.
-/
import proofs.«147689_j74569222193915_2_alg».proof.Proof.Gen.Kernel.Launch
import proofs.«147689_j74569222193915_2_alg».proof.Proof.Gen.Kernel.Skeleton
import proofs.«147689_j74569222193915_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store is of a whole block -/

abbrev r_S2000x3 : Rect S2000x3 := Rect.unit (s := S2000x3) ![0, 0] S2000x3.size inb_S2000x3_S2000x3_0_0
abbrev r_S9x50 : Rect S9x50 := Rect.unit (s := S9x50) ![0, 0] S9x50.size inb_S9x50_S9x50_0_0
abbrev r_S1x50 : Rect S1x50 := Rect.unit (s := S1x50) ![0, 0] S1x50.size inb_S1x50_S1x50_0_0
abbrev r_S50x15 : Rect S50x15 := Rect.unit (s := S50x15) ![0, 0] S50x15.size inb_S50x15_S50x15_0_0
abbrev r_S1x15 : Rect S1x15 := Rect.unit (s := S1x15) ![0, 0] S1x15.size inb_S1x15_S1x15_0_0
abbrev r_S18x50 : Rect S18x50 := Rect.unit (s := S18x50) ![0, 0] S18x50.size inb_S18x50_S18x50_0_0
abbrev r_S2000x15 : Rect S2000x15 := Rect.unit (s := S2000x15) ![0, 0] S2000x15.size inb_S2000x15_S2000x15_0_0

/-! ## What the body leaves in the output window's buffer -/

/-- The output's staging buffer after the body, from the input blocks: its one store as a piece (the payloads are the
    skeleton's: the chain up to the last matrix product, then the last bias row added). -/
def out0_11 (x0 : Vec F S2000x3 .f32) (x1 : Vec F S2000x3 .f32) (x2 : Vec F S2000x3 .f32) (x3 : Vec F S9x50 .f32) (x4 : Vec F S1x50 .f32) (x5 : Vec F S50x15 .f32) (x6 : Vec F S1x15 .f32) (x7 : Vec F S18x50 .f32) (x8 : Vec F S1x50 .f32) (x9 : Vec F S50x15 .f32) (x10 : Vec F S1x15 .f32) : Vec F S2000x15 .f32 :=
  View.canon [⟨r_S2000x15, k0_pay1 (k0_pay2 (View.ld x0 r_S2000x3) (View.ld x1 r_S2000x3) (View.ld x2 r_S2000x3) (View.ld x3 r_S9x50) (View.ld x4 r_S1x50) (View.ld x5 r_S50x15) (View.ld x6 r_S1x15) (View.ld x7 r_S18x50) (View.ld x8 r_S1x50) (View.ld x9 r_S50x15)) (View.ld x10 r_S1x15)⟩]

/-- The one store covers the buffer. -/
theorem cover0_11 (p0 : Vec F S2000x15 .f32) (y : S2000x15.Idx) :
    ∃ pc ∈ ([⟨r_S2000x15, p0⟩] : List (View.Piece (Elt F) S2000x15 .f32)), y ∈ pc.1.set :=
  View.cover_of_tiled [⟨r_S2000x15, p0⟩] S2000x15.size (by rfl) y

/-! ## The body's triple -/

set_option maxHeartbeats 2000000 in
/-- The kernel body on whole staging memrefs, the inputs' at read contents and the output's at anything, runs to the
    continuation holding the inputs' as they were and the output's at `out0_11` of the inputs'. -/
theorem sound_kernel (c : Dev nD) (E : Set ℕ) (i : grid0.Coords) (arg1 : Memref sig .tc .vmem S2000x3 .f32) (harg1 : arg1.IsWhole) (arg2 : Memref sig .tc .vmem S2000x3 .f32) (harg2 : arg2.IsWhole) (arg3 : Memref sig .tc .vmem S2000x3 .f32) (harg3 : arg3.IsWhole) (arg4 : Memref sig .tc .vmem S9x50 .f32) (harg4 : arg4.IsWhole) (arg5 : Memref sig .tc .vmem S1x50 .f32) (harg5 : arg5.IsWhole) (arg6 : Memref sig .tc .vmem S50x15 .f32) (harg6 : arg6.IsWhole) (arg7 : Memref sig .tc .vmem S1x15 .f32) (harg7 : arg7.IsWhole) (arg8 : Memref sig .tc .vmem S18x50 .f32) (harg8 : arg8.IsWhole) (arg9 : Memref sig .tc .vmem S1x50 .f32) (harg9 : arg9.IsWhole) (arg10 : Memref sig .tc .vmem S50x15 .f32) (harg10 : arg10.IsWhole) (arg11 : Memref sig .tc .vmem S1x15 .f32) (harg11 : arg11.IsWhole) (arg12 : Memref sig .tc .vmem S2000x15 .f32) (harg12 : arg12.IsWhole)
    (x0 : Vec F S2000x3 .f32) (x1 : Vec F S2000x3 .f32) (x2 : Vec F S2000x3 .f32) (x3 : Vec F S9x50 .f32) (x4 : Vec F S1x50 .f32) (x5 : Vec F S50x15 .f32) (x6 : Vec F S1x15 .f32) (x7 : Vec F S18x50 .f32) (x8 : Vec F S1x50 .f32) (x9 : Vec F S50x15 .f32) (x10 : Vec F S1x15 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12) K := by
  simp only [cc0__edge_node_kernel_eq_skeleton]; unfold cc0__edge_node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.Kernel.Frame

end
-- ==== Proof.KArgs.lean ====
/-
  The arguments after the whole of @main. An argument that no window stages is untouched by the region, and no
  operation after the region writes it (each writes its own result buffer), so it ends as launched; an argument a
  window stages is an INPUT window's array, which the region leaves as it found it. From these: the frame claim's
  post from any run that ends in the library's post for a region followed by host lines.
-/
import proofs.«147689_j74569222193915_2_alg».proof.Proof.KHost

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- No operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 2000000 in
/-- No operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 2000000 in
/-- No operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 2000000 in
/-- No operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 2000000 in
/-- No operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 2000000 in
/-- No operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 2000000 in
/-- No operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_forall_not_mem (b := Proc.devRef .tc main_arg10) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 2000000 in
/-- No operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_forall_not_mem (b := Proc.devRef .tc main_arg12) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 2000000 in
/-- No operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_forall_not_mem (b := Proc.devRef .tc main_arg13) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 2000000 in
/-- No operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_forall_not_mem (b := Proc.devRef .tc main_arg14) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 2000000 in
/-- No operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_forall_not_mem (b := Proc.devRef .tc main_arg15) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 2000000 in
/-- No operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_forall_not_mem (b := Proc.devRef .tc main_arg16) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
set_option maxHeartbeats 2000000 in
/-- No operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 2000000 in
/-- No operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
set_option maxHeartbeats 2000000 in
/-- No operation after the region writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) tailOps c main_arg19 = m ((c : Thread nD τ).loc main_arg19) := by
  unfold Pipeline.afterTail₀
  rw [StableHlo.after_of_forall_not_mem (b := Proc.devRef .tc main_arg19) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
set_option maxHeartbeats 2000000 in
/-- No operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) tailOps c main_arg20 = m ((c : Thread nD τ).loc main_arg20) := by
  unfold Pipeline.afterTail₀
  rw [StableHlo.after_of_forall_not_mem (b := Proc.devRef .tc main_arg20) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
set_option maxHeartbeats 2000000 in
/-- No operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) tailOps c main_arg21 = m ((c : Thread nD τ).loc main_arg21) := by
  unfold Pipeline.afterTail₀
  rw [StableHlo.after_of_forall_not_mem (b := Proc.devRef .tc main_arg21) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
set_option maxHeartbeats 2000000 in
/-- No operation after the region writes `main_arg22`: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) tailOps c main_arg22 = m ((c : Thread nD τ).loc main_arg22) := by
  unfold Pipeline.afterTail₀
  rw [StableHlo.after_of_forall_not_mem (b := Proc.devRef .tc main_arg22) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- The arguments in a final state that satisfies the library's post for a region followed by host lines (every staged
    array at what the proof data computes, every other unscoped buffer as the later lines leave it): each is as launched. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 3).trans (((dats 0 c).arrAt_in 3 rfl _).trans ((hA c 3).trans (V_main_arg5 m c))),
    ((h c).2 main_arg6 (Pipeline.mem_restRefs_of main_arg6 (by decide) (by decide))).trans (W_main_arg6 m dats c),
    ((h c).1 5).trans (((dats 0 c).arrAt_in 5 rfl _).trans ((hA c 5).trans (V_main_arg7 m c))),
    ((h c).2 main_arg8 (Pipeline.mem_restRefs_of main_arg8 (by decide) (by decide))).trans (W_main_arg8 m dats c),
    ((h c).1 7).trans (((dats 0 c).arrAt_in 7 rfl _).trans ((hA c 7).trans (V_main_arg9 m c))),
    ((h c).2 main_arg10 (Pipeline.mem_restRefs_of main_arg10 (by decide) (by decide))).trans (W_main_arg10 m dats c),
    ((h c).1 9).trans (((dats 0 c).arrAt_in 9 rfl _).trans ((hA c 9).trans (V_main_arg11 m c))),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c)⟩

/-- THE FRAME from a frame run: a run to that post, read at the argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_of_post m dats hA r h c) h

end Cert.Kernel.Frame

end
-- ==== Proof.KRun.lean ====
/-
  The region's proof data and the program's frame run. After the body at a grid point every input window's
  staging buffer holds its block of its array (the body only reads it) and the output's holds the body's one
  store over the input blocks; the invariant is the untouched rest; nothing is owed. The body obligation at a
  point is then the body's triple at the point's blocks, and the library's launch theorem for one region followed
  by host lines gives the run: every staged array at what the proof data computes, every other buffer as the
  later lines leave it. Read at the arguments, that is the frame.
-/
import proofs.«147689_j74569222193915_2_alg».proof.Proof.KHost
import proofs.«147689_j74569222193915_2_alg».proof.Proof.KBody
import proofs.«147689_j74569222193915_2_alg».proof.Proof.KArgs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and every final state has every staged array at what the library computes from the proof data and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end, faults nowhere and leaves its arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Frame

end
-- ==== Proof.KIHost.lean ====
/-
  The host side of the program's frame. @main is twenty-six host operations (two slices of the edge list, the
  negative-index wrap of each, two row gathers, four bias vectors viewed as one-row matrices), ONE region over the
  800 blocks of 2000 edges, and 103 host operations after it in eight stretches (segment sums and their means, a
  small dense layer pair, the scaling by a constant, a log-softmax). Here: what the core's buffers hold when the
  region is entered (`V`: the fold of the operations before it over the launch memory), that @main is those
  operations, the region, and the later stretches; that the later stretches touch only unscoped buffers, allocate
  nothing and write none of the twelve arrays the region stages; that no operation before or after the region writes
  an argument; each window's block at a grid point as a read of its array; and the frame claim's post from a run
  that ends in the library's post for a region followed by host lines.
-/
import proofs.«147689_j74569222193915_2_alg».proof.Proof.Gen.KernelIdeal.Launch
import proofs.«147689_j74569222193915_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) := [hostOps1, hostOps1_1, hostOps1_2, hostOps1_3, hostOps1_4, hostOps1_5, hostOps1_6, hostOps1_7]

/-- Core `c`'s buffer contents when the region is entered: the operations before the region folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the operations before the region, the region, and the later stretches: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass it only: every buffer of every
    operation is an unscoped TensorCore reference. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

set_option maxHeartbeats 1000000 in
/-- No operation of this stretch writes an array the region stages: each writes its own result buffer only. -/
theorem hostOps1_keeps : (hostOps1 : List (HloOp τ sig (Elt F))).Forall fun op => ∀ w : Fin 12, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_1_keeps : (hostOps1_1 : List (HloOp τ sig (Elt F))).Forall fun op => ∀ w : Fin 12, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_2_keeps : (hostOps1_2 : List (HloOp τ sig (Elt F))).Forall fun op => ∀ w : Fin 12, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_3_keeps : (hostOps1_3 : List (HloOp τ sig (Elt F))).Forall fun op => ∀ w : Fin 12, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_4_keeps : (hostOps1_4 : List (HloOp τ sig (Elt F))).Forall fun op => ∀ w : Fin 12, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_5_keeps : (hostOps1_5 : List (HloOp τ sig (Elt F))).Forall fun op => ∀ w : Fin 12, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_6_keeps : (hostOps1_6 : List (HloOp τ sig (Elt F))).Forall fun op => ∀ w : Fin 12, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)
set_option maxHeartbeats 1000000 in
/-- No operation of this stretch writes an array the region stages: each writes its own result buffer only. -/
theorem hostOps1_7_keeps : (hostOps1_7 : List (HloOp τ sig (Elt F))).Forall fun op => ∀ w : Fin 12, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun w => StableHlo.devRef_ne_of_ne ((by decide : ∀ w : Fin 12, Pipeline.arrRef spec0 w ≠ _) w)

/-- No later operation writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl | rfl | rfl | rfl
  · exact (List.forall_iff_forall_mem.mp hostOps1_keeps) op hop w
  · exact (List.forall_iff_forall_mem.mp hostOps1_1_keeps) op hop w
  · exact (List.forall_iff_forall_mem.mp hostOps1_2_keeps) op hop w
  · exact (List.forall_iff_forall_mem.mp hostOps1_3_keeps) op hop w
  · exact (List.forall_iff_forall_mem.mp hostOps1_4_keeps) op hop w
  · exact (List.forall_iff_forall_mem.mp hostOps1_5_keeps) op hop w
  · exact (List.forall_iff_forall_mem.mp hostOps1_6_keeps) op hop w
  · exact (List.forall_iff_forall_mem.mp hostOps1_7_keeps) op hop w

/-! ## The arguments as the region finds them -/

/-- No operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg19`. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg20`. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg21`. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes `main_arg22`. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block
    index has not moved), for any proof data over `V`'s arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block
    index has not moved), for any proof data over `V`'s arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block
    index has not moved), for any proof data over `V`'s arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block
    index has not moved), for any proof data over `V`'s arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block
    index has not moved), for any proof data over `V`'s arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block
    index has not moved), for any proof data over `V`'s arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block
    index has not moved), for any proof data over `V`'s arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block
    index has not moved), for any proof data over `V`'s arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block
    index has not moved), for any proof data over `V`'s arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, the block
    index has not moved), for any proof data over `V`'s arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, the block
    index has not moved), for any proof data over `V`'s arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frame

end
-- ==== Proof.KIBody.lean ====
/-
  The kernel body's triple. The body loads its eleven input blocks whole (three [2000,3] edge blocks, four weight
  matrices, four one-row biases), computes the two small dense-layer pairs of every edge row, loads the output
  block (the value is not used) and stores the [2000,15] result over the whole output block. So after the body the
  output's staging buffer holds ONE piece, the whole block, at the skeleton's payload of the loaded inputs, and the
  inputs' buffers are as they were.
-/
import proofs.«147689_j74569222193915_2_alg».proof.Proof.Gen.KernelIdeal.Launch
import proofs.«147689_j74569222193915_2_alg».proof.Proof.Gen.KernelIdeal.Skeleton
import proofs.«147689_j74569222193915_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store is of a whole block -/

abbrev r_S2000x3 : Rect S2000x3 := Rect.unit (s := S2000x3) ![0, 0] S2000x3.size inb_S2000x3_S2000x3_0_0
abbrev r_S9x50 : Rect S9x50 := Rect.unit (s := S9x50) ![0, 0] S9x50.size inb_S9x50_S9x50_0_0
abbrev r_S1x50 : Rect S1x50 := Rect.unit (s := S1x50) ![0, 0] S1x50.size inb_S1x50_S1x50_0_0
abbrev r_S50x15 : Rect S50x15 := Rect.unit (s := S50x15) ![0, 0] S50x15.size inb_S50x15_S50x15_0_0
abbrev r_S1x15 : Rect S1x15 := Rect.unit (s := S1x15) ![0, 0] S1x15.size inb_S1x15_S1x15_0_0
abbrev r_S18x50 : Rect S18x50 := Rect.unit (s := S18x50) ![0, 0] S18x50.size inb_S18x50_S18x50_0_0
abbrev r_S2000x15 : Rect S2000x15 := Rect.unit (s := S2000x15) ![0, 0] S2000x15.size inb_S2000x15_S2000x15_0_0

/-! ## What the body leaves in the output window's buffer -/

/-- The output's staging buffer after the body, from the input blocks: its one store as a piece (the payloads are the
    skeleton's: the chain up to the last matrix product, then the last bias row added). -/
def out0_11 (x0 : Vec F S2000x3 .f32) (x1 : Vec F S2000x3 .f32) (x2 : Vec F S2000x3 .f32) (x3 : Vec F S9x50 .f32) (x4 : Vec F S1x50 .f32) (x5 : Vec F S50x15 .f32) (x6 : Vec F S1x15 .f32) (x7 : Vec F S18x50 .f32) (x8 : Vec F S1x50 .f32) (x9 : Vec F S50x15 .f32) (x10 : Vec F S1x15 .f32) : Vec F S2000x15 .f32 :=
  View.canon [⟨r_S2000x15, k0_pay1 (k0_pay2 (View.ld x0 r_S2000x3) (View.ld x1 r_S2000x3) (View.ld x2 r_S2000x3) (View.ld x3 r_S9x50) (View.ld x4 r_S1x50) (View.ld x5 r_S50x15) (View.ld x6 r_S1x15) (View.ld x7 r_S18x50) (View.ld x8 r_S1x50) (View.ld x9 r_S50x15)) (View.ld x10 r_S1x15)⟩]

/-- The one store covers the buffer. -/
theorem cover0_11 (p0 : Vec F S2000x15 .f32) (y : S2000x15.Idx) :
    ∃ pc ∈ ([⟨r_S2000x15, p0⟩] : List (View.Piece (Elt F) S2000x15 .f32)), y ∈ pc.1.set :=
  View.cover_of_tiled [⟨r_S2000x15, p0⟩] S2000x15.size (by rfl) y

/-! ## The body's triple -/

set_option maxHeartbeats 2000000 in
/-- The kernel body on whole staging memrefs, the inputs' at read contents and the output's at anything, runs to the
    continuation holding the inputs' as they were and the output's at `out0_11` of the inputs'. -/
theorem sound_kernel (c : Dev nD) (E : Set ℕ) (i : grid0.Coords) (arg1 : Memref sig .tc .vmem S2000x3 .f32) (harg1 : arg1.IsWhole) (arg2 : Memref sig .tc .vmem S2000x3 .f32) (harg2 : arg2.IsWhole) (arg3 : Memref sig .tc .vmem S2000x3 .f32) (harg3 : arg3.IsWhole) (arg4 : Memref sig .tc .vmem S9x50 .f32) (harg4 : arg4.IsWhole) (arg5 : Memref sig .tc .vmem S1x50 .f32) (harg5 : arg5.IsWhole) (arg6 : Memref sig .tc .vmem S50x15 .f32) (harg6 : arg6.IsWhole) (arg7 : Memref sig .tc .vmem S1x15 .f32) (harg7 : arg7.IsWhole) (arg8 : Memref sig .tc .vmem S18x50 .f32) (harg8 : arg8.IsWhole) (arg9 : Memref sig .tc .vmem S1x50 .f32) (harg9 : arg9.IsWhole) (arg10 : Memref sig .tc .vmem S50x15 .f32) (harg10 : arg10.IsWhole) (arg11 : Memref sig .tc .vmem S1x15 .f32) (harg11 : arg11.IsWhole) (arg12 : Memref sig .tc .vmem S2000x15 .f32) (harg12 : arg12.IsWhole)
    (x0 : Vec F S2000x3 .f32) (x1 : Vec F S2000x3 .f32) (x2 : Vec F S2000x3 .f32) (x3 : Vec F S9x50 .f32) (x4 : Vec F S1x50 .f32) (x5 : Vec F S50x15 .f32) (x6 : Vec F S1x15 .f32) (x7 : Vec F S18x50 .f32) (x8 : Vec F S1x50 .f32) (x9 : Vec F S50x15 .f32) (x10 : Vec F S1x15 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12) K := by
  simp only [cc0__edge_node_kernel_eq_skeleton]; unfold cc0__edge_node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.KernelIdeal.Frame

end
-- ==== Proof.KIArgs.lean ====
/-
  The arguments after the whole of @main. An argument that no window stages is untouched by the region, and no
  operation after the region writes it (each writes its own result buffer), so it ends as launched; an argument a
  window stages is an INPUT window's array, which the region leaves as it found it. From these: the frame claim's
  post from any run that ends in the library's post for a region followed by host lines.
-/
import proofs.«147689_j74569222193915_2_alg».proof.Proof.KIHost

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- No operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 2000000 in
/-- No operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 2000000 in
/-- No operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 2000000 in
/-- No operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 2000000 in
/-- No operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 2000000 in
/-- No operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 2000000 in
/-- No operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_forall_not_mem (b := Proc.devRef .tc main_arg10) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 2000000 in
/-- No operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_forall_not_mem (b := Proc.devRef .tc main_arg12) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 2000000 in
/-- No operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_forall_not_mem (b := Proc.devRef .tc main_arg13) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 2000000 in
/-- No operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_forall_not_mem (b := Proc.devRef .tc main_arg14) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 2000000 in
/-- No operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_forall_not_mem (b := Proc.devRef .tc main_arg15) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 2000000 in
/-- No operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_forall_not_mem (b := Proc.devRef .tc main_arg16) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
set_option maxHeartbeats 2000000 in
/-- No operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 2000000 in
/-- No operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
set_option maxHeartbeats 2000000 in
/-- No operation after the region writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) tailOps c main_arg19 = m ((c : Thread nD τ).loc main_arg19) := by
  unfold Pipeline.afterTail₀
  rw [StableHlo.after_of_forall_not_mem (b := Proc.devRef .tc main_arg19) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
set_option maxHeartbeats 2000000 in
/-- No operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) tailOps c main_arg20 = m ((c : Thread nD τ).loc main_arg20) := by
  unfold Pipeline.afterTail₀
  rw [StableHlo.after_of_forall_not_mem (b := Proc.devRef .tc main_arg20) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
set_option maxHeartbeats 2000000 in
/-- No operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) tailOps c main_arg21 = m ((c : Thread nD τ).loc main_arg21) := by
  unfold Pipeline.afterTail₀
  rw [StableHlo.after_of_forall_not_mem (b := Proc.devRef .tc main_arg21) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
set_option maxHeartbeats 2000000 in
/-- No operation after the region writes `main_arg22`: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) tailOps c main_arg22 = m ((c : Thread nD τ).loc main_arg22) := by
  unfold Pipeline.afterTail₀
  rw [StableHlo.after_of_forall_not_mem (b := Proc.devRef .tc main_arg22) _ _ (List.forall_iff_forall_mem.mp (by
      simp only [tailOps, hostOps1, hostOps1_1, hostOps1_2, hostOps1_3, hostOps1_4, hostOps1_5, hostOps1_6, hostOps1_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- The arguments in a final state that satisfies the library's post for a region followed by host lines (every staged
    array at what the proof data computes, every other unscoped buffer as the later lines leave it): each is as launched. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 2).trans (((dats 0 c).arrAt_in 2 rfl _).trans ((hA c 2).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 3).trans (((dats 0 c).arrAt_in 3 rfl _).trans ((hA c 3).trans (V_main_arg5 m c))),
    ((h c).2 main_arg6 (Pipeline.mem_restRefs_of main_arg6 (by decide) (by decide))).trans (W_main_arg6 m dats c),
    ((h c).1 5).trans (((dats 0 c).arrAt_in 5 rfl _).trans ((hA c 5).trans (V_main_arg7 m c))),
    ((h c).2 main_arg8 (Pipeline.mem_restRefs_of main_arg8 (by decide) (by decide))).trans (W_main_arg8 m dats c),
    ((h c).1 7).trans (((dats 0 c).arrAt_in 7 rfl _).trans ((hA c 7).trans (V_main_arg9 m c))),
    ((h c).2 main_arg10 (Pipeline.mem_restRefs_of main_arg10 (by decide) (by decide))).trans (W_main_arg10 m dats c),
    ((h c).1 9).trans (((dats 0 c).arrAt_in 9 rfl _).trans ((hA c 9).trans (V_main_arg11 m c))),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c)⟩

/-- THE FRAME from a frame run: a run to that post, read at the argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_of_post m dats hA r h c) h

end Cert.KernelIdeal.Frame

end
-- ==== Proof.KIRun.lean ====
/-
  The region's proof data and the program's frame run. After the body at a grid point every input window's
  staging buffer holds its block of its array (the body only reads it) and the output's holds the body's one
  store over the input blocks; the invariant is the untouched rest; nothing is owed. The body obligation at a
  point is then the body's triple at the point's blocks, and the library's launch theorem for one region followed
  by host lines gives the run: every staged array at what the proof data computes, every other buffer as the
  later lines leave it. Read at the arguments, that is the frame.
-/
import proofs.«147689_j74569222193915_2_alg».proof.Proof.KIHost
import proofs.«147689_j74569222193915_2_alg».proof.Proof.KIBody
import proofs.«147689_j74569222193915_2_alg».proof.Proof.KIArgs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and every final state has every staged array at what the library computes from the proof data and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end, faults nowhere and leaves its arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Frame

end
-- ==== Proof.KIBlocks.lean ====
/-
  Where each window's block sits in its array. The three edge windows and the output move with the grid point:
  at point `t` their block is rows `2000 t … 2000 t + 1999`, all columns; the eight weight and bias windows are
  their whole arrays at every point. So entry `(r, k)` of an edge block at `t` is entry `(2000 t + r, k)` of its
  array, an entry of a weight block is the same entry of the weight, and the output's 800 blocks cover every row
  of the [1600000, 15] result: row `e` lies in block `e / 2000`.
-/
import proofs.«147689_j74569222193915_2_alg».proof.Proof.KIHost
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

/-- The printed index maps, decided over the grid: the edge windows' and the output's first block index is the
    point, every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

theorem t_lt (t : Fin cfg0.N) : t.val < 800 := lt_of_lt_of_eq t.isLt N_0

/-- The edge (row of the whole arrays) that row `r` of the block at point `t` is. -/
def erow (t : Fin cfg0.N) (r : Fin 2000) : Fin 1600000 :=
  ⟨t.val * 2000 + r.val, by have := t_lt t; have := r.isLt; omega⟩

/-- Entry `(r, k)` of edge window 0's block at point `t` is entry `(2000 t + r, k)` of its array. -/
theorem iblk0_apply (c : Dev nD) (t : Fin cfg0.N) (r : Fin 2000) (k : Fin 3) :
    iblk m c 0 t (ix2 r k) = V m c main_v10 (ix2 (erow t r) k) := by
  show V m c main_v10 (((cfg0.win 0).blk t).view.emb (ix2 r k)) = _
  refine congrArg _ ?_
  have hf := idx_facts t
  funext a; apply Fin.ext
  match a with
  | ⟨0, _⟩ => show win0_0.index t (0 : Fin 2) * 2000 + 1 * r.val = t.val * 2000 + r.val; rw [hf.1]; omega
  | ⟨1, _⟩ => show win0_0.index t (1 : Fin 2) * 3 + 1 * k.val = k.val; rw [hf.2.1]; omega
/-- Entry `(r, k)` of edge window 1's block at point `t` is entry `(2000 t + r, k)` of its array. -/
theorem iblk1_apply (c : Dev nD) (t : Fin cfg0.N) (r : Fin 2000) (k : Fin 3) :
    iblk m c 1 t (ix2 r k) = V m c main_v17 (ix2 (erow t r) k) := by
  show V m c main_v17 (((cfg0.win 1).blk t).view.emb (ix2 r k)) = _
  refine congrArg _ ?_
  have hf := idx_facts t
  funext a; apply Fin.ext
  match a with
  | ⟨0, _⟩ => show win0_1.index t (0 : Fin 2) * 2000 + 1 * r.val = t.val * 2000 + r.val; rw [hf.2.2.1]; omega
  | ⟨1, _⟩ => show win0_1.index t (1 : Fin 2) * 3 + 1 * k.val = k.val; rw [hf.2.2.2.1]; omega
/-- Entry `(r, k)` of edge window 2's block at point `t` is entry `(2000 t + r, k)` of its array. -/
theorem iblk2_apply (c : Dev nD) (t : Fin cfg0.N) (r : Fin 2000) (k : Fin 3) :
    iblk m c 2 t (ix2 r k) = V m c main_arg2 (ix2 (erow t r) k) := by
  show V m c main_arg2 (((cfg0.win 2).blk t).view.emb (ix2 r k)) = _
  refine congrArg _ ?_
  have hf := idx_facts t
  funext a; apply Fin.ext
  match a with
  | ⟨0, _⟩ => show win0_2.index t (0 : Fin 2) * 2000 + 1 * r.val = t.val * 2000 + r.val; rw [hf.2.2.2.2.1]; omega
  | ⟨1, _⟩ => show win0_2.index t (1 : Fin 2) * 3 + 1 * k.val = k.val; rw [hf.2.2.2.2.2.1]; omega

/-- Window 3's block at every point is its whole array. -/
theorem iblk3_apply (c : Dev nD) (t : Fin cfg0.N) (a' : Fin 9) (b' : Fin 50) :
    iblk m c 3 t (ix2 a' b') = V m c main_arg5 (ix2 a' b') := by
  show V m c main_arg5 (((cfg0.win 3).blk t).view.emb (ix2 a' b')) = _
  refine congrArg _ ?_
  have hf := idx_facts t
  funext a; apply Fin.ext
  match a with
  | ⟨0, _⟩ => show win0_3.index t (0 : Fin 2) * 9 + 1 * a'.val = a'.val; rw [hf.2.2.2.2.2.2.1]; omega
  | ⟨1, _⟩ => show win0_3.index t (1 : Fin 2) * 50 + 1 * b'.val = b'.val; rw [hf.2.2.2.2.2.2.2.1]; omega
/-- Window 4's block at every point is its whole array. -/
theorem iblk4_apply (c : Dev nD) (t : Fin cfg0.N) (a' : Fin 1) (b' : Fin 50) :
    iblk m c 4 t (ix2 a' b') = V m c main_v18 (ix2 a' b') := by
  show V m c main_v18 (((cfg0.win 4).blk t).view.emb (ix2 a' b')) = _
  refine congrArg _ ?_
  have hf := idx_facts t
  funext a; apply Fin.ext
  match a with
  | ⟨0, _⟩ => show win0_4.index t (0 : Fin 2) * 1 + 1 * a'.val = a'.val; rw [hf.2.2.2.2.2.2.2.2.1]; omega
  | ⟨1, _⟩ => show win0_4.index t (1 : Fin 2) * 50 + 1 * b'.val = b'.val; rw [hf.2.2.2.2.2.2.2.2.2.1]; omega
/-- Window 5's block at every point is its whole array. -/
theorem iblk5_apply (c : Dev nD) (t : Fin cfg0.N) (a' : Fin 50) (b' : Fin 15) :
    iblk m c 5 t (ix2 a' b') = V m c main_arg7 (ix2 a' b') := by
  show V m c main_arg7 (((cfg0.win 5).blk t).view.emb (ix2 a' b')) = _
  refine congrArg _ ?_
  have hf := idx_facts t
  funext a; apply Fin.ext
  match a with
  | ⟨0, _⟩ => show win0_5.index t (0 : Fin 2) * 50 + 1 * a'.val = a'.val; rw [hf.2.2.2.2.2.2.2.2.2.2.1]; omega
  | ⟨1, _⟩ => show win0_5.index t (1 : Fin 2) * 15 + 1 * b'.val = b'.val; rw [hf.2.2.2.2.2.2.2.2.2.2.2.1]; omega
/-- Window 6's block at every point is its whole array. -/
theorem iblk6_apply (c : Dev nD) (t : Fin cfg0.N) (a' : Fin 1) (b' : Fin 15) :
    iblk m c 6 t (ix2 a' b') = V m c main_v19 (ix2 a' b') := by
  show V m c main_v19 (((cfg0.win 6).blk t).view.emb (ix2 a' b')) = _
  refine congrArg _ ?_
  have hf := idx_facts t
  funext a; apply Fin.ext
  match a with
  | ⟨0, _⟩ => show win0_6.index t (0 : Fin 2) * 1 + 1 * a'.val = a'.val; rw [hf.2.2.2.2.2.2.2.2.2.2.2.2.1]; omega
  | ⟨1, _⟩ => show win0_6.index t (1 : Fin 2) * 15 + 1 * b'.val = b'.val; rw [hf.2.2.2.2.2.2.2.2.2.2.2.2.2.1]; omega
/-- Window 7's block at every point is its whole array. -/
theorem iblk7_apply (c : Dev nD) (t : Fin cfg0.N) (a' : Fin 18) (b' : Fin 50) :
    iblk m c 7 t (ix2 a' b') = V m c main_arg9 (ix2 a' b') := by
  show V m c main_arg9 (((cfg0.win 7).blk t).view.emb (ix2 a' b')) = _
  refine congrArg _ ?_
  have hf := idx_facts t
  funext a; apply Fin.ext
  match a with
  | ⟨0, _⟩ => show win0_7.index t (0 : Fin 2) * 18 + 1 * a'.val = a'.val; rw [hf.2.2.2.2.2.2.2.2.2.2.2.2.2.2.1]; omega
  | ⟨1, _⟩ => show win0_7.index t (1 : Fin 2) * 50 + 1 * b'.val = b'.val; rw [hf.2.2.2.2.2.2.2.2.2.2.2.2.2.2.2.1]; omega
/-- Window 8's block at every point is its whole array. -/
theorem iblk8_apply (c : Dev nD) (t : Fin cfg0.N) (a' : Fin 1) (b' : Fin 50) :
    iblk m c 8 t (ix2 a' b') = V m c main_v20 (ix2 a' b') := by
  show V m c main_v20 (((cfg0.win 8).blk t).view.emb (ix2 a' b')) = _
  refine congrArg _ ?_
  have hf := idx_facts t
  funext a; apply Fin.ext
  match a with
  | ⟨0, _⟩ => show win0_8.index t (0 : Fin 2) * 1 + 1 * a'.val = a'.val; rw [hf.2.2.2.2.2.2.2.2.2.2.2.2.2.2.2.2.1]; omega
  | ⟨1, _⟩ => show win0_8.index t (1 : Fin 2) * 50 + 1 * b'.val = b'.val; rw [hf.2.2.2.2.2.2.2.2.2.2.2.2.2.2.2.2.2.1]; omega
/-- Window 9's block at every point is its whole array. -/
theorem iblk9_apply (c : Dev nD) (t : Fin cfg0.N) (a' : Fin 50) (b' : Fin 15) :
    iblk m c 9 t (ix2 a' b') = V m c main_arg11 (ix2 a' b') := by
  show V m c main_arg11 (((cfg0.win 9).blk t).view.emb (ix2 a' b')) = _
  refine congrArg _ ?_
  have hf := idx_facts t
  funext a; apply Fin.ext
  match a with
  | ⟨0, _⟩ => show win0_9.index t (0 : Fin 2) * 50 + 1 * a'.val = a'.val; rw [hf.2.2.2.2.2.2.2.2.2.2.2.2.2.2.2.2.2.2.1]; omega
  | ⟨1, _⟩ => show win0_9.index t (1 : Fin 2) * 15 + 1 * b'.val = b'.val; rw [hf.2.2.2.2.2.2.2.2.2.2.2.2.2.2.2.2.2.2.2.1]; omega
/-- Window 10's block at every point is its whole array. -/
theorem iblk10_apply (c : Dev nD) (t : Fin cfg0.N) (a' : Fin 1) (b' : Fin 15) :
    iblk m c 10 t (ix2 a' b') = V m c main_v21 (ix2 a' b') := by
  show V m c main_v21 (((cfg0.win 10).blk t).view.emb (ix2 a' b')) = _
  refine congrArg _ ?_
  have hf := idx_facts t
  funext a; apply Fin.ext
  match a with
  | ⟨0, _⟩ => show win0_10.index t (0 : Fin 2) * 1 + 1 * a'.val = a'.val; rw [hf.2.2.2.2.2.2.2.2.2.2.2.2.2.2.2.2.2.2.2.2.1]; omega
  | ⟨1, _⟩ => show win0_10.index t (1 : Fin 2) * 15 + 1 * b'.val = b'.val; rw [hf.2.2.2.2.2.2.2.2.2.2.2.2.2.2.2.2.2.2.2.2.2.1]; omega

/-- Entry `(r, q)` of the output's block at point `t` is entry `(2000 t + r, q)` of the result array. -/
theorem emb11 (t : Fin cfg0.N) (r : Fin 2000) (q : Fin 15) :
    ((cfg0.win 11).blk t).view.emb (ix2 r q) = ix2 (erow t r) q := by
  have hf := idx_facts t
  funext a; apply Fin.ext
  match a with
  | ⟨0, _⟩ => show win0_11.index t (0 : Fin 2) * 2000 + 1 * r.val = t.val * 2000 + r.val; rw [hf.2.2.2.2.2.2.2.2.2.2.2.2.2.2.2.2.2.2.2.2.2.2.1]; omega
  | ⟨1, _⟩ => show win0_11.index t (1 : Fin 2) * 15 + 1 * q.val = q.val; rw [hf.2.2.2.2.2.2.2.2.2.2.2.2.2.2.2.2.2.2.2.2.2.2.2]; omega

/-- An index of the result array is in point `t`'s block iff each coordinate is in the block's range on its axis. -/
theorem mem_blk11 (t : Fin cfg0.N) (i : S1600000x15.Idx) :
    i ∈ ((cfg0.win 11).blk t).view.set ↔ ∀ a : Fin 2, win0_11.index t a * S2000x15.size a ≤ (i a).val ∧ (i a).val < win0_11.index t a * S2000x15.size a + S2000x15.size a := by
  show i ∈ ((View.whole main_v22).slice (win0_11.rect t)).set ↔ _
  rw [View.set_slice_whole, Rect.mem_set_unit]
  exact Iff.rfl

/-- Every index of the result array is in some point's block: row `e` is in block `e / 2000`. -/
theorem cover11 (i : S1600000x15.Idx) :
    ∃ t : Fin cfg0.N, (cfg0.win 11).flush t = true ∧ i ∈ ((cfg0.win 11).blk t).view.set := by
  have hi0 : (i 0).val < 1600000 := (i 0).isLt
  have hi1 : (i 1).val < 15 := (i 1).isLt
  have hN : (i 0).val / 2000 < cfg0.N := lt_of_lt_of_eq (by omega : (i 0).val / 2000 < 800) N_0.symm
  refine ⟨⟨(i 0).val / 2000, hN⟩, flush0_11 _, ?_⟩
  have hf := idx_facts ⟨(i 0).val / 2000, hN⟩
  have e0 : win0_11.index ⟨(i 0).val / 2000, hN⟩ (0 : Fin 2) = (i 0).val / 2000 := hf.2.2.2.2.2.2.2.2.2.2.2.2.2.2.2.2.2.2.2.2.2.2.1
  have e1 : win0_11.index ⟨(i 0).val / 2000, hN⟩ (1 : Fin 2) = 0 := hf.2.2.2.2.2.2.2.2.2.2.2.2.2.2.2.2.2.2.2.2.2.2.2
  rw [mem_blk11]
  intro a
  match a with
  | ⟨0, _⟩ => show win0_11.index ⟨(i 0).val / 2000, hN⟩ (0 : Fin 2) * 2000 ≤ (i 0).val ∧ (i 0).val < win0_11.index ⟨(i 0).val / 2000, hN⟩ (0 : Fin 2) * 2000 + 2000; rw [e0]; omega
  | ⟨1, _⟩ => show win0_11.index ⟨(i 0).val / 2000, hN⟩ (1 : Fin 2) * 15 ≤ (i 1).val ∧ (i 1).val < win0_11.index ⟨(i 0).val / 2000, hN⟩ (1 : Fin 2) * 15 + 15; rw [e1]; omega

end Cert.KernelIdeal.Frame

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.RowSpec.lean ====
import Idealize.ShloMosaic.PureOps.Ideal
import Idealize.ShloMosaic.Lib.ValueIdx
import Idealize.ShloMosaic.Lib.Pipeline.Value
import Idealize.ShloMosaic.Lib.ValueLayout
import proofs.«147689_j74569222193915_2_alg».proof.Proof.LibPlainDot

/-!
The value of ONE EDGE ROW, on the extended reals.

For an edge with endpoint features `xr`, `xc` and edge attributes `ea` (three entries each) the edge network and the
node network are two small perceptrons applied one after the other:

  * `cat3 xr xc ea` — the nine entries `[xr, xc, ea]`;
  * `e1 = relu (cat3 · ew1 + eb1)` (50 entries), `e2 = e1 · ew2 + eb2` (15 entries);
  * `cat2 xc e2` — the eighteen entries `[xc, e2]`;
  * `h1 = relu (cat2 · nw1 + nb1)` (50 entries), `row = h1 · nw2 + nb2` (15 entries).

`dense x W b j = ∑ k, x k * W k j + b j` is one affine layer read at output entry `j`; `relu z = max z 0`, with the zero
kept as the `f32` word both programs carry. Below the specification: the layout operations both programs build a row
with, read at an index `(r, k)` over any number of rows `R` — a concatenation of three `[R, 3]` arrays, of an `[R, 3]`
and an `[R, 15]` array, and one affine layer written as a plain matrix product into a zero accumulator plus a
`[1, N]` bias row broadcast over the rows.
-/

noncomputable section

open scoped BigOperators

namespace Cert.RowSpec

open Idealize.ShloMosaic Idealize.ShloMosaic.ValueIdx

/-! ## The specification -/

/-- Three triples laid end to end: entries 0–2 are `a`, 3–5 are `b`, 6–8 are `c`. -/
def cat3 {α : Type} (a b c : Fin 3 → α) (k : Fin 9) : α :=
  if h : k.val < 3 then a ⟨k.val, h⟩
  else if h' : k.val < 6 then b ⟨k.val - 3, by omega⟩
  else c ⟨k.val - 6, by omega⟩

/-- A triple followed by fifteen entries: entries 0–2 are `a`, 3–17 are `b`. -/
def cat2 {α : Type} (a : Fin 3 → α) (b : Fin 15 → α) (k : Fin 18) : α :=
  if h : k.val < 3 then a ⟨k.val, h⟩ else b ⟨k.val - 3, by omega⟩

/-- One affine layer at output entry `j`: `∑ k, x k * W k j + b j`. -/
def dense {K N : Nat} (x : Fin K → EReal) (W : Fin K → Fin N → EReal) (b : Fin N → EReal) (j : Fin N) : EReal :=
  ∑ k : Fin K, x k * W k j + b j

/-- The rectifier, against the `f32` zero word. -/
def relu (z : EReal) : EReal := max z (Ideal.ofBits .f32 0x00000000#32)

/-- The edge network's output `e2` (15 entries) of one edge. -/
def edge (xr xc ea : Fin 3 → EReal) (ew1 : Fin 9 → Fin 50 → EReal) (eb1 : Fin 50 → EReal)
    (ew2 : Fin 50 → Fin 15 → EReal) (eb2 : Fin 15 → EReal) : Fin 15 → EReal :=
  dense (fun j => relu (dense (cat3 xr xc ea) ew1 eb1 j)) ew2 eb2

/-- The value of one edge row: the node network applied to `[xc, e2]`. -/
def row (xr xc ea : Fin 3 → EReal) (ew1 : Fin 9 → Fin 50 → EReal) (eb1 : Fin 50 → EReal)
    (ew2 : Fin 50 → Fin 15 → EReal) (eb2 : Fin 15 → EReal) (nw1 : Fin 18 → Fin 50 → EReal) (nb1 : Fin 50 → EReal)
    (nw2 : Fin 50 → Fin 15 → EReal) (nb2 : Fin 15 → EReal) : Fin 15 → EReal :=
  dense (fun j => relu (dense (cat2 xc (edge xr xc ea ew1 eb1 ew2 eb2)) nw1 nb1 j)) nw2 nb2

/-! ## The layout operations of a row, read at an index -/

section Layout
variable {α : Type} {R : Nat}

/-- Three `[R, 3]` arrays joined along the columns, at `(r, k)`: the piece `k` falls in, at `(r, k − 3·piece)`. -/
theorem concat3_apply (a b c : (⟨2, ![R, 3]⟩ : Shape).Idx → α)
    (h : Shape.Concatenates [(⟨2, ![R, 3]⟩ : Shape), ⟨2, ![R, 3]⟩, ⟨2, ![R, 3]⟩] ⟨2, ![R, 9]⟩ 1) (r : Fin R) (k : Fin 9) :
    concatenate ⟨2, ![R, 9]⟩ 1 [⟨⟨2, ![R, 3]⟩, a⟩, ⟨⟨2, ![R, 3]⟩, b⟩, ⟨⟨2, ![R, 3]⟩, c⟩] h (ix2 r k)
      = cat3 (fun k => a (ix2 r k)) (fun k => b (ix2 r k)) (fun k => c (ix2 r k)) k := by
  unfold cat3
  split
  · next h1 =>
    exact concatenate_apply_piece (t := ⟨2, ![R, 9]⟩) (1 : Fin 2) [⟨⟨2, ![R, 3]⟩, a⟩, ⟨⟨2, ![R, 3]⟩, b⟩, ⟨⟨2, ![R, 3]⟩, c⟩] h (ix2 r k) 0 (by show 0 < 3; omega) ⟨2, ![R, 3]⟩ a rfl rfl 0 rfl
      (ix2 r ⟨k.val, h1⟩) (fun d => match d with | ⟨0, _⟩ => fun _ => rfl | ⟨1, _⟩ => fun hd => absurd rfl hd)
      (Nat.zero_add _)
  · next h1 =>
    split
    · next h2 =>
      exact concatenate_apply_piece (t := ⟨2, ![R, 9]⟩) (1 : Fin 2) [⟨⟨2, ![R, 3]⟩, a⟩, ⟨⟨2, ![R, 3]⟩, b⟩, ⟨⟨2, ![R, 3]⟩, c⟩] h (ix2 r k) 1 (by show 1 < 3; omega) ⟨2, ![R, 3]⟩ b rfl rfl 3 rfl
        (ix2 r ⟨k.val - 3, by omega⟩) (fun d => match d with | ⟨0, _⟩ => fun _ => rfl | ⟨1, _⟩ => fun hd => absurd rfl hd)
        (by show 3 + (k.val - 3) = k.val; omega)
    · next h2 =>
      exact concatenate_apply_piece (t := ⟨2, ![R, 9]⟩) (1 : Fin 2) [⟨⟨2, ![R, 3]⟩, a⟩, ⟨⟨2, ![R, 3]⟩, b⟩, ⟨⟨2, ![R, 3]⟩, c⟩] h (ix2 r k) 2 (by show 2 < 3; omega) ⟨2, ![R, 3]⟩ c rfl rfl 6 rfl
        (ix2 r ⟨k.val - 6, by omega⟩) (fun d => match d with | ⟨0, _⟩ => fun _ => rfl | ⟨1, _⟩ => fun hd => absurd rfl hd)
        (by show 6 + (k.val - 6) = k.val; omega)

/-- An `[R, 3]` and an `[R, 15]` array joined along the columns, at `(r, k)`. -/
theorem concat2_apply (a : (⟨2, ![R, 3]⟩ : Shape).Idx → α) (b : (⟨2, ![R, 15]⟩ : Shape).Idx → α)
    (h : Shape.Concatenates [(⟨2, ![R, 3]⟩ : Shape), ⟨2, ![R, 15]⟩] ⟨2, ![R, 18]⟩ 1) (r : Fin R) (k : Fin 18) :
    concatenate ⟨2, ![R, 18]⟩ 1 [⟨⟨2, ![R, 3]⟩, a⟩, ⟨⟨2, ![R, 15]⟩, b⟩] h (ix2 r k)
      = cat2 (fun k => a (ix2 r k)) (fun k => b (ix2 r k)) k := by
  unfold cat2
  split
  · next h1 =>
    exact concatenate_apply_piece (t := ⟨2, ![R, 18]⟩) (1 : Fin 2) [⟨⟨2, ![R, 3]⟩, a⟩, ⟨⟨2, ![R, 15]⟩, b⟩] h (ix2 r k) 0 (by show 0 < 2; omega) ⟨2, ![R, 3]⟩ a rfl rfl 0 rfl
      (ix2 r ⟨k.val, h1⟩) (fun d => match d with | ⟨0, _⟩ => fun _ => rfl | ⟨1, _⟩ => fun hd => absurd rfl hd)
      (Nat.zero_add _)
  · next h1 =>
    exact concatenate_apply_piece (t := ⟨2, ![R, 18]⟩) (1 : Fin 2) [⟨⟨2, ![R, 3]⟩, a⟩, ⟨⟨2, ![R, 15]⟩, b⟩] h (ix2 r k) 1 (by show 1 < 2; omega) ⟨2, ![R, 15]⟩ b rfl rfl 3 rfl
      (ix2 r ⟨k.val - 3, by omega⟩) (fun d => match d with | ⟨0, _⟩ => fun _ => rfl | ⟨1, _⟩ => fun hd => absurd rfl hd)
      (by show 3 + (k.val - 3) = k.val; omega)

end Layout

/-- One affine layer as a block program writes it — a plain `[R, K] × [K, N]` product into a zero accumulator, plus the
    `[1, N]` bias row cast to its own shape and broadcast over the `R` rows — at `(r, j)`. -/
theorem dense_apply {R K N : Nat} (x : FVec Ideal ⟨2, ![R, K]⟩ .f32) (W : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (r : Fin R) (j : Fin N) :
    addf (matmul (DotDims.plain R K N) none x W (constant ⟨2, ![R, N]⟩ .f32 0x00000000#32))
        (broadcastTo ⟨2, ![R, N]⟩ (shapeCast ⟨2, ![1, N]⟩ b hc) hb) (ix2 r j)
      = dense (fun k => x (ix2 r k)) (fun k j => W (ix2 k j)) (fun j => b (ix2 (0 : Fin 1) j)) j := by
  rw [addf_apply, shapeCast_self, broadcastTo_1b_ab_apply]
  exact congrArg (· + b (ix2 (0 : Fin 1) j)) (PlainDot.matmul_zero_apply R K N none x W r j)

end Cert.RowSpec

end
-- ==== Proof.KernelRow.lean ====
import proofs.«147689_j74569222193915_2_alg».proof.Proof.Gen.KernelIdeal.Skeleton
import proofs.«147689_j74569222193915_2_alg».proof.Proof.RowSpec

/-!
The kernel body's arithmetic on one block of 2000 edge rows, read at row `r` and output entry `q`: it is the value
`Cert.RowSpec.row` of that row. The block program joins the three `[2000, 3]` operands along the columns, applies an
affine layer (a plain matrix product into a zero accumulator, plus a `[1, n]` bias row broadcast over the rows) and the
rectifier, a second affine layer, joins the second operand with the result, and applies two more layers in the same
way; every operation acts row by row, so row `r` of the result depends on row `r` of the operands only.
-/

noncomputable section

namespace Cert.KernelIdeal.RowValue

open Cert.KernelIdeal Cert.KernelIdeal.Gen Idealize.ShloMosaic Idealize.ShloMosaic.ValueIdx

/-- The three products' dimension numbers are the plain ones: rows by contraction times contraction by columns. -/
theorem dot9_plain : dot_S2000x9_S9x50_S2000x50_1_0_0_1_n_n = DotDims.plain 2000 9 50 := rfl
theorem dot50_plain : dot_S2000x50_S50x15_S2000x15_1_0_0_1_n_n = DotDims.plain 2000 50 15 := rfl
theorem dot18_plain : dot_S2000x18_S18x50_S2000x50_1_0_0_1_n_n = DotDims.plain 2000 18 50 := rfl

set_option maxHeartbeats 400000 in
/-- Row `r`, entry `q` of the block the body stores is the row's value at `q`. -/
theorem pay_apply (x0 x2 x4 : Vec Ideal S2000x3 .f32) (v6 : Vec Ideal S9x50 .f32) (v8 : Vec Ideal S1x50 .f32)
    (v14 : Vec Ideal S50x15 .f32) (v16 : Vec Ideal S1x15 .f32) (v21 : Vec Ideal S18x50 .f32) (v23 : Vec Ideal S1x50 .f32)
    (v29 : Vec Ideal S50x15 .f32) (v31 : Vec Ideal S1x15 .f32) (r : Fin 2000) (q : Fin 15) :
    k0_pay1 (F := Ideal) (k0_pay2 (F := Ideal) x0 x2 x4 v6 v8 v14 v16 v21 v23 v29) v31 (ix2 r q)
      = Cert.RowSpec.row (fun k => x0 (ix2 r k)) (fun k => x2 (ix2 r k)) (fun k => x4 (ix2 r k))
          (fun k j => v6 (ix2 k j)) (fun j => v8 (ix2 0 j)) (fun j q' => v14 (ix2 j q')) (fun q' => v16 (ix2 0 q'))
          (fun k j => v21 (ix2 k j)) (fun j => v23 (ix2 0 j)) (fun j q' => v29 (ix2 j q')) (fun q' => v31 (ix2 0 q')) q := by
  unfold k0_pay1 k0_pay2 Cert.RowSpec.row Cert.RowSpec.edge
  simp only [dot9_plain, dot50_plain, dot18_plain]
  simp only [Cert.RowSpec.dense_apply, maximumf_apply, broadcast_apply, Cert.RowSpec.concat3_apply,
    Cert.RowSpec.concat2_apply]
  simp only [shapeCast_self]
  rfl

end Cert.KernelIdeal.RowValue

end
-- ==== Proof.KIFinal.lean ====
/-
  The region's result array. Point `t` of the grid writes back, as rows `2000 t … 2000 t + 1999` of the
  [1600000, 15] result, the body's payload of its blocks; read at row `r`, column `q`, that is the one-edge row
  function of the three edge rows `2000 t + r` and of the weights, and the 800 blocks cover every row. So the
  result array is the row function of every edge, as ONE function of the arrays the region finds.
-/
import proofs.«147689_j74569222193915_2_alg».proof.Proof.KIRun
import proofs.«147689_j74569222193915_2_alg».proof.Proof.KIBlocks
import proofs.«147689_j74569222193915_2_alg».proof.Proof.RowSpec
import proofs.«147689_j74569222193915_2_alg».proof.Proof.KernelRow
import Idealize.ShloMosaic.Lib.Pipeline.Value
import Idealize.ShloMosaic.Lib.ValueIdx

set_option maxRecDepth 16384

noncomputable section

namespace Cert.KernelIdeal.EdgeValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The region's result as one function of the arrays the region finds -/

/-- Edge `e`'s result row at column `q`, from the whole arrays: the one-edge row function of the edge's three rows. -/
def Gat (xr xc ea : Vec Ideal S1600000x3 .f32) (w1 : Vec Ideal S9x50 .f32) (b1 : Vec Ideal S1x50 .f32) (w2 : Vec Ideal S50x15 .f32) (b2 : Vec Ideal S1x15 .f32)
    (w3 : Vec Ideal S18x50 .f32) (b3 : Vec Ideal S1x50 .f32) (w4 : Vec Ideal S50x15 .f32) (b4 : Vec Ideal S1x15 .f32) (e : Fin 1600000) (q : Fin 15) : EReal :=
  Cert.RowSpec.row (fun k => xr (ix2 e k)) (fun k => xc (ix2 e k)) (fun k => ea (ix2 e k)) (fun k j => w1 (ix2 k j)) (fun j => b1 (ix2 0 j))
    (fun j q' => w2 (ix2 j q')) (fun q' => b2 (ix2 0 q')) (fun k j => w3 (ix2 k j)) (fun j => b3 (ix2 0 j)) (fun j q' => w4 (ix2 j q')) (fun q' => b4 (ix2 0 q')) q

/-- The whole result array. -/
def G (xr xc ea : Vec Ideal S1600000x3 .f32) (w1 : Vec Ideal S9x50 .f32) (b1 : Vec Ideal S1x50 .f32) (w2 : Vec Ideal S50x15 .f32) (b2 : Vec Ideal S1x15 .f32)
    (w3 : Vec Ideal S18x50 .f32) (b3 : Vec Ideal S1x50 .f32) (w4 : Vec Ideal S50x15 .f32) (b4 : Vec Ideal S1x15 .f32) : Vec Ideal S1600000x15 .f32 :=
  fun i => Gat xr xc ea w1 b1 w2 b2 w3 b3 w4 b4 ⟨(i 0).val, (i 0).isLt⟩ ⟨(i 1).val, (i 1).isLt⟩

/-- WHAT POINT `t` WRITES BACK is block `t` of `G` of the arrays as the region finds them. -/
theorem flushed_eq (c : Dev nD) (t : Fin cfg0.N) :
    (dats m 0 c).flushed 11 t = ((cfg0.win 11).blk t).view.read (Elt Ideal) (G (V m c main_v10) (V m c main_v17) (V m c main_arg2) (V m c main_arg5) (V m c main_v18) (V m c main_arg7) (V m c main_v19) (V m c main_arg9) (V m c main_v20) (V m c main_arg11) (V m c main_v21)) := by
  show (cfg0.win 11).cut (grid0.coords t) ((dats m 0 c).after 11 t) = _
  rw [after0_11]
  unfold out0_11
  rw [View.canon_unit_zero hz]
  simp only [View.ld_unit_zero (S := S2000x3) hz, View.ld_unit_zero (S := S9x50) hz, View.ld_unit_zero (S := S1x50) hz,
    View.ld_unit_zero (S := S50x15) hz, View.ld_unit_zero (S := S1x15) hz, View.ld_unit_zero (S := S18x50) hz]
  funext j
  obtain ⟨r, q, rfl⟩ : ∃ (r : Fin 2000) (q : Fin 15), j = ix2 r q := ⟨j 0, j 1, eq_ix2 j⟩
  show k0_pay1 (F := Ideal) (k0_pay2 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 10 t) (ix2 r q)
    = G (V m c main_v10) (V m c main_v17) (V m c main_arg2) (V m c main_arg5) (V m c main_v18) (V m c main_arg7) (V m c main_v19) (V m c main_arg9) (V m c main_v20) (V m c main_arg11) (V m c main_v21) (((cfg0.win 11).blk t).view.emb (ix2 r q))
  rw [emb11 t r q]
  refine (Cert.KernelIdeal.RowValue.pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r q).trans ?_
  show _ = Gat (V m c main_v10) (V m c main_v17) (V m c main_arg2) (V m c main_arg5) (V m c main_v18) (V m c main_arg7) (V m c main_v19) (V m c main_arg9) (V m c main_v20) (V m c main_arg11) (V m c main_v21) (erow t r) q
  unfold Gat
  simp only [iblk0_apply m c t, iblk1_apply m c t, iblk2_apply m c t, iblk3_apply m c t, iblk4_apply m c t, iblk5_apply m c t, iblk6_apply m c t, iblk7_apply m c t, iblk8_apply m c t, iblk9_apply m c t, iblk10_apply m c t]

/-- THE RESULT ARRAY after the region: `G` of the arrays the region found. -/
theorem final (c : Dev nD) : (dats m 0 c).arrAt 11 cfg0.N = G (V m c main_v10) (V m c main_v17) (V m c main_arg2) (V m c main_arg5) (V m c main_v18) (V m c main_arg7) (V m c main_v19) (V m c main_arg9) (V m c main_v20) (V m c main_arg11) (V m c main_v21) :=
  (dats m 0 c).arrAt_eq_of_cover 11 (G (V m c main_v10) (V m c main_v17) (V m c main_arg2) (V m c main_arg5) (V m c main_v18) (V m c main_arg7) (V m c main_v19) (V m c main_arg9) (V m c main_v20) (V m c main_arg11) (V m c main_v21)) (fun t _ => flushed_eq m c t) cover11

end Cert.KernelIdeal.EdgeValue

end
-- ==== Proof.HeadFn.lean ====
/-
  The host operations both programs perform first, as functions of the node table and the edge list: an edge list
  row as a vector; the negative-index wrap of an endpoint list (an index below zero has the table's length added);
  and the gather of the node table's rows at an endpoint list. Stated once, over the kernel program's shapes and
  operation records, so that the kernel's region-entry buffers and the reference's first stages are both written
  through them and the gathers are never opened.
-/
import proofs.«147689_j74569222193915_2_alg».proof.Proof.Gen.KernelIdeal
import Idealize.ShloMosaic.PureOps.Ideal

noncomputable section

namespace Cert.KernelIdeal.HeadFn

open Cert.KernelIdeal Cert.KernelIdeal.Facts₀ Idealize.ShloMosaic

/-- Contents of a buffer of a given shape and element type at the ideal instance. -/
abbrev A (S : Shape) (e : EltTy) := (⟨S, e⟩ : BufTy).Contents (Elt Ideal)

/-- Row `0` of the edge list as a vector: the edges' row endpoints. -/
def rowsFn (x1 : A S2x1600000 .i32) : A S1600000 .i32 :=
  fun i => shapeCast S1600000 (extractStridedSlice S1x1600000 ![0, 0] x1 slices_S2x1600000_S1x1600000_0_0) shapeCasts_S1x1600000_S1600000 i

/-- Row `1` of the edge list as a vector: the edges' column endpoints. -/
def colsFn (x1 : A S2x1600000 .i32) : A S1600000 .i32 :=
  fun i => shapeCast S1600000 (extractStridedSlice S1x1600000 ![1, 0] x1 slices_S2x1600000_S1x1600000_1_0) shapeCasts_S1x1600000_S1600000 i

/-- The negative-index wrap of an endpoint list, as the one-column index array the gather takes. -/
def wrapFn (v : A S1600000 .i32) : A S1600000x1 .i32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The node table's rows at the edges' row endpoints. -/
def gatherRow (x0 : A S100000x3 .f32) (x1 : A S2x1600000 .i32) : A S1600000x3 .f32 :=
  Host.gather gather_S100000x3_S1600000x1_S1600000x3_1_0_n_n_0_1_13 x0 (wrapFn (rowsFn x1))

/-- The node table's rows at the edges' column endpoints. -/
def gatherCol (x0 : A S100000x3 .f32) (x1 : A S2x1600000 .i32) : A S1600000x3 .f32 :=
  Host.gather gather_S100000x3_S1600000x1_S1600000x3_1_0_n_n_0_1_13 x0 (wrapFn (colsFn x1))

end Cert.KernelIdeal.HeadFn

end
-- ==== Proof.KIHead.lean ====
/-
  What the operations before the region leave in the buffers the region reads. The row and column endpoint lists
  are the two rows of the edge list; each gather reads, for every edge, the row of the node table at the endpoint
  (after the host's negative-index wrap); the four bias vectors are viewed as one-row matrices. These are the
  host operations both programs perform first, so each buffer is written through the shared functions of the
  arguments — the gathers are never opened. A bias's one-row view read at column `j` is the bias's entry `j`.
-/
import proofs.«147689_j74569222193915_2_alg».proof.Proof.KIHost
import proofs.«147689_j74569222193915_2_alg».proof.Proof.HeadFn
import Idealize.ShloMosaic.Lib.StableHlo.Run
import Idealize.ShloMosaic.Lib.Pipeline.Value
import Idealize.ShloMosaic.Lib.ValueIdx

set_option maxRecDepth 16384

noncomputable section

namespace Cert.KernelIdeal.Head

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The row endpoints the later segment sums scatter by: row 0 of the edge list. -/
theorem V_v1 (c : Dev nD) : V m c main_v1 = Cert.KernelIdeal.HeadFn.rowsFn (m ((c : Thread nD τ).loc main_arg1)) := by
  show StableHlo.after hostOps0 (fun b => m (c, b)) (Proc.devRef .tc main_v1) = _
  after_results_simp
  rfl

/-- The node table's rows at the edges' row endpoints. -/
theorem V_v10 (c : Dev nD) : V m c main_v10 = Cert.KernelIdeal.HeadFn.gatherRow (m ((c : Thread nD τ).loc main_arg0)) (m ((c : Thread nD τ).loc main_arg1)) := by
  show StableHlo.after hostOps0 (fun b => m (c, b)) (Proc.devRef .tc main_v10) = _
  after_results_simp
  rfl

/-- The node table's rows at the edges' column endpoints. -/
theorem V_v17 (c : Dev nD) : V m c main_v17 = Cert.KernelIdeal.HeadFn.gatherCol (m ((c : Thread nD τ).loc main_arg0)) (m ((c : Thread nD τ).loc main_arg1)) := by
  show StableHlo.after hostOps0 (fun b => m (c, b)) (Proc.devRef .tc main_v17) = _
  after_results_simp
  rfl

/-- Bias `main_arg6` viewed as a one-row matrix, read at column `j`. -/
theorem V_v18_apply (c : Dev nD) (j : Fin 50) : V m c main_v18 (ix2 (0 : Fin 1) j) = (m ((c : Thread nD τ).loc main_arg6)) (ix1 j) := by
  have e : V m c main_v18 = fun i => shapeCast S1x50 (m ((c : Thread nD τ).loc main_arg6)) shapeCasts_S50_S1x50 i := by
    show StableHlo.after hostOps0 (fun b => m (c, b)) (Proc.devRef .tc main_v18) = _
    after_results_simp
    rfl
  rw [e]
  refine shapeCast_apply (s := S50) (t := S1x50) _ _ _ _ ?_
  show ((⟨1, ![50]⟩ : Shape).rowMajor (ix1 j)).val = ((⟨2, ![1, 50]⟩ : Shape).rowMajor (ix2 (0 : Fin 1) j)).val
  rw [Shape.rowMajor_val_one, Shape.rowMajor_val_two]
  show j.val = 0 * 50 + j.val
  omega

/-- Bias `main_arg8` viewed as a one-row matrix, read at column `j`. -/
theorem V_v19_apply (c : Dev nD) (j : Fin 15) : V m c main_v19 (ix2 (0 : Fin 1) j) = (m ((c : Thread nD τ).loc main_arg8)) (ix1 j) := by
  have e : V m c main_v19 = fun i => shapeCast S1x15 (m ((c : Thread nD τ).loc main_arg8)) shapeCasts_S15_S1x15 i := by
    show StableHlo.after hostOps0 (fun b => m (c, b)) (Proc.devRef .tc main_v19) = _
    after_results_simp
    rfl
  rw [e]
  refine shapeCast_apply (s := S15) (t := S1x15) _ _ _ _ ?_
  show ((⟨1, ![15]⟩ : Shape).rowMajor (ix1 j)).val = ((⟨2, ![1, 15]⟩ : Shape).rowMajor (ix2 (0 : Fin 1) j)).val
  rw [Shape.rowMajor_val_one, Shape.rowMajor_val_two]
  show j.val = 0 * 15 + j.val
  omega

/-- Bias `main_arg10` viewed as a one-row matrix, read at column `j`. -/
theorem V_v20_apply (c : Dev nD) (j : Fin 50) : V m c main_v20 (ix2 (0 : Fin 1) j) = (m ((c : Thread nD τ).loc main_arg10)) (ix1 j) := by
  have e : V m c main_v20 = fun i => shapeCast S1x50 (m ((c : Thread nD τ).loc main_arg10)) shapeCasts_S50_S1x50 i := by
    show StableHlo.after hostOps0 (fun b => m (c, b)) (Proc.devRef .tc main_v20) = _
    after_results_simp
    rfl
  rw [e]
  refine shapeCast_apply (s := S50) (t := S1x50) _ _ _ _ ?_
  show ((⟨1, ![50]⟩ : Shape).rowMajor (ix1 j)).val = ((⟨2, ![1, 50]⟩ : Shape).rowMajor (ix2 (0 : Fin 1) j)).val
  rw [Shape.rowMajor_val_one, Shape.rowMajor_val_two]
  show j.val = 0 * 50 + j.val
  omega

/-- Bias `main_arg12` viewed as a one-row matrix, read at column `j`. -/
theorem V_v21_apply (c : Dev nD) (j : Fin 15) : V m c main_v21 (ix2 (0 : Fin 1) j) = (m ((c : Thread nD τ).loc main_arg12)) (ix1 j) := by
  have e : V m c main_v21 = fun i => shapeCast S1x15 (m ((c : Thread nD τ).loc main_arg12)) shapeCasts_S15_S1x15 i := by
    show StableHlo.after hostOps0 (fun b => m (c, b)) (Proc.devRef .tc main_v21) = _
    after_results_simp
    rfl
  rw [e]
  refine shapeCast_apply (s := S15) (t := S1x15) _ _ _ _ ?_
  show ((⟨1, ![15]⟩ : Shape).rowMajor (ix1 j)).val = ((⟨2, ![1, 15]⟩ : Shape).rowMajor (ix2 (0 : Fin 1) j)).val
  rw [Shape.rowMajor_val_one, Shape.rowMajor_val_two]
  show j.val = 0 * 15 + j.val
  omega

end Cert.KernelIdeal.Head

end
-- ==== Proof.EdgeStage.lean ====
/-
  The edge stage as one function of the arguments: edge `e`'s result row is the one-edge row function of the node
  table's rows at the edge's two endpoints, of the edge's attributes and of the two dense-layer pairs' weights and
  biases. Both programs' edge results are this function of their arguments.
-/
import proofs.«147689_j74569222193915_2_alg».proof.Proof.HeadFn
import proofs.«147689_j74569222193915_2_alg».proof.Proof.RowSpec
import Idealize.ShloMosaic.Lib.ValueIdx

noncomputable section

namespace Cert.KernelIdeal.HeadFn

open Cert.KernelIdeal Idealize.ShloMosaic Idealize.ShloMosaic.ValueIdx

/-- Edge `e`'s result at column `q`. -/
def edgeAt (x0 : A S100000x3 .f32) (x1 : A S2x1600000 .i32) (x2 : A S1600000x3 .f32) (x5 : A S9x50 .f32) (x6 : A S50 .f32) (x7 : A S50x15 .f32) (x8 : A S15 .f32)
    (x9 : A S18x50 .f32) (x10 : A S50 .f32) (x11 : A S50x15 .f32) (x12 : A S15 .f32) (e : Fin 1600000) (q : Fin 15) : EReal :=
  Cert.RowSpec.row (fun k => gatherRow x0 x1 (ix2 e k)) (fun k => gatherCol x0 x1 (ix2 e k)) (fun k => x2 (ix2 e k)) (fun k j => x5 (ix2 k j)) (fun j => x6 (ix1 j))
    (fun j q' => x7 (ix2 j q')) (fun q' => x8 (ix1 q')) (fun k j => x9 (ix2 k j)) (fun j => x10 (ix1 j)) (fun j q' => x11 (ix2 j q')) (fun q' => x12 (ix1 q')) q

/-- The whole [1600000, 15] edge result. -/
def edgeStage (x0 : A S100000x3 .f32) (x1 : A S2x1600000 .i32) (x2 : A S1600000x3 .f32) (x5 : A S9x50 .f32) (x6 : A S50 .f32) (x7 : A S50x15 .f32) (x8 : A S15 .f32)
    (x9 : A S18x50 .f32) (x10 : A S50 .f32) (x11 : A S50x15 .f32) (x12 : A S15 .f32) : A S1600000x15 .f32 :=
  fun i => edgeAt x0 x1 x2 x5 x6 x7 x8 x9 x10 x11 x12 ⟨(i 0).val, (i 0).isLt⟩ ⟨(i 1).val, (i 1).isLt⟩

end Cert.KernelIdeal.HeadFn

end
-- ==== Proof.TailFn.lean ====
import proofs.«147689_j74569222193915_2_alg».proof.Proof.Gen.KernelIdeal
import Idealize.ShloMosaic.PureOps.Ideal

/-!
# The host tail as one function

After the edge kernel has produced its per-edge result `h` (one row of 15 numbers per edge), the
program applies 103 host operations to `h`, to the edges' row indices and to the remaining
arguments: a segment mean of `h` over the edges' rows (a scatter-add of the rows divided by a
scatter-add of ones, the count clamped below by one), a segment mean of that over the nodes' graphs,
a two-layer perceptron on the graph features joined to the graph means, a second segment mean over
nodes and graphs together, a linear layer, a scaling by `a19 / sqrt (1 + ε)` with a shift, a
rectifier, a last linear layer, and a row-wise log-softmax.

`T` is that composition, operation by operation and in program order, over the extended reals.
Nothing here says what any operation computes: `T` is only ever compared with itself.
-/

noncomputable section

namespace Cert.KernelIdeal.Tail

open Cert.KernelIdeal Cert.KernelIdeal.Facts₀ Idealize.ShloMosaic

/-- The contents of a buffer of shape `S` and element type `e` over the extended reals. -/
abbrev A (S : Shape) (e : EltTy) : Type := (⟨S, e⟩ : BufTy).Contents (Elt Ideal)

/-- The 103 host operations that follow the edge kernel, composed: from the kernel's per-edge result
    `h`, the edges' row indices `rows`, the graph features `a3`, the nodes' graph indices `a4` and the
    weights `a13 … a22`, the program's result (the log-probabilities, one row of 6 per graph). -/
def T (h : (⟨S1600000x15, .f32⟩ : BufTy).Contents (Elt Ideal))
    (rows : (⟨S1600000, .i32⟩ : BufTy).Contents (Elt Ideal))
    (a3 : (⟨S256x1, .f32⟩ : BufTy).Contents (Elt Ideal))
    (a4 : (⟨S100000, .i32⟩ : BufTy).Contents (Elt Ideal))
    (a13 : (⟨S16x50, .f32⟩ : BufTy).Contents (Elt Ideal))
    (a14 : (⟨S50, .f32⟩ : BufTy).Contents (Elt Ideal))
    (a15 : (⟨S50x15, .f32⟩ : BufTy).Contents (Elt Ideal))
    (a16 : (⟨S15, .f32⟩ : BufTy).Contents (Elt Ideal))
    (a17 : (⟨S15x10, .f32⟩ : BufTy).Contents (Elt Ideal))
    (a18 a19 a20 : (⟨S10, .f32⟩ : BufTy).Contents (Elt Ideal))
    (a21 : (⟨S10x6, .f32⟩ : BufTy).Contents (Elt Ideal))
    (a22 : (⟨S6, .f32⟩ : BufTy).Contents (Elt Ideal)) :
    (⟨S256x6, .f32⟩ : BufTy).Contents (Elt Ideal) :=
  -- the mean of `h` over each node's incoming edges: the sum of the rows …
  have cst : A S_ .f32 := constant (F := Ideal) S_ .f32 0x00000000#32
  have v23 : A S100000x15 .f32 := broadcastInDim S100000x15 ![] bcast_S_S100000x15 cst
  have v24 : A S1600000x1 .i32 := broadcastInDim S1600000x1 ![0] bcast_S1600000_S1600000x1_0 rows
  have v25 : A S100000x15 .f32 := Host.scatterAdd (F := Ideal) (φ := .f32) scatter_S100000x15_S1600000x1_S1600000x15_1_0_0_1 v23 v24 h
  -- … divided by the number of those edges, at least one
  have cst_3 : A S_ .f32 := constant (F := Ideal) S_ .f32 0x3F800000#32
  have v26 : A S1600000 .f32 := broadcastInDim S1600000 ![] bcast_S_S1600000 cst_3
  have cst_4 : A S_ .f32 := constant (F := Ideal) S_ .f32 0x00000000#32
  have v27 : A S100000 .f32 := broadcastInDim S100000 ![] bcast_S_S100000 cst_4
  have v28 : A S1600000x1 .i32 := broadcastInDim S1600000x1 ![0] bcast_S1600000_S1600000x1_0 rows
  have v29 : A S100000 .f32 := Host.scatterAdd (F := Ideal) (φ := .f32) scatter_S100000_S1600000x1_S1600000_n_0_0_1 v27 v28 v26
  have cst_5 : A S_ .f32 := constant (F := Ideal) S_ .f32 0x3F800000#32
  have v30 : A S100000 .f32 := broadcastInDim S100000 ![] bcast_S_S100000 cst_5
  have v31 : A S100000 .f32 := maximumf (F := Ideal) (φ := .f32) v29 v30
  have v32 : A S100000x1 .f32 := broadcastInDim S100000x1 ![0] bcast_S100000_S100000x1_0 v31
  have v33 : A S100000x15 .f32 := broadcastInDim S100000x15 ![0, 1] bcast_S100000x1_S100000x15_0_1 v32
  have v34 : A S100000x15 .f32 := Host.divf (F := Ideal) (φ := .f32) v25 v33
  -- the mean of the node rows over each graph's nodes
  have cst_6 : A S_ .f32 := constant (F := Ideal) S_ .f32 0x00000000#32
  have v35 : A S256x15 .f32 := broadcastInDim S256x15 ![] bcast_S_S256x15 cst_6
  have v36 : A S100000x1 .i32 := broadcastInDim S100000x1 ![0] bcast_S100000_S100000x1_0 a4
  have v37 : A S256x15 .f32 := Host.scatterAdd (F := Ideal) (φ := .f32) scatter_S256x15_S100000x1_S100000x15_1_0_0_1 v35 v36 v34
  have cst_7 : A S_ .f32 := constant (F := Ideal) S_ .f32 0x3F800000#32
  have v38 : A S100000 .f32 := broadcastInDim S100000 ![] bcast_S_S100000 cst_7
  have cst_8 : A S_ .f32 := constant (F := Ideal) S_ .f32 0x00000000#32
  have v39 : A S256 .f32 := broadcastInDim S256 ![] bcast_S_S256 cst_8
  have v40 : A S100000x1 .i32 := broadcastInDim S100000x1 ![0] bcast_S100000_S100000x1_0 a4
  have v41 : A S256 .f32 := Host.scatterAdd (F := Ideal) (φ := .f32) scatter_S256_S100000x1_S100000_n_0_0_1 v39 v40 v38
  have cst_9 : A S_ .f32 := constant (F := Ideal) S_ .f32 0x3F800000#32
  have v42 : A S256 .f32 := broadcastInDim S256 ![] bcast_S_S256 cst_9
  have v43 : A S256 .f32 := maximumf (F := Ideal) (φ := .f32) v41 v42
  have v44 : A S256x1 .f32 := broadcastInDim S256x1 ![0] bcast_S256_S256x1_0 v43
  have v45 : A S256x15 .f32 := broadcastInDim S256x15 ![0, 1] bcast_S256x1_S256x15_0_1 v44
  have v46 : A S256x15 .f32 := Host.divf (F := Ideal) (φ := .f32) v37 v45
  -- the graph features joined to the graph means, through a two-layer perceptron
  have v47 : A S256x16 .f32 := concatenate S256x16 1 [⟨S256x1, a3⟩, ⟨S256x15, v46⟩] concatenates_S256x1_S256x15_S256x16_d1
  have v48 : A S256x50 .f32 := Host.dotGeneral (F := Ideal) (φ₁ := .f32) (φ₂ := .f32) dot_S256x16_S16x50_S256x50_1_0_0_1_n_n none v47 a13
  have v49 : A S1x50 .f32 := broadcastInDim S1x50 ![1] bcast_S50_S1x50_1 a14
  have v50 : A S256x50 .f32 := broadcastInDim S256x50 ![0, 1] bcast_S1x50_S256x50_0_1 v49
  have v51 : A S256x50 .f32 := addf (F := Ideal) (φ := .f32) v48 v50
  have c0_cst : A S_ .f32 := constant (F := Ideal) S_ .f32 0x00000000#32
  have c0_v0 : A S256x50 .f32 := broadcastInDim S256x50 ![] bcast_S_S256x50 c0_cst
  have v52 : A S256x50 .f32 := maximumf (F := Ideal) (φ := .f32) v51 c0_v0
  have v53 : A S256x15 .f32 := Host.dotGeneral (F := Ideal) (φ₁ := .f32) (φ₂ := .f32) dot_S256x50_S50x15_S256x15_1_0_0_1_n_n none v52 a15
  have v54 : A S1x15 .f32 := broadcastInDim S1x15 ![1] bcast_S15_S1x15_1 a16
  have v55 : A S256x15 .f32 := broadcastInDim S256x15 ![0, 1] bcast_S1x15_S256x15_0_1 v54
  have v56 : A S256x15 .f32 := addf (F := Ideal) (φ := .f32) v53 v55
  -- the node rows and the graph rows stacked, rectified
  have v57 : A S100256x15 .f32 := concatenate S100256x15 0 [⟨S100000x15, v34⟩, ⟨S256x15, v56⟩] concatenates_S100000x15_S256x15_S100256x15_d0
  have c1_cst : A S_ .f32 := constant (F := Ideal) S_ .f32 0x00000000#32
  have c1_v0 : A S100256x15 .f32 := broadcastInDim S100256x15 ![] bcast_S_S100256x15 c1_cst
  have v58 : A S100256x15 .f32 := maximumf (F := Ideal) (φ := .f32) v57 c1_v0
  -- their mean over each graph: its nodes and the graph itself
  have v59 : A S256 .i32 := iotaInDim S256 32 0
  have v60 : A S100256 .i32 := concatenate S100256 0 [⟨S100000, a4⟩, ⟨S256, v59⟩] concatenates_S100000_S256_S100256_d0
  have cst_10 : A S_ .f32 := constant (F := Ideal) S_ .f32 0x00000000#32
  have v61 : A S256x15 .f32 := broadcastInDim S256x15 ![] bcast_S_S256x15 cst_10
  have v62 : A S100256x1 .i32 := broadcastInDim S100256x1 ![0] bcast_S100256_S100256x1_0 v60
  have v63 : A S256x15 .f32 := Host.scatterAdd (F := Ideal) (φ := .f32) scatter_S256x15_S100256x1_S100256x15_1_0_0_1 v61 v62 v58
  have cst_11 : A S_ .f32 := constant (F := Ideal) S_ .f32 0x3F800000#32
  have v64 : A S100256 .f32 := broadcastInDim S100256 ![] bcast_S_S100256 cst_11
  have cst_12 : A S_ .f32 := constant (F := Ideal) S_ .f32 0x00000000#32
  have v65 : A S256 .f32 := broadcastInDim S256 ![] bcast_S_S256 cst_12
  have v66 : A S100256x1 .i32 := broadcastInDim S100256x1 ![0] bcast_S100256_S100256x1_0 v60
  have v67 : A S256 .f32 := Host.scatterAdd (F := Ideal) (φ := .f32) scatter_S256_S100256x1_S100256_n_0_0_1 v65 v66 v64
  have cst_13 : A S_ .f32 := constant (F := Ideal) S_ .f32 0x3F800000#32
  have v68 : A S256 .f32 := broadcastInDim S256 ![] bcast_S_S256 cst_13
  have v69 : A S256 .f32 := maximumf (F := Ideal) (φ := .f32) v67 v68
  have v70 : A S256x1 .f32 := broadcastInDim S256x1 ![0] bcast_S256_S256x1_0 v69
  have v71 : A S256x15 .f32 := broadcastInDim S256x15 ![0, 1] bcast_S256x1_S256x15_0_1 v70
  have v72 : A S256x15 .f32 := Host.divf (F := Ideal) (φ := .f32) v63 v71
  -- a linear layer, then the scaling by `a19 / sqrt (1 + ε)`, the shift by `a20`, and the rectifier
  have v73 : A S256x10 .f32 := Host.dotGeneral (F := Ideal) (φ₁ := .f32) (φ₂ := .f32) dot_S256x15_S15x10_S256x10_1_0_0_1_n_n none v72 a17
  have v74 : A S1x10 .f32 := broadcastInDim S1x10 ![1] bcast_S10_S1x10_1 a18
  have v75 : A S256x10 .f32 := broadcastInDim S256x10 ![0, 1] bcast_S1x10_S256x10_0_1 v74
  have v76 : A S256x10 .f32 := addf (F := Ideal) (φ := .f32) v73 v75
  have cst_14 : A S_ .f32 := constant (F := Ideal) S_ .f32 0x3F800054#32
  have v77 : A S_ .f32 := Host.sqrt (F := Ideal) (φ := .f32) cst_14
  have v78 : A S_ .f32 := id v77
  have v79 : A S10 .f32 := broadcastInDim S10 ![] bcast_S_S10 v78
  have v80 : A S10 .f32 := Host.divf (F := Ideal) (φ := .f32) a19 v79
  have v81 : A S1x10 .f32 := broadcastInDim S1x10 ![1] bcast_S10_S1x10_1 v80
  have v82 : A S256x10 .f32 := broadcastInDim S256x10 ![0, 1] bcast_S1x10_S256x10_0_1 v81
  have v83 : A S256x10 .f32 := mulf (F := Ideal) (φ := .f32) v76 v82
  have v84 : A S1x10 .f32 := broadcastInDim S1x10 ![1] bcast_S10_S1x10_1 a20
  have v85 : A S256x10 .f32 := broadcastInDim S256x10 ![0, 1] bcast_S1x10_S256x10_0_1 v84
  have v86 : A S256x10 .f32 := addf (F := Ideal) (φ := .f32) v83 v85
  have c2_cst : A S_ .f32 := constant (F := Ideal) S_ .f32 0x00000000#32
  have c2_v0 : A S256x10 .f32 := broadcastInDim S256x10 ![] bcast_S_S256x10 c2_cst
  have v87 : A S256x10 .f32 := maximumf (F := Ideal) (φ := .f32) v86 c2_v0
  -- the last linear layer
  have v88 : A S256x6 .f32 := Host.dotGeneral (F := Ideal) (φ₁ := .f32) (φ₂ := .f32) dot_S256x10_S10x6_S256x6_1_0_0_1_n_n none v87 a21
  have v89 : A S1x6 .f32 := broadcastInDim S1x6 ![1] bcast_S6_S1x6_1 a22
  have v90 : A S256x6 .f32 := broadcastInDim S256x6 ![0, 1] bcast_S1x6_S256x6_0_1 v89
  have v91 : A S256x6 .f32 := addf (F := Ideal) (φ := .f32) v88 v90
  -- the row-wise log-softmax: subtract the row's maximum, then the logarithm of the sum of exponentials
  have c3_cst : A S_ .f32 := constant (F := Ideal) S_ .f32 0xFF800000#32
  have c3_v0 : A S256 .f32 := Host.reduce (FloatOps.maximumf (F := Ideal) (φ := .f32)) v91 c3_cst reducesTo_S256x6_S256_d1 h_S_
  have c3_cst_0 : A S_ .f32 := constant (F := Ideal) S_ .f32 0xFF800000#32
  have c3_v1 : A S256 .f32 := broadcastInDim S256 ![] bcast_S_S256 c3_cst_0
  have c3_v2 : A S256 .f32 := maximumf (F := Ideal) (φ := .f32) c3_v1 c3_v0
  have c3_v3 : A S256x1 .f32 := broadcastInDim S256x1 ![0] bcast_S256_S256x1_0 c3_v2
  have c3_v4 : A S256x6 .f32 := broadcastInDim S256x6 ![0, 1] bcast_S256x1_S256x6_0_1 c3_v3
  have c3_v5 : A S256x6 .f32 := subf (F := Ideal) (φ := .f32) v91 c3_v4
  have c3_v6 : A S256x6 .f32 := Host.exp (F := Ideal) (φ := .f32) c3_v5
  have c3_cst_1 : A S_ .f32 := constant (F := Ideal) S_ .f32 0x00000000#32
  have c3_v7 : A S256 .f32 := Host.reduceAdd (F := Ideal) (φ := .f32) c3_v6 c3_cst_1 reducesTo_S256x6_S256_d1 h_S_
  have c3_v8 : A S256x1 .f32 := broadcastInDim S256x1 ![0] bcast_S256_S256x1_0 c3_v7
  have c3_v9 : A S256x1 .f32 := Host.log (F := Ideal) (φ := .f32) c3_v8
  have c3_v10 : A S256x6 .f32 := broadcastInDim S256x6 ![0, 1] bcast_S256x1_S256x6_0_1 c3_v9
  have v92 : A S256x6 .f32 := subf (F := Ideal) (φ := .f32) c3_v5 c3_v10
  v92

end Cert.KernelIdeal.Tail
-- ==== Proof.TailKernel.lean ====
import proofs.«147689_j74569222193915_2_alg».proof.Proof.TailFn
import proofs.«147689_j74569222193915_2_alg».proof.Proof.Gen.KernelIdeal.Launch
import Idealize.ShloMosaic.Lib.StableHlo.Run

/-!
# The kernel program's host tail is `T`

The 103 host operations the program runs after the edge kernel, folded over any contents `W` of the
device's buffers, leave in the result buffer the function `T` of what `W` holds in the kernel's
result buffer, the row-index buffer and the argument buffers: each operation writes one buffer of its
own, read only by later operations, so the fold is the composition of the operations' functions.
-/

noncomputable section

namespace Cert.KernelIdeal.Tail

open Cert.KernelIdeal Cert.KernelIdeal.Gen Idealize.ShloMosaic Idealize.ShloMosaic.TcCoe Idealize.SL.Sem Idealize.ShloMosaic.StableHlo

/-- Two arrays joined along an axis, with the two arrays as plain arguments (in `concatenate` they sit
    inside a list of shape-indexed pairs, where a rewrite of the contents does not reach them). -/
def cat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

/-- A join of two arrays is `cat2` of them. -/
theorem cat2_fold {α : Type} (t : Shape) (ax : Fin t.rank) (s₁ s₂ : Shape) (h : Shape.Concatenates [s₁, s₂] t ax)
    (a : s₁.Idx → α) (b : s₂.Idx → α) : concatenate t ax [⟨s₁, a⟩, ⟨s₂, b⟩] h = cat2 t ax s₁ s₂ h a b := rfl

set_option maxRecDepth 8192 in
set_option maxHeartbeats 64000000 in
/-- Whatever the buffers hold before them, the tail's operations leave `T` of the kernel's result,
    the row indices and the arguments in the result buffer. -/
theorem tail_kernel (W : Valuation τ sig (Elt Ideal)) :
    StableHlo.after (List.flatten [Gen.hostOps1 (F := Ideal), Gen.hostOps1_1, Gen.hostOps1_2, Gen.hostOps1_3,
        Gen.hostOps1_4, Gen.hostOps1_5, Gen.hostOps1_6, Gen.hostOps1_7]) W (Proc.devRef .tc main_v92)
      = T (W (Proc.devRef .tc main_v22)) (W (Proc.devRef .tc main_v1)) (W (Proc.devRef .tc main_arg3))
          (W (Proc.devRef .tc main_arg4)) (W (Proc.devRef .tc main_arg13)) (W (Proc.devRef .tc main_arg14))
          (W (Proc.devRef .tc main_arg15)) (W (Proc.devRef .tc main_arg16)) (W (Proc.devRef .tc main_arg17))
          (W (Proc.devRef .tc main_arg18)) (W (Proc.devRef .tc main_arg19)) (W (Proc.devRef .tc main_arg20))
          (W (Proc.devRef .tc main_arg21)) (W (Proc.devRef .tc main_arg22)) := by
  -- the eight stretches of operations as one literal list
  simp only [Gen.hostOps1, Gen.hostOps1_1, Gen.hostOps1_2, Gen.hostOps1_3, Gen.hostOps1_4, Gen.hostOps1_5,
    Gen.hostOps1_6, Gen.hostOps1_7, List.flatten_cons, List.flatten_nil, List.append_nil, List.cons_append,
    List.nil_append]
  -- each operation's result at its own buffer is its function of its operands' contents, and any other
  -- buffer keeps its contents; a join's two operands are brought out of their list so that this reaches them
  simp (disch := decide) only [after_cons, after_nil,
    nullary_result', unary_result', binary_result', ternary_result', quaternary_result', reshape_result',
    nary4_result', nary_result', unaryIndexed_result', binaryIndexed_result',
    nullary_result_ne', unary_result_ne', binary_result_ne', ternary_result_ne', quaternary_result_ne',
    reshape_result_ne', nary_result_ne', unaryIndexed_result_ne', binaryIndexed_result_ne', cat2_fold]
  -- what is left is `T`'s own chain
  unfold T
  rfl

end Cert.KernelIdeal.Tail
-- ==== Proof.KIValue.lean ====
/-
  The value of the idealized kernel's run. The region's result array is the one-edge row function of every edge's
  three rows of the arrays the region finds; those arrays are the shared head functions of the arguments (the
  gathers, never opened) and the arguments themselves, a bias's one-row view read at a column being the bias's
  entry. So the region's result IS the edge stage of the arguments. The 103 operations after the region are one
  function of that array, of the row endpoints and of twelve arguments, which gives the program's result.
-/
import proofs.«147689_j74569222193915_2_alg».proof.Proof.KIFinal
import proofs.«147689_j74569222193915_2_alg».proof.Proof.KIHead
import proofs.«147689_j74569222193915_2_alg».proof.Proof.EdgeStage
import proofs.«147689_j74569222193915_2_alg».proof.Proof.TailFn
import proofs.«147689_j74569222193915_2_alg».proof.Proof.TailKernel
import Idealize.ShloMosaic.Lib.Pipeline.Value
import Idealize.ShloMosaic.Lib.ValueIdx

set_option maxRecDepth 16384

noncomputable section

namespace Cert.KernelIdeal.EdgeValue

open Cert.KernelIdeal Cert.KernelIdeal.Gen Cert.KernelIdeal.Frame Cert.KernelIdeal.Head
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The region's result is the edge stage of the arguments -/

theorem edge_eq (c : Dev nD) : G (V m c main_v10) (V m c main_v17) (V m c main_arg2) (V m c main_arg5) (V m c main_v18) (V m c main_arg7) (V m c main_v19) (V m c main_arg9) (V m c main_v20) (V m c main_arg11) (V m c main_v21) = (Cert.KernelIdeal.HeadFn.edgeStage (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  funext i
  obtain ⟨e, q, rfl⟩ : ∃ (e : Fin 1600000) (q : Fin 15), i = ix2 e q := ⟨i 0, i 1, eq_ix2 i⟩
  show Gat (V m c main_v10) (V m c main_v17) (V m c main_arg2) (V m c main_arg5) (V m c main_v18) (V m c main_arg7) (V m c main_v19) (V m c main_arg9) (V m c main_v20) (V m c main_arg11) (V m c main_v21) e q = Cert.KernelIdeal.HeadFn.edgeAt (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) e q
  unfold Gat Cert.KernelIdeal.HeadFn.edgeAt
  simp only [V_v10 m c, V_v17 m c, V_v18_apply m c, V_v19_apply m c, V_v20_apply m c, V_v21_apply m c,
    V_main_arg2 m c, V_main_arg5 m c, V_main_arg7 m c, V_main_arg9 m c, V_main_arg11 m c]

/-! ## The program's result -/

/-- The program's result buffer after the later host operations: their one function of the region's result, of the
    row endpoints and of the arguments they read. -/
theorem kernel_value (c : Dev nD) :
    Pipeline.afterTail₀ cfgs (dats m) 0 (V0 m) tailOps c main_v92 = Cert.KernelIdeal.Tail.T (Cert.KernelIdeal.HeadFn.edgeStage (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.KernelIdeal.HeadFn.rowsFn (m ((c : Thread nD τ).loc main_arg1))) (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  unfold Pipeline.afterTail₀
  refine (Cert.KernelIdeal.Tail.tail_kernel _).trans ?_
  have h22 := (Pipeline.withArrays_arr spec0 launch0.win.arr_inj c (V0 m c) (fun w => (dats m 0 c).arrAt w cfg0.N) 11).trans ((final m c).trans (edge_eq m c))
  have h1 := (Pipeline.withArrays_of_ne spec0 c (V0 m c) (fun w => (dats m 0 c).arrAt w cfg0.N) main_v1 (by decide)).trans (V_v1 m c)
  have a3 := (Pipeline.withArrays_of_ne spec0 c (V0 m c) (fun w => (dats m 0 c).arrAt w cfg0.N) main_arg3 (by decide)).trans (V_main_arg3 m c)
  have a4 := (Pipeline.withArrays_of_ne spec0 c (V0 m c) (fun w => (dats m 0 c).arrAt w cfg0.N) main_arg4 (by decide)).trans (V_main_arg4 m c)
  have a13 := (Pipeline.withArrays_of_ne spec0 c (V0 m c) (fun w => (dats m 0 c).arrAt w cfg0.N) main_arg13 (by decide)).trans (V_main_arg13 m c)
  have a14 := (Pipeline.withArrays_of_ne spec0 c (V0 m c) (fun w => (dats m 0 c).arrAt w cfg0.N) main_arg14 (by decide)).trans (V_main_arg14 m c)
  have a15 := (Pipeline.withArrays_of_ne spec0 c (V0 m c) (fun w => (dats m 0 c).arrAt w cfg0.N) main_arg15 (by decide)).trans (V_main_arg15 m c)
  have a16 := (Pipeline.withArrays_of_ne spec0 c (V0 m c) (fun w => (dats m 0 c).arrAt w cfg0.N) main_arg16 (by decide)).trans (V_main_arg16 m c)
  have a17 := (Pipeline.withArrays_of_ne spec0 c (V0 m c) (fun w => (dats m 0 c).arrAt w cfg0.N) main_arg17 (by decide)).trans (V_main_arg17 m c)
  have a18 := (Pipeline.withArrays_of_ne spec0 c (V0 m c) (fun w => (dats m 0 c).arrAt w cfg0.N) main_arg18 (by decide)).trans (V_main_arg18 m c)
  have a19 := (Pipeline.withArrays_of_ne spec0 c (V0 m c) (fun w => (dats m 0 c).arrAt w cfg0.N) main_arg19 (by decide)).trans (V_main_arg19 m c)
  have a20 := (Pipeline.withArrays_of_ne spec0 c (V0 m c) (fun w => (dats m 0 c).arrAt w cfg0.N) main_arg20 (by decide)).trans (V_main_arg20 m c)
  have a21 := (Pipeline.withArrays_of_ne spec0 c (V0 m c) (fun w => (dats m 0 c).arrAt w cfg0.N) main_arg21 (by decide)).trans (V_main_arg21 m c)
  have a22 := (Pipeline.withArrays_of_ne spec0 c (V0 m c) (fun w => (dats m 0 c).arrAt w cfg0.N) main_arg22 (by decide)).trans (V_main_arg22 m c)
  exact congr (congr (congr (congr (congr (congr (congr (congr (congr (congr (congr (congr (congr (congrArg Cert.KernelIdeal.Tail.T h22) h1) a3) a4) a13) a14) a15) a16) a17) a18) a19) a20) a21) a22

/-- The run with the result named: every weakly fair execution ends with the result buffer at that function and the
    arguments unchanged. -/
theorem run : θ_run defs (onTc (τ := τ) (main (F := Ideal))) ⟨m, fun _ => 0, ρ⟩ (fun r => ∀ c : Dev nD,
      r.2.mem ((c.tc : Thread nD τ).loc main_v92) = Cert.KernelIdeal.Tail.T (Cert.KernelIdeal.HeadFn.edgeStage (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.KernelIdeal.HeadFn.rowsFn (m ((c : Thread nD τ).loc main_arg1))) (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨((h c).2 main_v92 (Pipeline.mem_restRefs_of main_v92 (by decide) (by decide))).trans (kernel_value m c),
      args_of_post m (dats m) (A_eq m) r h c⟩) (run_main m ρ)

end Cert.KernelIdeal.EdgeValue

end
-- ==== Proof.RefOps.lean ====
/-
  The reference program as the list of its 158 host operations, cut where the edge stage ends: the first 55
  operations (two slices of the edge list, the negative-index wrap, three row gathers, two dense-layer pairs over a
  concatenation) write the [1600000, 15] edge result `main_v44`; the other 103 (the segment means, the graph
  layers, the scaling, the log-softmax) read it, the row endpoints and twelve arguments. The program IS that
  sequence, every operation touches TensorCore buffers only and allocates nothing, so every weakly fair execution
  terminates with each buffer at the fold of the operations over the launch memory — kept folded here: what the
  fold computes is read elsewhere, stage by stage.
-/
import proofs.«147689_j74569222193915_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the edge result `main_v44`, in order (a called function's operations stand in its call's place). -/
abbrev opsHead : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v3 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v3 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg0 main_v16 main_v17 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    nary ![main_v10, main_v17, main_arg2] main_v18 (fun u => concatenate S1600000x9 1 [⟨S1600000x3, u 0⟩, ⟨S1600000x3, u 1⟩, ⟨S1600000x3, u 2⟩] concatenates_S1600000x3_S1600000x3_S1600000x3_S1600000x9_d1),
    binary main_v18 main_arg5 main_v19 ((fun l r => Host.dotGeneral dot_S1600000x9_S9x50_S1600000x50_1_0_0_1_n_n none l r) : (⟨S1600000x9, .f32⟩ : BufTy).Contents (Elt F) → (⟨S9x50, .f32⟩ : BufTy).Contents (Elt F) → (⟨S1600000x50, .f32⟩ : BufTy).Contents (Elt F)),
    unary main_arg6 main_v20 (broadcastInDim S1x50 ![1] bcast_S50_S1x50_1 : (⟨S50, .f32⟩ : BufTy).Contents (Elt F) → (⟨S1x50, .f32⟩ : BufTy).Contents (Elt F)),
    unary main_v20 main_v21 (broadcastInDim S1600000x50 ![0, 1] bcast_S1x50_S1600000x50_0_1 : (⟨S1x50, .f32⟩ : BufTy).Contents (Elt F) → (⟨S1600000x50, .f32⟩ : BufTy).Contents (Elt F)),
    binary main_v19 main_v21 main_v22 (addf : (⟨S1600000x50, .f32⟩ : BufTy).Contents (Elt F) → (⟨S1600000x50, .f32⟩ : BufTy).Contents (Elt F) → (⟨S1600000x50, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x50, .f32⟩) main_call0_v0) (broadcastInDim S1600000x50 ![] bcast_S_S1600000x50),
    TRef.binary (TRef.of (T := ⟨S1600000x50, .f32⟩) main_v22) (TRef.of (T := ⟨S1600000x50, .f32⟩) main_call0_v0) (TRef.of (T := ⟨S1600000x50, .f32⟩) main_v23) maximumf,
    binary main_v23 main_arg7 main_v24 ((fun l r => Host.dotGeneral dot_S1600000x50_S50x15_S1600000x15_1_0_0_1_n_n none l r) : (⟨S1600000x50, .f32⟩ : BufTy).Contents (Elt F) → (⟨S50x15, .f32⟩ : BufTy).Contents (Elt F) → (⟨S1600000x15, .f32⟩ : BufTy).Contents (Elt F)),
    unary main_arg8 main_v25 (broadcastInDim S1x15 ![1] bcast_S15_S1x15_1 : (⟨S15, .f32⟩ : BufTy).Contents (Elt F) → (⟨S1x15, .f32⟩ : BufTy).Contents (Elt F)),
    unary main_v25 main_v26 (broadcastInDim S1600000x15 ![0, 1] bcast_S1x15_S1600000x15_0_1 : (⟨S1x15, .f32⟩ : BufTy).Contents (Elt F) → (⟨S1600000x15, .f32⟩ : BufTy).Contents (Elt F)),
    binary main_v24 main_v26 main_v27 (addf : (⟨S1600000x15, .f32⟩ : BufTy).Contents (Elt F) → (⟨S1600000x15, .f32⟩ : BufTy).Contents (Elt F) → (⟨S1600000x15, .f32⟩ : BufTy).Contents (Elt F)),
    nullary main_c_3 (constantI S_ 32 0#32),
    unary main_c_3 main_v28 (broadcastInDim S1600000 ![] bcast_S_S1600000 : (⟨S_, .i32⟩ : BufTy).Contents (Elt F) → (⟨S1600000, .i32⟩ : BufTy).Contents (Elt F)),
    binary main_v3 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v30 (broadcastInDim S1600000 ![] bcast_S_S1600000 : (⟨S_, .i32⟩ : BufTy).Contents (Elt F) → (⟨S1600000, .i32⟩ : BufTy).Contents (Elt F)),
    binary main_v3 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_arg0 main_v33 main_v34 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    binary main_v34 main_v27 main_v35 ((fun a b => concatenate S1600000x18 1 [⟨S1600000x3, a⟩, ⟨S1600000x15, b⟩] concatenates_S1600000x3_S1600000x15_S1600000x18_d1) : (⟨S1600000x3, .f32⟩ : BufTy).Contents (Elt F) → (⟨S1600000x15, .f32⟩ : BufTy).Contents (Elt F) → (⟨S1600000x18, .f32⟩ : BufTy).Contents (Elt F)),
    binary main_v35 main_arg9 main_v36 ((fun l r => Host.dotGeneral dot_S1600000x18_S18x50_S1600000x50_1_0_0_1_n_n none l r) : (⟨S1600000x18, .f32⟩ : BufTy).Contents (Elt F) → (⟨S18x50, .f32⟩ : BufTy).Contents (Elt F) → (⟨S1600000x50, .f32⟩ : BufTy).Contents (Elt F)),
    unary main_arg10 main_v37 (broadcastInDim S1x50 ![1] bcast_S50_S1x50_1 : (⟨S50, .f32⟩ : BufTy).Contents (Elt F) → (⟨S1x50, .f32⟩ : BufTy).Contents (Elt F)),
    unary main_v37 main_v38 (broadcastInDim S1600000x50 ![0, 1] bcast_S1x50_S1600000x50_0_1 : (⟨S1x50, .f32⟩ : BufTy).Contents (Elt F) → (⟨S1600000x50, .f32⟩ : BufTy).Contents (Elt F)),
    binary main_v36 main_v38 main_v39 (addf : (⟨S1600000x50, .f32⟩ : BufTy).Contents (Elt F) → (⟨S1600000x50, .f32⟩ : BufTy).Contents (Elt F) → (⟨S1600000x50, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x50, .f32⟩) main_call1_v0) (broadcastInDim S1600000x50 ![] bcast_S_S1600000x50),
    TRef.binary (TRef.of (T := ⟨S1600000x50, .f32⟩) main_v39) (TRef.of (T := ⟨S1600000x50, .f32⟩) main_call1_v0) (TRef.of (T := ⟨S1600000x50, .f32⟩) main_v40) maximumf,
    binary main_v40 main_arg11 main_v41 ((fun l r => Host.dotGeneral dot_S1600000x50_S50x15_S1600000x15_1_0_0_1_n_n none l r) : (⟨S1600000x50, .f32⟩ : BufTy).Contents (Elt F) → (⟨S50x15, .f32⟩ : BufTy).Contents (Elt F) → (⟨S1600000x15, .f32⟩ : BufTy).Contents (Elt F)),
    unary main_arg12 main_v42 (broadcastInDim S1x15 ![1] bcast_S15_S1x15_1 : (⟨S15, .f32⟩ : BufTy).Contents (Elt F) → (⟨S1x15, .f32⟩ : BufTy).Contents (Elt F)),
    unary main_v42 main_v43 (broadcastInDim S1600000x15 ![0, 1] bcast_S1x15_S1600000x15_0_1 : (⟨S1x15, .f32⟩ : BufTy).Contents (Elt F) → (⟨S1600000x15, .f32⟩ : BufTy).Contents (Elt F)),
    binary main_v41 main_v43 main_v44 (addf : (⟨S1600000x15, .f32⟩ : BufTy).Contents (Elt F) → (⟨S1600000x15, .f32⟩ : BufTy).Contents (Elt F) → (⟨S1600000x15, .f32⟩ : BufTy).Contents (Elt F)) ]

/-- The operations after it, in order. -/
abbrev opsTail : List (HloOp τ sig (Elt F)) :=
  [ nullary main_cst (constant S_ .f32 0x00000000#32),
    unary main_cst main_v45 (broadcastInDim S100000x15 ![] bcast_S_S100000x15 : (⟨S_, .f32⟩ : BufTy).Contents (Elt F) → (⟨S100000x15, .f32⟩ : BufTy).Contents (Elt F)),
    unary main_v1 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x15_S1600000x1_S1600000x15_1_0_0_1 x i u) : (⟨S100000x15, .f32⟩ : BufTy).Contents (Elt F) → (⟨S1600000x1, .i32⟩ : BufTy).Contents (Elt F) → (⟨S1600000x15, .f32⟩ : BufTy).Contents (Elt F) → (⟨S100000x15, .f32⟩ : BufTy).Contents (Elt F)),
    nullary main_cst_5 (constant S_ .f32 0x3F800000#32),
    unary main_cst_5 main_v48 (broadcastInDim S1600000 ![] bcast_S_S1600000 : (⟨S_, .f32⟩ : BufTy).Contents (Elt F) → (⟨S1600000, .f32⟩ : BufTy).Contents (Elt F)),
    nullary main_cst_6 (constant S_ .f32 0x00000000#32),
    unary main_cst_6 main_v49 (broadcastInDim S100000 ![] bcast_S_S100000 : (⟨S_, .f32⟩ : BufTy).Contents (Elt F) → (⟨S100000, .f32⟩ : BufTy).Contents (Elt F)),
    unary main_v1 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_7 (constant S_ .f32 0x3F800000#32),
    unary main_cst_7 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x15 ![0, 1] bcast_S100000x1_S100000x15_0_1 : (⟨S100000x1, .f32⟩ : BufTy).Contents (Elt F) → (⟨S100000x15, .f32⟩ : BufTy).Contents (Elt F)),
    binary main_v47 main_v55 main_v56 (Host.divf : (⟨S100000x15, .f32⟩ : BufTy).Contents (Elt F) → (⟨S100000x15, .f32⟩ : BufTy).Contents (Elt F) → (⟨S100000x15, .f32⟩ : BufTy).Contents (Elt F)),
    nullary main_cst_8 (constant S_ .f32 0x00000000#32),
    unary main_cst_8 main_v57 (broadcastInDim S256x15 ![] bcast_S_S256x15 : (⟨S_, .f32⟩ : BufTy).Contents (Elt F) → (⟨S256x15, .f32⟩ : BufTy).Contents (Elt F)),
    unary main_arg4 main_v58 (broadcastInDim S100000x1 ![0] bcast_S100000_S100000x1_0 : (⟨S100000, .i32⟩ : BufTy).Contents (Elt F) → (⟨S100000x1, .i32⟩ : BufTy).Contents (Elt F)),
    ternary main_v57 main_v58 main_v56 main_v59 ((fun x i u => Host.scatterAdd scatter_S256x15_S100000x1_S100000x15_1_0_0_1 x i u) : (⟨S256x15, .f32⟩ : BufTy).Contents (Elt F) → (⟨S100000x1, .i32⟩ : BufTy).Contents (Elt F) → (⟨S100000x15, .f32⟩ : BufTy).Contents (Elt F) → (⟨S256x15, .f32⟩ : BufTy).Contents (Elt F)),
    nullary main_cst_9 (constant S_ .f32 0x3F800000#32),
    unary main_cst_9 main_v60 (broadcastInDim S100000 ![] bcast_S_S100000 : (⟨S_, .f32⟩ : BufTy).Contents (Elt F) → (⟨S100000, .f32⟩ : BufTy).Contents (Elt F)),
    nullary main_cst_10 (constant S_ .f32 0x00000000#32),
    unary main_cst_10 main_v61 (broadcastInDim S256 ![] bcast_S_S256 : (⟨S_, .f32⟩ : BufTy).Contents (Elt F) → (⟨S256, .f32⟩ : BufTy).Contents (Elt F)),
    unary main_arg4 main_v62 (broadcastInDim S100000x1 ![0] bcast_S100000_S100000x1_0 : (⟨S100000, .i32⟩ : BufTy).Contents (Elt F) → (⟨S100000x1, .i32⟩ : BufTy).Contents (Elt F)),
    ternary main_v61 main_v62 main_v60 main_v63 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_11 (constant S_ .f32 0x3F800000#32),
    unary main_cst_11 main_v64 (broadcastInDim S256 ![] bcast_S_S256 : (⟨S_, .f32⟩ : BufTy).Contents (Elt F) → (⟨S256, .f32⟩ : BufTy).Contents (Elt F)),
    binary main_v63 main_v64 main_v65 (maximumf : (⟨S256, .f32⟩ : BufTy).Contents (Elt F) → (⟨S256, .f32⟩ : BufTy).Contents (Elt F) → (⟨S256, .f32⟩ : BufTy).Contents (Elt F)),
    unary main_v65 main_v66 (broadcastInDim S256x1 ![0] bcast_S256_S256x1_0 : (⟨S256, .f32⟩ : BufTy).Contents (Elt F) → (⟨S256x1, .f32⟩ : BufTy).Contents (Elt F)),
    unary main_v66 main_v67 (broadcastInDim S256x15 ![0, 1] bcast_S256x1_S256x15_0_1 : (⟨S256x1, .f32⟩ : BufTy).Contents (Elt F) → (⟨S256x15, .f32⟩ : BufTy).Contents (Elt F)),
    binary main_v59 main_v67 main_v68 (Host.divf : (⟨S256x15, .f32⟩ : BufTy).Contents (Elt F) → (⟨S256x15, .f32⟩ : BufTy).Contents (Elt F) → (⟨S256x15, .f32⟩ : BufTy).Contents (Elt F)),
    binary main_arg3 main_v68 main_v69 ((fun a b => concatenate S256x16 1 [⟨S256x1, a⟩, ⟨S256x15, b⟩] concatenates_S256x1_S256x15_S256x16_d1) : (⟨S256x1, .f32⟩ : BufTy).Contents (Elt F) → (⟨S256x15, .f32⟩ : BufTy).Contents (Elt F) → (⟨S256x16, .f32⟩ : BufTy).Contents (Elt F)),
    binary main_v69 main_arg13 main_v70 ((fun l r => Host.dotGeneral dot_S256x16_S16x50_S256x50_1_0_0_1_n_n none l r) : (⟨S256x16, .f32⟩ : BufTy).Contents (Elt F) → (⟨S16x50, .f32⟩ : BufTy).Contents (Elt F) → (⟨S256x50, .f32⟩ : BufTy).Contents (Elt F)),
    unary main_arg14 main_v71 (broadcastInDim S1x50 ![1] bcast_S50_S1x50_1 : (⟨S50, .f32⟩ : BufTy).Contents (Elt F) → (⟨S1x50, .f32⟩ : BufTy).Contents (Elt F)),
    unary main_v71 main_v72 (broadcastInDim S256x50 ![0, 1] bcast_S1x50_S256x50_0_1 : (⟨S1x50, .f32⟩ : BufTy).Contents (Elt F) → (⟨S256x50, .f32⟩ : BufTy).Contents (Elt F)),
    binary main_v70 main_v72 main_v73 (addf : (⟨S256x50, .f32⟩ : BufTy).Contents (Elt F) → (⟨S256x50, .f32⟩ : BufTy).Contents (Elt F) → (⟨S256x50, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S256x50, .f32⟩) main_call2_v0) (broadcastInDim S256x50 ![] bcast_S_S256x50),
    TRef.binary (TRef.of (T := ⟨S256x50, .f32⟩) main_v73) (TRef.of (T := ⟨S256x50, .f32⟩) main_call2_v0) (TRef.of (T := ⟨S256x50, .f32⟩) main_v74) maximumf,
    binary main_v74 main_arg15 main_v75 ((fun l r => Host.dotGeneral dot_S256x50_S50x15_S256x15_1_0_0_1_n_n none l r) : (⟨S256x50, .f32⟩ : BufTy).Contents (Elt F) → (⟨S50x15, .f32⟩ : BufTy).Contents (Elt F) → (⟨S256x15, .f32⟩ : BufTy).Contents (Elt F)),
    unary main_arg16 main_v76 (broadcastInDim S1x15 ![1] bcast_S15_S1x15_1 : (⟨S15, .f32⟩ : BufTy).Contents (Elt F) → (⟨S1x15, .f32⟩ : BufTy).Contents (Elt F)),
    unary main_v76 main_v77 (broadcastInDim S256x15 ![0, 1] bcast_S1x15_S256x15_0_1 : (⟨S1x15, .f32⟩ : BufTy).Contents (Elt F) → (⟨S256x15, .f32⟩ : BufTy).Contents (Elt F)),
    binary main_v75 main_v77 main_v78 (addf : (⟨S256x15, .f32⟩ : BufTy).Contents (Elt F) → (⟨S256x15, .f32⟩ : BufTy).Contents (Elt F) → (⟨S256x15, .f32⟩ : BufTy).Contents (Elt F)),
    binary main_v56 main_v78 main_v79 ((fun a b => concatenate S100256x15 0 [⟨S100000x15, a⟩, ⟨S256x15, b⟩] concatenates_S100000x15_S256x15_S100256x15_d0) : (⟨S100000x15, .f32⟩ : BufTy).Contents (Elt F) → (⟨S256x15, .f32⟩ : BufTy).Contents (Elt F) → (⟨S100256x15, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100256x15, .f32⟩) main_call3_v0) (broadcastInDim S100256x15 ![] bcast_S_S100256x15),
    TRef.binary (TRef.of (T := ⟨S100256x15, .f32⟩) main_v79) (TRef.of (T := ⟨S100256x15, .f32⟩) main_call3_v0) (TRef.of (T := ⟨S100256x15, .f32⟩) main_v80) maximumf,
    nullary main_v81 (iotaInDim S256 32 0),
    binary main_arg4 main_v81 main_v82 ((fun a b => concatenate S100256 0 [⟨S100000, a⟩, ⟨S256, b⟩] concatenates_S100000_S256_S100256_d0) : (⟨S100000, .i32⟩ : BufTy).Contents (Elt F) → (⟨S256, .i32⟩ : BufTy).Contents (Elt F) → (⟨S100256, .i32⟩ : BufTy).Contents (Elt F)),
    nullary main_cst_12 (constant S_ .f32 0x00000000#32),
    unary main_cst_12 main_v83 (broadcastInDim S256x15 ![] bcast_S_S256x15 : (⟨S_, .f32⟩ : BufTy).Contents (Elt F) → (⟨S256x15, .f32⟩ : BufTy).Contents (Elt F)),
    unary main_v82 main_v84 (broadcastInDim S100256x1 ![0] bcast_S100256_S100256x1_0 : (⟨S100256, .i32⟩ : BufTy).Contents (Elt F) → (⟨S100256x1, .i32⟩ : BufTy).Contents (Elt F)),
    ternary main_v83 main_v84 main_v80 main_v85 ((fun x i u => Host.scatterAdd scatter_S256x15_S100256x1_S100256x15_1_0_0_1 x i u) : (⟨S256x15, .f32⟩ : BufTy).Contents (Elt F) → (⟨S100256x1, .i32⟩ : BufTy).Contents (Elt F) → (⟨S100256x15, .f32⟩ : BufTy).Contents (Elt F) → (⟨S256x15, .f32⟩ : BufTy).Contents (Elt F)),
    nullary main_cst_13 (constant S_ .f32 0x3F800000#32),
    unary main_cst_13 main_v86 (broadcastInDim S100256 ![] bcast_S_S100256 : (⟨S_, .f32⟩ : BufTy).Contents (Elt F) → (⟨S100256, .f32⟩ : BufTy).Contents (Elt F)),
    nullary main_cst_14 (constant S_ .f32 0x00000000#32),
    unary main_cst_14 main_v87 (broadcastInDim S256 ![] bcast_S_S256 : (⟨S_, .f32⟩ : BufTy).Contents (Elt F) → (⟨S256, .f32⟩ : BufTy).Contents (Elt F)),
    unary main_v82 main_v88 (broadcastInDim S100256x1 ![0] bcast_S100256_S100256x1_0 : (⟨S100256, .i32⟩ : BufTy).Contents (Elt F) → (⟨S100256x1, .i32⟩ : BufTy).Contents (Elt F)),
    ternary main_v87 main_v88 main_v86 main_v89 ((fun x i u => Host.scatterAdd scatter_S256_S100256x1_S100256_n_0_0_1 x i u) : (⟨S256, .f32⟩ : BufTy).Contents (Elt F) → (⟨S100256x1, .i32⟩ : BufTy).Contents (Elt F) → (⟨S100256, .f32⟩ : BufTy).Contents (Elt F) → (⟨S256, .f32⟩ : BufTy).Contents (Elt F)),
    nullary main_cst_15 (constant S_ .f32 0x3F800000#32),
    unary main_cst_15 main_v90 (broadcastInDim S256 ![] bcast_S_S256 : (⟨S_, .f32⟩ : BufTy).Contents (Elt F) → (⟨S256, .f32⟩ : BufTy).Contents (Elt F)),
    binary main_v89 main_v90 main_v91 (maximumf : (⟨S256, .f32⟩ : BufTy).Contents (Elt F) → (⟨S256, .f32⟩ : BufTy).Contents (Elt F) → (⟨S256, .f32⟩ : BufTy).Contents (Elt F)),
    unary main_v91 main_v92 (broadcastInDim S256x1 ![0] bcast_S256_S256x1_0 : (⟨S256, .f32⟩ : BufTy).Contents (Elt F) → (⟨S256x1, .f32⟩ : BufTy).Contents (Elt F)),
    unary main_v92 main_v93 (broadcastInDim S256x15 ![0, 1] bcast_S256x1_S256x15_0_1 : (⟨S256x1, .f32⟩ : BufTy).Contents (Elt F) → (⟨S256x15, .f32⟩ : BufTy).Contents (Elt F)),
    binary main_v85 main_v93 main_v94 (Host.divf : (⟨S256x15, .f32⟩ : BufTy).Contents (Elt F) → (⟨S256x15, .f32⟩ : BufTy).Contents (Elt F) → (⟨S256x15, .f32⟩ : BufTy).Contents (Elt F)),
    binary main_v94 main_arg17 main_v95 ((fun l r => Host.dotGeneral dot_S256x15_S15x10_S256x10_1_0_0_1_n_n none l r) : (⟨S256x15, .f32⟩ : BufTy).Contents (Elt F) → (⟨S15x10, .f32⟩ : BufTy).Contents (Elt F) → (⟨S256x10, .f32⟩ : BufTy).Contents (Elt F)),
    unary main_arg18 main_v96 (broadcastInDim S1x10 ![1] bcast_S10_S1x10_1 : (⟨S10, .f32⟩ : BufTy).Contents (Elt F) → (⟨S1x10, .f32⟩ : BufTy).Contents (Elt F)),
    unary main_v96 main_v97 (broadcastInDim S256x10 ![0, 1] bcast_S1x10_S256x10_0_1 : (⟨S1x10, .f32⟩ : BufTy).Contents (Elt F) → (⟨S256x10, .f32⟩ : BufTy).Contents (Elt F)),
    binary main_v95 main_v97 main_v98 (addf : (⟨S256x10, .f32⟩ : BufTy).Contents (Elt F) → (⟨S256x10, .f32⟩ : BufTy).Contents (Elt F) → (⟨S256x10, .f32⟩ : BufTy).Contents (Elt F)),
    nullary main_cst_16 (constant S_ .f32 0x3F800054#32),
    unary main_cst_16 main_v99 (Host.sqrt : (⟨S_, .f32⟩ : BufTy).Contents (Elt F) → (⟨S_, .f32⟩ : BufTy).Contents (Elt F)),
    unary main_v99 main_v100 (id : (⟨S_, .f32⟩ : BufTy).Contents (Elt F) → (⟨S_, .f32⟩ : BufTy).Contents (Elt F)),
    unary main_v100 main_v101 (broadcastInDim S10 ![] bcast_S_S10 : (⟨S_, .f32⟩ : BufTy).Contents (Elt F) → (⟨S10, .f32⟩ : BufTy).Contents (Elt F)),
    binary main_arg19 main_v101 main_v102 (Host.divf : (⟨S10, .f32⟩ : BufTy).Contents (Elt F) → (⟨S10, .f32⟩ : BufTy).Contents (Elt F) → (⟨S10, .f32⟩ : BufTy).Contents (Elt F)),
    unary main_v102 main_v103 (broadcastInDim S1x10 ![1] bcast_S10_S1x10_1 : (⟨S10, .f32⟩ : BufTy).Contents (Elt F) → (⟨S1x10, .f32⟩ : BufTy).Contents (Elt F)),
    unary main_v103 main_v104 (broadcastInDim S256x10 ![0, 1] bcast_S1x10_S256x10_0_1 : (⟨S1x10, .f32⟩ : BufTy).Contents (Elt F) → (⟨S256x10, .f32⟩ : BufTy).Contents (Elt F)),
    binary main_v98 main_v104 main_v105 (mulf : (⟨S256x10, .f32⟩ : BufTy).Contents (Elt F) → (⟨S256x10, .f32⟩ : BufTy).Contents (Elt F) → (⟨S256x10, .f32⟩ : BufTy).Contents (Elt F)),
    unary main_arg20 main_v106 (broadcastInDim S1x10 ![1] bcast_S10_S1x10_1 : (⟨S10, .f32⟩ : BufTy).Contents (Elt F) → (⟨S1x10, .f32⟩ : BufTy).Contents (Elt F)),
    unary main_v106 main_v107 (broadcastInDim S256x10 ![0, 1] bcast_S1x10_S256x10_0_1 : (⟨S1x10, .f32⟩ : BufTy).Contents (Elt F) → (⟨S256x10, .f32⟩ : BufTy).Contents (Elt F)),
    binary main_v105 main_v107 main_v108 (addf : (⟨S256x10, .f32⟩ : BufTy).Contents (Elt F) → (⟨S256x10, .f32⟩ : BufTy).Contents (Elt F) → (⟨S256x10, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256x10, .f32⟩) main_call4_v0) (broadcastInDim S256x10 ![] bcast_S_S256x10),
    TRef.binary (TRef.of (T := ⟨S256x10, .f32⟩) main_v108) (TRef.of (T := ⟨S256x10, .f32⟩) main_call4_v0) (TRef.of (T := ⟨S256x10, .f32⟩) main_v109) maximumf,
    binary main_v109 main_arg21 main_v110 ((fun l r => Host.dotGeneral dot_S256x10_S10x6_S256x6_1_0_0_1_n_n none l r) : (⟨S256x10, .f32⟩ : BufTy).Contents (Elt F) → (⟨S10x6, .f32⟩ : BufTy).Contents (Elt F) → (⟨S256x6, .f32⟩ : BufTy).Contents (Elt F)),
    unary main_arg22 main_v111 (broadcastInDim S1x6 ![1] bcast_S6_S1x6_1 : (⟨S6, .f32⟩ : BufTy).Contents (Elt F) → (⟨S1x6, .f32⟩ : BufTy).Contents (Elt F)),
    unary main_v111 main_v112 (broadcastInDim S256x6 ![0, 1] bcast_S1x6_S256x6_0_1 : (⟨S1x6, .f32⟩ : BufTy).Contents (Elt F) → (⟨S256x6, .f32⟩ : BufTy).Contents (Elt F)),
    binary main_v110 main_v112 main_v113 (addf : (⟨S256x6, .f32⟩ : BufTy).Contents (Elt F) → (⟨S256x6, .f32⟩ : BufTy).Contents (Elt F) → (⟨S256x6, .f32⟩ : BufTy).Contents (Elt F)),
    TRef.nullary (TRef.of (T := ⟨S_, .f32⟩) main_call5_cst) (constant S_ .f32 0xFF800000#32),
    TRef.binary (TRef.of (T := ⟨S256x6, .f32⟩) main_v113) (TRef.of (T := ⟨S_, .f32⟩) main_call5_cst) (TRef.of (T := ⟨S256, .f32⟩) main_call5_v0) (fun x v => Host.reduce FloatOps.maximumf x v reducesTo_S256x6_S256_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S256, .f32⟩) main_call5_v1) (broadcastInDim S256 ![] bcast_S_S256),
    TRef.binary (TRef.of (T := ⟨S256, .f32⟩) main_call5_v1) (TRef.of (T := ⟨S256, .f32⟩) main_call5_v0) (TRef.of (T := ⟨S256, .f32⟩) main_call5_v2) maximumf,
    TRef.unary (TRef.of (T := ⟨S256, .f32⟩) main_call5_v2) (TRef.of (T := ⟨S256x1, .f32⟩) main_call5_v3) (broadcastInDim S256x1 ![0] bcast_S256_S256x1_0),
    TRef.unary (TRef.of (T := ⟨S256x1, .f32⟩) main_call5_v3) (TRef.of (T := ⟨S256x6, .f32⟩) main_call5_v4) (broadcastInDim S256x6 ![0, 1] bcast_S256x1_S256x6_0_1),
    TRef.binary (TRef.of (T := ⟨S256x6, .f32⟩) main_v113) (TRef.of (T := ⟨S256x6, .f32⟩) main_call5_v4) (TRef.of (T := ⟨S256x6, .f32⟩) main_call5_v5) subf,
    TRef.unary (TRef.of (T := ⟨S256x6, .f32⟩) main_call5_v5) (TRef.of (T := ⟨S256x6, .f32⟩) main_call5_v6) Host.exp,
    TRef.nullary (TRef.of (T := ⟨S_, .f32⟩) main_call5_cst_1) (constant S_ .f32 0x00000000#32),
    TRef.binary (TRef.of (T := ⟨S256x6, .f32⟩) main_call5_v6) (TRef.of (T := ⟨S_, .f32⟩) main_call5_cst_1) (TRef.of (T := ⟨S256, .f32⟩) main_call5_v7) (fun x v => Host.reduceAdd x v reducesTo_S256x6_S256_d1 h_S_),
    TRef.unary (TRef.of (T := ⟨S256, .f32⟩) main_call5_v7) (TRef.of (T := ⟨S256x1, .f32⟩) main_call5_v8) (broadcastInDim S256x1 ![0] bcast_S256_S256x1_0),
    TRef.unary (TRef.of (T := ⟨S256x1, .f32⟩) main_call5_v8) (TRef.of (T := ⟨S256x1, .f32⟩) main_call5_v9) Host.log,
    TRef.unary (TRef.of (T := ⟨S256x1, .f32⟩) main_call5_v9) (TRef.of (T := ⟨S256x6, .f32⟩) main_call5_v10) (broadcastInDim S256x6 ![0, 1] bcast_S256x1_S256x6_0_1),
    TRef.binary (TRef.of (T := ⟨S256x6, .f32⟩) main_call5_v5) (TRef.of (T := ⟨S256x6, .f32⟩) main_call5_v10) (TRef.of (T := ⟨S256x6, .f32⟩) main_v114) subf ]

set_option maxRecDepth 8192 in
set_option maxHeartbeats 4000000 in
/-- @main is the two stretches in sequence. -/
theorem main_eq (c : Dev nD) : main (F := F) c = seq (opsHead ++ opsTail) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsHead_sub : (opsHead : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsTail_sub : (opsTail : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsHead_fresh : (opsHead : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor

/-- Folding two stretches in sequence is folding the second over the first's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- On every device, from any memory with zero counters: every weakly fair execution of @main terminates with each
    TensorCore buffer at the later operations' fold over the earlier operations' fold over the launch memory. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsTail (after opsHead (launchContents m c)) (Proc.devRef .tc b) :=
  (θ_run defs _ _).mono (fun _ h c b => (h c b).trans (congrFun (after_append opsHead opsTail _) _))
    (run_seq scopedRefs_eq scopedSems_eq defs main (fun _ => opsHead ++ opsTail) main_eq
      (fun _ => List.forall_iff_forall_mem.mpr fun op h => by
        rcases List.mem_append.mp h with h | h
        · exact (List.forall_iff_forall_mem.mp opsHead_sub) op h
        · exact (List.forall_iff_forall_mem.mp opsTail_sub) op h)
      m ρ
      (fun _ op h => by
        rcases List.mem_append.mp h with h | h
        · exact (List.forall_iff_forall_mem.mp opsHead_fresh) op h
        · exact (List.forall_iff_forall_mem.mp opsTail_fresh) op h))

end Cert.ReferenceIdeal.Hand

end
-- ==== Proof.RefArgs.lean ====
/-
  No operation of the reference writes an argument: each writes its own result buffer, and the results are other
  buffers than the arguments. So after both stretches every argument is as before them.
-/
import proofs.«147689_j74569222193915_2_alg».proof.Proof.RefOps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- `main_arg0` is written by no operation. -/
theorem arg0_kept (V : Valuation τ sig (Elt F)) :
    after opsTail (after opsHead V) (Proc.devRef .tc main_arg0) = V (Proc.devRef .tc main_arg0) := by
  rw [after_of_forall_not_mem (b := Proc.devRef .tc main_arg0) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg0) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg1` is written by no operation. -/
theorem arg1_kept (V : Valuation τ sig (Elt F)) :
    after opsTail (after opsHead V) (Proc.devRef .tc main_arg1) = V (Proc.devRef .tc main_arg1) := by
  rw [after_of_forall_not_mem (b := Proc.devRef .tc main_arg1) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg1) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg2` is written by no operation. -/
theorem arg2_kept (V : Valuation τ sig (Elt F)) :
    after opsTail (after opsHead V) (Proc.devRef .tc main_arg2) = V (Proc.devRef .tc main_arg2) := by
  rw [after_of_forall_not_mem (b := Proc.devRef .tc main_arg2) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg2) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg3` is written by no operation. -/
theorem arg3_kept (V : Valuation τ sig (Elt F)) :
    after opsTail (after opsHead V) (Proc.devRef .tc main_arg3) = V (Proc.devRef .tc main_arg3) := by
  rw [after_of_forall_not_mem (b := Proc.devRef .tc main_arg3) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg3) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg4` is written by no operation. -/
theorem arg4_kept (V : Valuation τ sig (Elt F)) :
    after opsTail (after opsHead V) (Proc.devRef .tc main_arg4) = V (Proc.devRef .tc main_arg4) := by
  rw [after_of_forall_not_mem (b := Proc.devRef .tc main_arg4) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg4) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg5` is written by no operation. -/
theorem arg5_kept (V : Valuation τ sig (Elt F)) :
    after opsTail (after opsHead V) (Proc.devRef .tc main_arg5) = V (Proc.devRef .tc main_arg5) := by
  rw [after_of_forall_not_mem (b := Proc.devRef .tc main_arg5) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg5) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg6` is written by no operation. -/
theorem arg6_kept (V : Valuation τ sig (Elt F)) :
    after opsTail (after opsHead V) (Proc.devRef .tc main_arg6) = V (Proc.devRef .tc main_arg6) := by
  rw [after_of_forall_not_mem (b := Proc.devRef .tc main_arg6) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg6) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg7` is written by no operation. -/
theorem arg7_kept (V : Valuation τ sig (Elt F)) :
    after opsTail (after opsHead V) (Proc.devRef .tc main_arg7) = V (Proc.devRef .tc main_arg7) := by
  rw [after_of_forall_not_mem (b := Proc.devRef .tc main_arg7) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg7) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg8` is written by no operation. -/
theorem arg8_kept (V : Valuation τ sig (Elt F)) :
    after opsTail (after opsHead V) (Proc.devRef .tc main_arg8) = V (Proc.devRef .tc main_arg8) := by
  rw [after_of_forall_not_mem (b := Proc.devRef .tc main_arg8) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg8) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg9` is written by no operation. -/
theorem arg9_kept (V : Valuation τ sig (Elt F)) :
    after opsTail (after opsHead V) (Proc.devRef .tc main_arg9) = V (Proc.devRef .tc main_arg9) := by
  rw [after_of_forall_not_mem (b := Proc.devRef .tc main_arg9) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg9) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg10` is written by no operation. -/
theorem arg10_kept (V : Valuation τ sig (Elt F)) :
    after opsTail (after opsHead V) (Proc.devRef .tc main_arg10) = V (Proc.devRef .tc main_arg10) := by
  rw [after_of_forall_not_mem (b := Proc.devRef .tc main_arg10) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg10) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg11` is written by no operation. -/
theorem arg11_kept (V : Valuation τ sig (Elt F)) :
    after opsTail (after opsHead V) (Proc.devRef .tc main_arg11) = V (Proc.devRef .tc main_arg11) := by
  rw [after_of_forall_not_mem (b := Proc.devRef .tc main_arg11) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg11) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg12` is written by no operation. -/
theorem arg12_kept (V : Valuation τ sig (Elt F)) :
    after opsTail (after opsHead V) (Proc.devRef .tc main_arg12) = V (Proc.devRef .tc main_arg12) := by
  rw [after_of_forall_not_mem (b := Proc.devRef .tc main_arg12) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg12) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg13` is written by no operation. -/
theorem arg13_kept (V : Valuation τ sig (Elt F)) :
    after opsTail (after opsHead V) (Proc.devRef .tc main_arg13) = V (Proc.devRef .tc main_arg13) := by
  rw [after_of_forall_not_mem (b := Proc.devRef .tc main_arg13) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg13) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg14` is written by no operation. -/
theorem arg14_kept (V : Valuation τ sig (Elt F)) :
    after opsTail (after opsHead V) (Proc.devRef .tc main_arg14) = V (Proc.devRef .tc main_arg14) := by
  rw [after_of_forall_not_mem (b := Proc.devRef .tc main_arg14) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg14) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg15` is written by no operation. -/
theorem arg15_kept (V : Valuation τ sig (Elt F)) :
    after opsTail (after opsHead V) (Proc.devRef .tc main_arg15) = V (Proc.devRef .tc main_arg15) := by
  rw [after_of_forall_not_mem (b := Proc.devRef .tc main_arg15) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg15) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg16` is written by no operation. -/
theorem arg16_kept (V : Valuation τ sig (Elt F)) :
    after opsTail (after opsHead V) (Proc.devRef .tc main_arg16) = V (Proc.devRef .tc main_arg16) := by
  rw [after_of_forall_not_mem (b := Proc.devRef .tc main_arg16) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg16) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg17` is written by no operation. -/
theorem arg17_kept (V : Valuation τ sig (Elt F)) :
    after opsTail (after opsHead V) (Proc.devRef .tc main_arg17) = V (Proc.devRef .tc main_arg17) := by
  rw [after_of_forall_not_mem (b := Proc.devRef .tc main_arg17) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg17) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg18` is written by no operation. -/
theorem arg18_kept (V : Valuation τ sig (Elt F)) :
    after opsTail (after opsHead V) (Proc.devRef .tc main_arg18) = V (Proc.devRef .tc main_arg18) := by
  rw [after_of_forall_not_mem (b := Proc.devRef .tc main_arg18) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg18) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg19` is written by no operation. -/
theorem arg19_kept (V : Valuation τ sig (Elt F)) :
    after opsTail (after opsHead V) (Proc.devRef .tc main_arg19) = V (Proc.devRef .tc main_arg19) := by
  rw [after_of_forall_not_mem (b := Proc.devRef .tc main_arg19) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg19) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg20` is written by no operation. -/
theorem arg20_kept (V : Valuation τ sig (Elt F)) :
    after opsTail (after opsHead V) (Proc.devRef .tc main_arg20) = V (Proc.devRef .tc main_arg20) := by
  rw [after_of_forall_not_mem (b := Proc.devRef .tc main_arg20) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg20) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg21` is written by no operation. -/
theorem arg21_kept (V : Valuation τ sig (Elt F)) :
    after opsTail (after opsHead V) (Proc.devRef .tc main_arg21) = V (Proc.devRef .tc main_arg21) := by
  rw [after_of_forall_not_mem (b := Proc.devRef .tc main_arg21) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg21) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]
set_option maxHeartbeats 2000000 in
/-- `main_arg22` is written by no operation. -/
theorem arg22_kept (V : Valuation τ sig (Elt F)) :
    after opsTail (after opsHead V) (Proc.devRef .tc main_arg22) = V (Proc.devRef .tc main_arg22) := by
  rw [after_of_forall_not_mem (b := Proc.devRef .tc main_arg22) _ _ (List.forall_iff_forall_mem.mp (by
      simp only [opsTail, List.Forall, nullary_writes, unary_writes, binary_writes, ternary_writes, quaternary_writes, reshape_writes, binaryIndexed_writes, nary_writes, Finset.mem_singleton]
      repeat' apply And.intro
      all_goals exact devRef_ne_of_ne (by decide))),
    after_of_forall_not_mem (b := Proc.devRef .tc main_arg22) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))]

set_option maxHeartbeats 1000000 in
/-- Nor by an operation of the first stretch alone. -/
theorem arg3_head (V : Valuation τ sig (Elt F)) :
    after opsHead V (Proc.devRef .tc main_arg3) = V (Proc.devRef .tc main_arg3) :=
  after_of_forall_not_mem (b := Proc.devRef .tc main_arg3) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg4_head (V : Valuation τ sig (Elt F)) :
    after opsHead V (Proc.devRef .tc main_arg4) = V (Proc.devRef .tc main_arg4) :=
  after_of_forall_not_mem (b := Proc.devRef .tc main_arg4) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg13_head (V : Valuation τ sig (Elt F)) :
    after opsHead V (Proc.devRef .tc main_arg13) = V (Proc.devRef .tc main_arg13) :=
  after_of_forall_not_mem (b := Proc.devRef .tc main_arg13) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg14_head (V : Valuation τ sig (Elt F)) :
    after opsHead V (Proc.devRef .tc main_arg14) = V (Proc.devRef .tc main_arg14) :=
  after_of_forall_not_mem (b := Proc.devRef .tc main_arg14) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg15_head (V : Valuation τ sig (Elt F)) :
    after opsHead V (Proc.devRef .tc main_arg15) = V (Proc.devRef .tc main_arg15) :=
  after_of_forall_not_mem (b := Proc.devRef .tc main_arg15) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg16_head (V : Valuation τ sig (Elt F)) :
    after opsHead V (Proc.devRef .tc main_arg16) = V (Proc.devRef .tc main_arg16) :=
  after_of_forall_not_mem (b := Proc.devRef .tc main_arg16) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg17_head (V : Valuation τ sig (Elt F)) :
    after opsHead V (Proc.devRef .tc main_arg17) = V (Proc.devRef .tc main_arg17) :=
  after_of_forall_not_mem (b := Proc.devRef .tc main_arg17) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg18_head (V : Valuation τ sig (Elt F)) :
    after opsHead V (Proc.devRef .tc main_arg18) = V (Proc.devRef .tc main_arg18) :=
  after_of_forall_not_mem (b := Proc.devRef .tc main_arg18) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg19_head (V : Valuation τ sig (Elt F)) :
    after opsHead V (Proc.devRef .tc main_arg19) = V (Proc.devRef .tc main_arg19) :=
  after_of_forall_not_mem (b := Proc.devRef .tc main_arg19) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg20_head (V : Valuation τ sig (Elt F)) :
    after opsHead V (Proc.devRef .tc main_arg20) = V (Proc.devRef .tc main_arg20) :=
  after_of_forall_not_mem (b := Proc.devRef .tc main_arg20) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg21_head (V : Valuation τ sig (Elt F)) :
    after opsHead V (Proc.devRef .tc main_arg21) = V (Proc.devRef .tc main_arg21) :=
  after_of_forall_not_mem (b := Proc.devRef .tc main_arg21) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))
set_option maxHeartbeats 1000000 in
/-- Nor by an operation of the first stretch alone. -/
theorem arg22_head (V : Valuation τ sig (Elt F)) :
    after opsHead V (Proc.devRef .tc main_arg22) = V (Proc.devRef .tc main_arg22) :=
  after_of_forall_not_mem (b := Proc.devRef .tc main_arg22) _ _ (List.forall_iff_forall_mem.mp (by
      simp only [opsHead, List.Forall, nullary_writes, unary_writes, binary_writes, ternary_writes, quaternary_writes, reshape_writes, binaryIndexed_writes, nary_writes, Finset.mem_singleton]
      repeat' apply And.intro
      all_goals exact devRef_ne_of_ne (by decide)))

end Cert.ReferenceIdeal.Hand

end
-- ==== Proof.RefTail.lean ====
import proofs.«147689_j74569222193915_2_alg».proof.Proof.RefOps
import proofs.«147689_j74569222193915_2_alg».proof.Proof.TailFn
import Idealize.ShloMosaic.Lib.StableHlo.Run

/-!
# The reference's tail is `T`

The reference's last 103 operations are, one for one, the operations the kernel program runs after its
edge kernel; only the buffers are numbered differently. Folded over any contents `W` of the device's
buffers they therefore leave in the result buffer the same function `T` of what `W` holds in the
per-edge array's buffer, the row-index buffer and the argument buffers. The shapes and the operation
records are this program's own copies of the kernel program's; they agree by unfolding.
-/

noncomputable section

namespace Cert.ReferenceIdeal.TailValue

open Cert.ReferenceIdeal Cert.ReferenceIdeal.Gen Idealize.ShloMosaic Idealize.ShloMosaic.TcCoe Idealize.SL.Sem Idealize.ShloMosaic.StableHlo

/-- Two arrays joined along an axis, with the two arrays as plain arguments (in `concatenate` they sit
    inside a list of shape-indexed pairs, where a rewrite of the contents does not reach them). -/
def join2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

/-- A join of two arrays is `join2` of them. -/
theorem join2_fold {α : Type} (t : Shape) (ax : Fin t.rank) (s₁ s₂ : Shape) (h : Shape.Concatenates [s₁, s₂] t ax)
    (a : s₁.Idx → α) (b : s₂.Idx → α) : concatenate t ax [⟨s₁, a⟩, ⟨s₂, b⟩] h = join2 t ax s₁ s₂ h a b := rfl

set_option maxRecDepth 8192 in
set_option maxHeartbeats 64000000 in
/-- Whatever the buffers hold before them, the reference's last 103 operations leave `T` of the per-edge
    array, the row indices and the arguments in the result buffer. -/
theorem tail_ref (W : Valuation τ sig (Elt Ideal)) :
    StableHlo.after (Cert.ReferenceIdeal.Hand.opsTail (F := Ideal)) W (Proc.devRef .tc main_v114)
      = Cert.KernelIdeal.Tail.T (W (Proc.devRef .tc main_v44)) (W (Proc.devRef .tc main_v1)) (W (Proc.devRef .tc main_arg3))
          (W (Proc.devRef .tc main_arg4)) (W (Proc.devRef .tc main_arg13)) (W (Proc.devRef .tc main_arg14))
          (W (Proc.devRef .tc main_arg15)) (W (Proc.devRef .tc main_arg16)) (W (Proc.devRef .tc main_arg17))
          (W (Proc.devRef .tc main_arg18)) (W (Proc.devRef .tc main_arg19)) (W (Proc.devRef .tc main_arg20))
          (W (Proc.devRef .tc main_arg21)) (W (Proc.devRef .tc main_arg22)) := by
  -- each operation's result at its own buffer is its function of its operands' contents, and any other
  -- buffer keeps its contents; a join's two operands are brought out of their list so that this reaches them
  simp (disch := decide) only [after_cons, after_nil,
    nullary_result', unary_result', binary_result', ternary_result', quaternary_result', reshape_result',
    nary4_result', nary_result', unaryIndexed_result', binaryIndexed_result',
    nullary_result_ne', unary_result_ne', binary_result_ne', ternary_result_ne', quaternary_result_ne',
    reshape_result_ne', nary_result_ne', unaryIndexed_result_ne', binaryIndexed_result_ne', join2_fold]
  -- what is left is `T`'s own chain, over this program's copies of the shapes and operation records
  unfold Cert.KernelIdeal.Tail.T
  rfl

end Cert.ReferenceIdeal.TailValue
-- ==== Proof.RefHeadEdge.lean ====
import proofs.«147689_j74569222193915_2_alg».proof.Proof.Gen.ReferenceIdeal
import proofs.«147689_j74569222193915_2_alg».proof.Proof.RowSpec

/-!
The reference's edge stage as ONE function of the two gathered endpoint arrays, the edge attributes and the eight
weight arrays, and its value at edge `e`, entry `q`: the row value `Cert.RowSpec.row` of that edge.

The stage is the composition of the reference's operations from the first join to the per-edge result, written over
variables: the join `[xr, xc, x2]` along the columns; a `dot_general` contracting those nine columns with the rows of
the first weights; the bias vector viewed as one row and repeated over the edges, added; the rectifier against a
repeated zero; a second product and bias; the join `[xc, e2]`; and two more layers in the same way. Every operation
acts edge by edge, so entry `(e, q)` of the result depends on row `e` of the three `[1600000, 3]` arrays only.
-/

noncomputable section

namespace Cert.ReferenceIdeal.HeadValue

open Cert.ReferenceIdeal Cert.ReferenceIdeal.Facts₀ Idealize.ShloMosaic Idealize.ShloMosaic.ValueIdx
open Cert.RowSpec (cat3 cat2 dense relu edge row)

/-- Contents of a buffer of a given shape and element type at the ideal instance. -/
abbrev A' (S : Shape) (e : EltTy) := (⟨S, e⟩ : BufTy).Contents (Elt Ideal)

/-! ## The stage -/

/-- The first join: three `[1600000, 3]` arrays along the columns. -/
def cat3v (a b c : A' S1600000x3 .f32) : A' S1600000x9 .f32 :=
  concatenate S1600000x9 1 [⟨S1600000x3, a⟩, ⟨S1600000x3, b⟩, ⟨S1600000x3, c⟩]
    concatenates_S1600000x3_S1600000x3_S1600000x3_S1600000x9_d1

/-- The second join: a `[1600000, 3]` and a `[1600000, 15]` array along the columns. -/
def cat2v (a : A' S1600000x3 .f32) (b : A' S1600000x15 .f32) : A' S1600000x18 .f32 :=
  concatenate S1600000x18 1 [⟨S1600000x3, a⟩, ⟨S1600000x15, b⟩] concatenates_S1600000x3_S1600000x15_S1600000x18_d1

/-- The reference's operations from the first join to the per-edge result, composed, over variables. -/
def refEdge (xr : A' S1600000x3 .f32) (xc : A' S1600000x3 .f32) (x2 : A' S1600000x3 .f32) (x5 : A' S9x50 .f32) (x6 : A' S50 .f32) (x7 : A' S50x15 .f32) (x8 : A' S15 .f32) (x9 : A' S18x50 .f32) (x10 : A' S50 .f32) (x11 : A' S50x15 .f32) (x12 : A' S15 .f32) : A' S1600000x15 .f32 :=
  have v18 : A' S1600000x9 .f32 := cat3v xr xc x2
  have v19 : A' S1600000x50 .f32 := Host.dotGeneral (F := Ideal) (φ₁ := .f32) (φ₂ := .f32) dot_S1600000x9_S9x50_S1600000x50_1_0_0_1_n_n none v18 x5
  have v20 : A' S1x50 .f32 := broadcastInDim S1x50 ![1] bcast_S50_S1x50_1 x6
  have v21 : A' S1600000x50 .f32 := broadcastInDim S1600000x50 ![0, 1] bcast_S1x50_S1600000x50_0_1 v20
  have v22 : A' S1600000x50 .f32 := addf (F := Ideal) (φ := .f32) v19 v21
  have c0 : A' S_ .f32 := constant (F := Ideal) S_ .f32 0x00000000#32
  have z0 : A' S1600000x50 .f32 := broadcastInDim S1600000x50 ![] bcast_S_S1600000x50 c0
  have v23 : A' S1600000x50 .f32 := maximumf (F := Ideal) (φ := .f32) v22 z0
  have v24 : A' S1600000x15 .f32 := Host.dotGeneral (F := Ideal) (φ₁ := .f32) (φ₂ := .f32) dot_S1600000x50_S50x15_S1600000x15_1_0_0_1_n_n none v23 x7
  have v25 : A' S1x15 .f32 := broadcastInDim S1x15 ![1] bcast_S15_S1x15_1 x8
  have v26 : A' S1600000x15 .f32 := broadcastInDim S1600000x15 ![0, 1] bcast_S1x15_S1600000x15_0_1 v25
  have v27 : A' S1600000x15 .f32 := addf (F := Ideal) (φ := .f32) v24 v26
  have v35 : A' S1600000x18 .f32 := cat2v xc v27
  have v36 : A' S1600000x50 .f32 := Host.dotGeneral (F := Ideal) (φ₁ := .f32) (φ₂ := .f32) dot_S1600000x18_S18x50_S1600000x50_1_0_0_1_n_n none v35 x9
  have v37 : A' S1x50 .f32 := broadcastInDim S1x50 ![1] bcast_S50_S1x50_1 x10
  have v38 : A' S1600000x50 .f32 := broadcastInDim S1600000x50 ![0, 1] bcast_S1x50_S1600000x50_0_1 v37
  have v39 : A' S1600000x50 .f32 := addf (F := Ideal) (φ := .f32) v36 v38
  have c1 : A' S_ .f32 := constant (F := Ideal) S_ .f32 0x00000000#32
  have z1 : A' S1600000x50 .f32 := broadcastInDim S1600000x50 ![] bcast_S_S1600000x50 c1
  have v40 : A' S1600000x50 .f32 := maximumf (F := Ideal) (φ := .f32) v39 z1
  have v41 : A' S1600000x15 .f32 := Host.dotGeneral (F := Ideal) (φ₁ := .f32) (φ₂ := .f32) dot_S1600000x50_S50x15_S1600000x15_1_0_0_1_n_n none v40 x11
  have v42 : A' S1x15 .f32 := broadcastInDim S1x15 ![1] bcast_S15_S1x15_1 x12
  have v43 : A' S1600000x15 .f32 := broadcastInDim S1600000x15 ![0, 1] bcast_S1x15_S1600000x15_0_1 v42
  addf (F := Ideal) (φ := .f32) v41 v43

/-! ## The layout operations of the stage, read at an index -/

/-- A vector `[N]` viewed as one row `[1, N]` and repeated over `R` rows reads, at `(r, j)`, its entry `j`. -/
theorem bias_apply {α : Type} {R N : Nat} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (j : Fin N) :
    broadcastInDim ⟨2, ![R, N]⟩ ![0, 1] h2 (broadcastInDim ⟨2, ![1, N]⟩ ![1] h1 b) (ix2 r j) = b (ix1 j) := by
  rw [broadcastInDim_apply ![0, 1] h2 _ (ix2 r j) (ix2 (0 : Fin 1) j) (fun a => match a with
    | ⟨0, _⟩ => by show 0 = if (1 : Nat) = 1 then 0 else r.val; rw [if_pos rfl]
    | ⟨1, _⟩ => by show j.val = if N = 1 then 0 else j.val; rw [if_neg hN])]
  exact broadcastInDim_apply ![1] h1 b (ix2 (0 : Fin 1) j) (ix1 j) (fun a => match a with
    | ⟨0, _⟩ => by show j.val = if N = 1 then 0 else j.val; rw [if_neg hN])

/-- One affine layer as the reference writes it — a plain `[R, K] × [K, N]` `dot_general` plus the bias vector
    repeated over the rows — at `(r, j)`. -/
theorem hostDense_apply {R K N : Nat} (hN : N ≠ 1) (x : FVec Ideal ⟨2, ![R, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (r : Fin R) (j : Fin N) :
    addf (Host.dotGeneral (DotDims.plain R K N) none x W)
        (broadcastInDim ⟨2, ![R, N]⟩ ![0, 1] h2 (broadcastInDim ⟨2, ![1, N]⟩ ![1] h1 b)) (ix2 r j)
      = dense (fun k => x (ix2 r k)) (fun k j => W (ix2 k j)) (fun j => b (ix1 j)) j := by
  rw [addf_apply, bias_apply hN]
  exact congrArg (· + b (ix1 j)) (PlainDot.dotGeneral_apply R K N none .single x W r j)

/-- The three products' dimension numbers are the plain ones: rows by contraction times contraction by columns. -/
theorem dot9_plain : dot_S1600000x9_S9x50_S1600000x50_1_0_0_1_n_n = DotDims.plain 1600000 9 50 := rfl
theorem dot50_plain : dot_S1600000x50_S50x15_S1600000x15_1_0_0_1_n_n = DotDims.plain 1600000 50 15 := rfl
theorem dot18_plain : dot_S1600000x18_S18x50_S1600000x50_1_0_0_1_n_n = DotDims.plain 1600000 18 50 := rfl

/-! ## The stage at an index -/

set_option maxHeartbeats 400000 in
/-- Entry `(e, q)` of the stage is the row value of edge `e` at `q`. -/
theorem refEdge_apply (xr : A' S1600000x3 .f32) (xc : A' S1600000x3 .f32) (x2 : A' S1600000x3 .f32) (x5 : A' S9x50 .f32) (x6 : A' S50 .f32) (x7 : A' S50x15 .f32) (x8 : A' S15 .f32) (x9 : A' S18x50 .f32) (x10 : A' S50 .f32) (x11 : A' S50x15 .f32) (x12 : A' S15 .f32) (e : Fin 1600000) (q : Fin 15) :
    refEdge xr xc x2 x5 x6 x7 x8 x9 x10 x11 x12 (ix2 e q)
      = row (fun k => xr (ix2 e k)) (fun k => xc (ix2 e k)) (fun k => x2 (ix2 e k)) (fun k j => x5 (ix2 k j))
          (fun j => x6 (ix1 j)) (fun j q' => x7 (ix2 j q')) (fun q' => x8 (ix1 q')) (fun k j => x9 (ix2 k j))
          (fun j => x10 (ix1 j)) (fun j q' => x11 (ix2 j q')) (fun q' => x12 (ix1 q')) q := by
  unfold refEdge cat3v cat2v Cert.RowSpec.row Cert.RowSpec.edge Cert.RowSpec.relu
  simp only [dot9_plain, dot50_plain, dot18_plain]
  simp only [hostDense_apply (show (50 : Nat) ≠ 1 by decide), hostDense_apply (show (15 : Nat) ≠ 1 by decide),
    maximumf_apply, Cert.RowSpec.concat3_apply, Cert.RowSpec.concat2_apply]
  -- what is left: the repeated scalar zero read at an index is the zero word
  rfl

end Cert.ReferenceIdeal.HeadValue

end
-- ==== Proof.RefHead.lean ====
import proofs.«147689_j74569222193915_2_alg».proof.Proof.RefOps
import proofs.«147689_j74569222193915_2_alg».proof.Proof.HeadFn
import proofs.«147689_j74569222193915_2_alg».proof.Proof.RefHeadEdge
import Idealize.ShloMosaic.Lib.StableHlo.Run

/-!
What the reference's first 55 operations leave in the per-edge result buffer, from any contents `V` of the buffers
before them: the edge stage `refEdge` of the two gathered endpoint arrays (the node table's rows at the edges' row and
column endpoints, through the shared functions of the node table and the edge list), the edge attributes and the
eight weight arrays; read at edge `e`, entry `q`, it is the row value of that edge. The program's third gather reads
the same start indices from the same table as its second: the same array.
-/

set_option maxRecDepth 16384

noncomputable section

namespace Cert.ReferenceIdeal.HeadValue

open Cert.ReferenceIdeal Cert.ReferenceIdeal.Facts₀
open Idealize.ShloMosaic Idealize.ShloMosaic.TcCoe Idealize.SL.Sem Idealize.ShloMosaic.StableHlo Idealize.ShloMosaic.ValueIdx

/-- The second join, as an operation prints it, is `cat2v`. -/
theorem cat2_fold (a : A' S1600000x3 .f32) (b : A' S1600000x15 .f32) :
    concatenate S1600000x18 1 [⟨S1600000x3, a⟩, ⟨S1600000x15, b⟩] concatenates_S1600000x3_S1600000x15_S1600000x18_d1
      = cat2v a b := rfl

/-- The first join's operation leaves, in its result buffer, the join of its three operands' contents. -/
theorem v18_result (hxs hy) (W : Valuation τ sig (Elt Ideal)) :
    (nary (τ := τ) ![main_v10, main_v17, main_arg2] main_v18
        (fun u => concatenate S1600000x9 1 [⟨S1600000x3, u 0⟩, ⟨S1600000x3, u 1⟩, ⟨S1600000x3, u 2⟩]
          concatenates_S1600000x3_S1600000x3_S1600000x3_S1600000x9_d1) hxs hy).result W (Proc.devRef .tc main_v18)
      = cat3v (W (Proc.devRef .tc main_v10)) (W (Proc.devRef .tc main_v17)) (W (Proc.devRef .tc main_arg2)) := by
  rw [nary_result]; rfl
theorem v18_result' (hxs hy) (W : Valuation τ sig (Elt Ideal)) :
    (nary (τ := τ) ![main_v10, main_v17, main_arg2] main_v18
        (fun u => concatenate S1600000x9 1 [⟨S1600000x3, u 0⟩, ⟨S1600000x3, u 1⟩, ⟨S1600000x3, u 2⟩]
          concatenates_S1600000x3_S1600000x3_S1600000x3_S1600000x9_d1) hxs hy).result W (no_index (Proc.devRef .tc main_v18))
      = cat3v (W (Proc.devRef .tc main_v10)) (W (Proc.devRef .tc main_v17)) (W (Proc.devRef .tc main_arg2)) :=
  v18_result hxs hy W

set_option maxHeartbeats 1000000 in
/-- The per-edge result buffer after the 55 operations: the edge stage of the gathered arrays and the arguments. -/
theorem head_v44 (V : Valuation τ sig (Elt Ideal)) :
    StableHlo.after (Cert.ReferenceIdeal.Hand.opsHead (F := Ideal)) V (Proc.devRef .tc main_v44)
      = refEdge (Cert.KernelIdeal.HeadFn.gatherRow (V (Proc.devRef .tc main_arg0)) (V (Proc.devRef .tc main_arg1)))
          (Cert.KernelIdeal.HeadFn.gatherCol (V (Proc.devRef .tc main_arg0)) (V (Proc.devRef .tc main_arg1)))
          (V (Proc.devRef .tc main_arg2)) (V (Proc.devRef .tc main_arg5)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) := by
  simp (disch := decide) only [after_cons, after_nil,
    nullary_result', unary_result', binary_result', ternary_result', reshape_result', v18_result',
    nullary_result_ne', unary_result_ne', binary_result_ne', ternary_result_ne', reshape_result_ne', nary_result_ne',
    cat2_fold]
  rfl

/-- The per-edge result at edge `e`, entry `q`: the row value of that edge. -/
theorem head_v44_apply (V : Valuation τ sig (Elt Ideal)) (e : Fin 1600000) (q : Fin 15) :
    StableHlo.after (Cert.ReferenceIdeal.Hand.opsHead (F := Ideal)) V (Proc.devRef .tc main_v44) (ix2 e q)
      = Cert.RowSpec.row (fun k => Cert.KernelIdeal.HeadFn.gatherRow (V (Proc.devRef .tc main_arg0)) (V (Proc.devRef .tc main_arg1)) (ix2 e k)) (fun k => Cert.KernelIdeal.HeadFn.gatherCol (V (Proc.devRef .tc main_arg0)) (V (Proc.devRef .tc main_arg1)) (ix2 e k)) (fun k => V (Proc.devRef .tc main_arg2) (ix2 e k)) (fun k j => V (Proc.devRef .tc main_arg5) (ix2 k j)) (fun j => V (Proc.devRef .tc main_arg6) (ix1 j)) (fun j q' => V (Proc.devRef .tc main_arg7) (ix2 j q')) (fun q' => V (Proc.devRef .tc main_arg8) (ix1 q')) (fun k j => V (Proc.devRef .tc main_arg9) (ix2 k j)) (fun j => V (Proc.devRef .tc main_arg10) (ix1 j)) (fun j q' => V (Proc.devRef .tc main_arg11) (ix2 j q')) (fun q' => V (Proc.devRef .tc main_arg12) (ix1 q')) q := by
  rw [head_v44]
  exact refEdge_apply _ _ _ _ _ _ _ _ _ _ _ e q

end Cert.ReferenceIdeal.HeadValue

end
-- ==== Proof.RefHeadRows.lean ====
import proofs.«147689_j74569222193915_2_alg».proof.Proof.RefOps
import proofs.«147689_j74569222193915_2_alg».proof.Proof.HeadFn
import Idealize.ShloMosaic.Lib.StableHlo.Run

/-!
# The reference's row endpoints

The reference's first two operations slice row `0` out of the edge list and reshape it to a vector; none of
the later operations of the edge stage writes that vector's buffer. So after the edge stage's operations,
from any contents `V` of the buffers, the buffer holds the edges' row endpoints as the function `rowsFn`
of the edge list that both programs share.
-/

noncomputable section

namespace Cert.ReferenceIdeal.HeadValue

open Cert.ReferenceIdeal Cert.ReferenceIdeal.Gen Idealize.ShloMosaic Idealize.ShloMosaic.TcCoe Idealize.SL.Sem Idealize.ShloMosaic.StableHlo

set_option maxRecDepth 8192 in
set_option maxHeartbeats 16000000 in
/-- After the edge stage's operations the row-endpoint buffer holds row `0` of the edge list as a vector. -/
theorem head_v1 (V : Valuation τ sig (Elt Ideal)) :
    StableHlo.after (Cert.ReferenceIdeal.Hand.opsHead (F := Ideal)) V (Proc.devRef .tc main_v1)
      = Cert.KernelIdeal.HeadFn.rowsFn (V (Proc.devRef .tc main_arg1)) := by
  -- the slice and the reshape write the buffer; every later operation leaves it as it is
  simp (disch := decide) only [after_cons, after_nil,
    nullary_result', unary_result', binary_result', ternary_result', quaternary_result', reshape_result',
    nary4_result', nary_result', unaryIndexed_result', binaryIndexed_result',
    nullary_result_ne', unary_result_ne', binary_result_ne', ternary_result_ne', quaternary_result_ne',
    reshape_result_ne', nary_result_ne', unaryIndexed_result_ne', binaryIndexed_result_ne']
  unfold Cert.KernelIdeal.HeadFn.rowsFn
  rfl

end Cert.ReferenceIdeal.HeadValue
-- ==== Proof.RefValue.lean ====
/-
  The value of the reference's run. Its first 55 operations leave, in the edge result, the one-edge row function of
  every edge — the edge stage of the arguments — and, in the row-endpoint vector, row 0 of the edge list; they
  write no argument. Its other 103 operations are the later operations' one function of those two buffers and of
  twelve arguments. So the result is that function of the edge stage of the arguments, and every argument ends as
  launched.
-/
import proofs.«147689_j74569222193915_2_alg».proof.Proof.RefOps
import proofs.«147689_j74569222193915_2_alg».proof.Proof.RefArgs
import proofs.«147689_j74569222193915_2_alg».proof.Proof.RefTail
import proofs.«147689_j74569222193915_2_alg».proof.Proof.RefHead
import proofs.«147689_j74569222193915_2_alg».proof.Proof.RefHeadRows
import proofs.«147689_j74569222193915_2_alg».proof.Proof.EdgeStage
import proofs.«147689_j74569222193915_2_alg».proof.Proof.TailFn
import Idealize.ShloMosaic.Lib.ValueIdx

set_option maxRecDepth 16384

noncomputable section

namespace Cert.ReferenceIdeal.HandValue

open Cert.ReferenceIdeal Cert.ReferenceIdeal.Gen Cert.ReferenceIdeal.Hand Cert.ReferenceIdeal.HeadValue
open Idealize.ShloMosaic Idealize.ShloMosaic.TcCoe Idealize.SL.Sem Idealize.ShloMosaic.StableHlo Idealize.ShloMosaic.ValueIdx

/-- The edge result after the first stretch is the edge stage of the arguments. -/
theorem edge_ref (V : Valuation τ sig (Elt Ideal)) :
    after (opsHead (F := Ideal)) V (Proc.devRef .tc main_v44) = (Cert.KernelIdeal.HeadFn.edgeStage (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  funext i
  obtain ⟨e, q, rfl⟩ : ∃ (e : Fin 1600000) (q : Fin 15), i = ix2 e q := ⟨i 0, i 1, eq_ix2 i⟩
  exact head_v44_apply V e q

/-- The result buffer after both stretches. -/
theorem ref_value (V : Valuation τ sig (Elt Ideal)) :
    after (opsTail (F := Ideal)) (after (opsHead (F := Ideal)) V) (Proc.devRef .tc main_v114) = Cert.KernelIdeal.Tail.T (Cert.KernelIdeal.HeadFn.edgeStage (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (Cert.KernelIdeal.HeadFn.rowsFn (V (Proc.devRef .tc main_arg1))) (V (Proc.devRef .tc main_arg3)) (V (Proc.devRef .tc main_arg4)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  refine (Cert.ReferenceIdeal.TailValue.tail_ref _).trans ?_
  exact congr (congr (congr (congr (congr (congr (congr (congr (congr (congr (congr (congr (congr (congrArg Cert.KernelIdeal.Tail.T (edge_ref V)) (head_v1 V)) (arg3_head V)) (arg4_head V)) (arg13_head V)) (arg14_head V)) (arg15_head V)) (arg16_head V)) (arg17_head V)) (arg18_head V)) (arg19_head V)) (arg20_head V)) (arg21_head V)) (arg22_head V)

/-- The run with the result named: every weakly fair execution ends with the result buffer at the later operations'
    function of the edge stage of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v114) = Cert.KernelIdeal.Tail.T (Cert.KernelIdeal.HeadFn.edgeStage (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (Cert.KernelIdeal.HeadFn.rowsFn (m ((c.tc : Thread nD τ).loc main_arg1))) (m ((c.tc : Thread nD τ).loc main_arg3)) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c main_v114).trans (ref_value (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c)),
      (h c main_arg11).trans (arg11_kept (launchContents m c)),
      (h c main_arg12).trans (arg12_kept (launchContents m c)),
      (h c main_arg13).trans (arg13_kept (launchContents m c)),
      (h c main_arg14).trans (arg14_kept (launchContents m c)),
      (h c main_arg15).trans (arg15_kept (launchContents m c)),
      (h c main_arg16).trans (arg16_kept (launchContents m c)),
      (h c main_arg17).trans (arg17_kept (launchContents m c)),
      (h c main_arg18).trans (arg18_kept (launchContents m c)),
      (h c main_arg19).trans (arg19_kept (launchContents m c)),
      (h c main_arg20).trans (arg20_kept (launchContents m c)),
      (h c main_arg21).trans (arg21_kept (launchContents m c)),
      (h c main_arg22).trans (arg22_kept (launchContents m c))⟩) (Cert.ReferenceIdeal.Hand.run m ρ)

end Cert.ReferenceIdeal.HandValue

end
-- ==== Proof.lean ====
/-
  The certificate of a message-passing layer whose edge update is a tiled kernel. For every edge the program
  gathers the node rows at the edge's two endpoints, joins them with the edge's attributes, applies one dense
  layer pair (9 → 50, relu, 50 → 15), joins the result with the column endpoint's row and applies a second pair
  (18 → 50, relu, 50 → 15); the kernel does this for 2000 edges per grid point over 800 points, the reference for
  all 1,600,000 edges at once. Everything after that — the mean over each node's edges, the mean over each graph's
  nodes, a dense layer pair on the graphs, a second mean, a last dense layer pair with a constant scale, and a
  log-softmax — is the same sequence of host operations in both programs.

  The three frames: each kernel program is host operations, one region, host operations; its body reads its
  blocks and stores one whole block, so the region leaves every argument as it found it and no host operation
  writes an argument. The reference is host operations only, and its frame is its run with the result dropped.
  The idealization rewrote nothing, so `preserves` has nothing to state. The value: block `t` of the region's
  result is the one-edge row function of rows `2000 t …`, the blocks cover the result, and the reference's edge
  stage is the same row function of the same rows — sums over a concatenation on both sides, in the same order,
  so no law of the extended reals beyond the definitions is used and the precondition is never opened. The later
  operations are carried as one function applied to equal arguments.
-/
import proofs.«147689_j74569222193915_2_alg».proof.Defs
import proofs.«147689_j74569222193915_2_alg».proof.Proof.Gen.Kernel
import proofs.«147689_j74569222193915_2_alg».proof.Proof.Gen.KernelIdeal
import proofs.«147689_j74569222193915_2_alg».proof.Proof.Gen.ReferenceIdeal
import proofs.«147689_j74569222193915_2_alg».proof.Proof.Gen.Pre_finite_inputs
import proofs.«147689_j74569222193915_2_alg».proof.Proof.KRun
import proofs.«147689_j74569222193915_2_alg».proof.Proof.KIRun
import proofs.«147689_j74569222193915_2_alg».proof.Proof.KIValue
import proofs.«147689_j74569222193915_2_alg».proof.Proof.RefValue

noncomputable section

namespace Cert.Proof

open Idealize.ShloMosaic Idealize.SL.Sem

/-- The word-level kernel program runs to the end and leaves its arguments unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.HandValue.run m ρ)

/-- The idealization rewrote no operation. -/
theorem preserves : Cert.preserves_Kernel_KernelIdeal := trivial

/-- Both idealized programs end with the later operations' one function of the edge stage of the arguments, of the
    row endpoints and of the arguments, at arguments that agree. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.HandValue.run m' ρ')
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
